-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x8192x8192 : Shape := ⟨3, ![3, 8192, 8192]⟩
abbrev S3x8192x128 : Shape := ⟨3, ![3, 8192, 128]⟩
abbrev S3x128 : Shape := ⟨2, ![3, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S3x8192x128 : S_.BroadcastsInDim S3x8192x128 (![] : Fin 0 → Fin S3x8192x128.rank)
  reducesTo_S3x8192x128_S_d0_1_2 : S3x8192x128.ReducesTo [0, 1, 2] S_
  h_S_ : 0 < S_.numel
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S1 .f32) (main_arg9 : FVec F S384x256 .f32) (main_arg10 : FVec F S256 .f32) (main_arg11 : FVec F S256x128 .f32) (main_arg12 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S384x256 .f32 := Host.absf main_arg9
  let main_cst_14 : FVec F S_ .f32 := constant S_ .f32 0x7F800000#32
  let main_v40 : FVec F S384x256 .f32 := broadcastInDim S384x256 ![] bcast_S_S384x256 main_cst_14
  let main_v41 : IVec S384x256 1 := cmpf .olt main_v39 main_v40
  let main_c_15 : IVec S_ 1 := constantI S_ 1 1#1
  let main_v42 : IVec S_ 1 := (fun x v => Host.reduce IntOp.andi x v reducesTo_S384x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_v48 main_v49 main_v50

def fn_part1 {F : FTy → Type} [FloatOps F] (main_arg5 : FVec F S128x64 .f32) (main_arg6 : FVec F S64 .f32) (main_arg7 : FVec F S64x1 .f32) (main_arg8 : FVec F S1 .f32) (main_arg9 : FVec F S384x256 .f32) (main_arg10 : FVec F S256 .f32) (main_arg11 : FVec F S256x128 .f32) (main_arg12 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : IVec S3x8192x8192 32) (main_arg1 : FVec F S3x8192x128 .f32) (main_arg2 : FVec F S3x128 .f32) (main_arg3 : FVec F S3x128x128 .f32) (main_arg4 : FVec F S3x128 .f32) (main_arg5 : FVec F S128x64 .f32) (main_arg6 : FVec F S64 .f32) (main_arg7 : FVec F S64x1 .f32) (main_arg8 : FVec F S1 .f32) (main_arg9 : FVec F S384x256 .f32) (main_arg10 : FVec F S256 .f32) (main_arg11 : FVec F S256x128 .f32) (main_arg12 : FVec F S128 .f32) : IVec S_ 1 :=
  let main_v0 : FVec F S3x8192x128 .f32 := Host.absf main_arg1
  let main_cst : FVec F S_ .f32 := constant S_ .f32 0x7F800000#32
  let main_v1 : FVec F S3x8192x128 .f32 := broadcastInDim S3x8192x128 ![] bcast_S_S3x8192x128 main_cst
  let main_v2 : IVec S3x8192x128 1 := cmpf .olt main_v0 main_v1
  let main_c : IVec S_ 1 := constantI S_ 1 1#1
  let main_v3 : IVec S_ 1 := (fun x v => Host.reduce IntOp.andi x v reducesTo_S3x8192x128_S_d0_1_2 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_arg12 main_v13 main_v16
-- ==== Kernel.lean ====
abbrev S3x8192x8192 : Shape := ⟨3, ![3, 8192, 8192]⟩
abbrev S3x8192x128 : Shape := ⟨3, ![3, 8192, 128]⟩
abbrev S3x128 : Shape := ⟨2, ![3, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S384x256 : Shape := ⟨2, ![384, 256]⟩
abbrev S256 : Shape := ⟨1, ![256]⟩
abbrev S256x128 : Shape := ⟨2, ![256, 128]⟩
abbrev S128 : Shape := ⟨1, ![128]⟩
abbrev S3x8192x1 : Shape := ⟨3, ![3, 8192, 1]⟩
abbrev S3x1024x1024 : Shape := ⟨3, ![3, 1024, 1024]⟩
abbrev S3x1024x1 : Shape := ⟨3, ![3, 1024, 1]⟩
abbrev S3x1024 : Shape := ⟨2, ![3, 1024]⟩
abbrev S3x1x128 : Shape := ⟨3, ![3, 1, 128]⟩
abbrev S3x256x8192 : Shape := ⟨3, ![3, 256, 8192]⟩
abbrev S3x256x1 : Shape := ⟨3, ![3, 256, 1]⟩
abbrev S3x256x128 : Shape := ⟨3, ![3, 256, 128]⟩
abbrev S_ : Shape := ⟨0, ![]⟩
abbrev S3x64 : Shape := ⟨2, ![3, 64]⟩
abbrev S1x64 : Shape := ⟨2, ![1, 64]⟩
abbrev S3x1 : Shape := ⟨2, ![3, 1]⟩
abbrev S1x1 : Shape := ⟨2, ![1, 1]⟩
abbrev S3 : Shape := ⟨1, ![3]⟩
abbrev S3x1x1 : Shape := ⟨3, ![3, 1, 1]⟩
abbrev S8192x3x128 : Shape := ⟨3, ![8192, 3, 128]⟩
abbrev S8192x384 : Shape := ⟨2, ![8192, 384]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩

abbrev nBuf : Space → Nat
  | .hbm => 71
  | .vmem => 22
  | .smem => 0
  | _ => 0

abbrev bufTy : (tb : Table) → Fin (tcTables nBuf tb) → BufTy
  | .hbm, ⟨0, _⟩ => ⟨S3x8192x8192, .i32⟩
  | .hbm, ⟨1, _⟩ => ⟨S3x8192x128, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S384x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S3x8192x8192, .bf16⟩
  | .hbm, ⟨14, _⟩ => ⟨S3x8192x1, .f32⟩
  | .hbm, ⟨15, _⟩ => ⟨S3x8192x1, .f32⟩
  | .hbm, ⟨16, _⟩ => ⟨S3x8192x128, .f32⟩
  | .hbm, ⟨17, _⟩ => ⟨S3x8192x128, .f32⟩
  | .hbm, ⟨18, _⟩ => ⟨S3x8192x128, .bf16⟩
  | .hbm, ⟨19, _⟩ => ⟨S3x1x128, .f32⟩
  | .hbm, ⟨20, _⟩ => ⟨S3x8192x128, .f32⟩
  | .hbm, ⟨21, _⟩ => ⟨S3x8192x128, .f32⟩
  | .hbm, ⟨22, _⟩ => ⟨S3x8192x128, .f32⟩
  | .hbm, ⟨23, _⟩ => ⟨S3x8192x128, .f32⟩
  | .hbm, ⟨24, _⟩ => ⟨S3x8192x128, .bf16⟩
  | .hbm, ⟨25, _⟩ => ⟨S3x1x128, .f32⟩
  | .hbm, ⟨26, _⟩ => ⟨S3x8192x128, .f32⟩
  | .hbm, ⟨27, _⟩ => ⟨S_, .f32⟩
  | .hbm, ⟨28, _⟩ => ⟨S3x128, .f32⟩
  | .hbm, ⟨29, _⟩ => ⟨S_, .f32⟩
  | .hbm, ⟨30, _⟩ => ⟨S3x128, .f32⟩
  | .hbm, ⟨31, _⟩ => ⟨S3x128, .f32⟩
  | .hbm, ⟨32, _⟩ => ⟨S3x64, .f32⟩
  | .hbm, ⟨33, _⟩ => ⟨S1x64, .f32⟩
  | .hbm, ⟨34, _⟩ => ⟨S3x64, .f32⟩
  | .hbm, ⟨35, _⟩ => ⟨S3x64, .f32⟩
  | .hbm, ⟨36, _⟩ => ⟨S3x64, .f32⟩
  | .hbm, ⟨37, _⟩ => ⟨S3x1, .f32⟩
  | .hbm, ⟨38, _⟩ => ⟨S1x1, .f32⟩
  | .hbm, ⟨39, _⟩ => ⟨S3x1, .f32⟩
  | .hbm, ⟨40, _⟩ => ⟨S3x1, .f32⟩
  | .hbm, ⟨41, _⟩ => ⟨S3, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S3, .f32⟩
  | .hbm, ⟨48, _⟩ => ⟨S3, .f32⟩
  | .hbm, ⟨49, _⟩ => ⟨S3, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S3, .f32⟩
  | .hbm, ⟨54, _⟩ => ⟨S3, .f32⟩
  | .hbm, ⟨55, _⟩ => ⟨S3x1x1, .f32⟩
  | .hbm, ⟨56, _⟩ => ⟨S3x8192x128, .f32⟩
  | .hbm, ⟨57, _⟩ => ⟨S3x8192x128, .f32⟩
  | .hbm, ⟨58, _⟩ => ⟨S8192x3x128, .f32⟩
  | .hbm, ⟨59, _⟩ => ⟨S8192x384, .f32⟩
  | .hbm, ⟨60, _⟩ => ⟨S8192x256, .f32⟩
  | .hbm, ⟨61, _⟩ => ⟨S1x256, .f32⟩
  | .hbm, ⟨62, _⟩ => ⟨S8192x256, .f32⟩
  | .hbm, ⟨63, _⟩ => ⟨S8192x256, .f32⟩
  | .hbm, ⟨64, _⟩ => ⟨S_, .f32⟩
  | .hbm, ⟨65, _⟩ => ⟨S8192x256, .f32⟩
  | .hbm, ⟨66, _⟩ => ⟨S8192x256, .f32⟩
  | .hbm, ⟨67, _⟩ => ⟨S8192x128, .f32⟩
  | .hbm, ⟨68, _⟩ => ⟨S1x128, .f32⟩
  | .hbm, ⟨69, _⟩ => ⟨S8192x128, .f32⟩
  | .hbm, ⟨70, _⟩ => ⟨S8192x128, .f32⟩
  | .local _ .vmem, ⟨0, _⟩ => ⟨S3x1024x1024, .i32⟩
  | .local _ .vmem, ⟨1, _⟩ => ⟨S3x1024x1024, .i32⟩
  | .local _ .vmem, ⟨2, _⟩ => ⟨S3x1024x1024, .bf16⟩
  | .local _ .vmem, ⟨3, _⟩ => ⟨S3x1024x1024, .bf16⟩
  | .local _ .vmem, ⟨4, _⟩ => ⟨S3x1024x1, .f32⟩
  | .local _ .vmem, ⟨5, _⟩ => ⟨S3x1024x1, .f32⟩
  | .local _ .vmem, ⟨6, _⟩ => ⟨S3x256x8192, .bf16⟩
  | .local _ .vmem, ⟨7, _⟩ => ⟨S3x256x8192, .bf16⟩
  | .local _ .vmem, ⟨8, _⟩ => ⟨S3x8192x128, .bf16⟩
  | .local _ .vmem, ⟨9, _⟩ => ⟨S3x256x1, .f32⟩
  | .local _ .vmem, ⟨10, _⟩ => ⟨S3x256x1, .f32⟩
  | .local _ .vmem, ⟨11, _⟩ => ⟨S3x1x128, .f32⟩
  | .local _ .vmem, ⟨12, _⟩ => ⟨S3x256x128, .f32⟩
  | .local _ .vmem, ⟨13, _⟩ => ⟨S3x256x128, .f32⟩
  | .local _ .vmem, ⟨14, _⟩ => ⟨S3x256x8192, .bf16⟩
  | .local _ .vmem, ⟨15, _⟩ => ⟨S3x256x8192, .bf16⟩
  | .local _ .vmem, ⟨16, _⟩ => ⟨S3x8192x128, .bf16⟩
  | .local _ .vmem, ⟨17, _⟩ => ⟨S3x256x1, .f32⟩
  | .local _ .vmem, ⟨18, _⟩ => ⟨S3x256x1, .f32⟩
  | .local _ .vmem, ⟨19, _⟩ => ⟨S3x1x128, .f32⟩
  | .local _ .vmem, ⟨20, _⟩ => ⟨S3x256x128, .f32⟩
  | .local _ .vmem, ⟨21, _⟩ => ⟨S3x256x128, .f32⟩
  | _, _ => ⟨S3x8192x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call0_cst : Ref sig .tc := ⟨.hbm, 64, rfl⟩
abbrev main_call0_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S3x256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S3x256x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3x256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S3x256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S3x1024x1_S3x1024x1_0_0_0 : ∀ a, (![0, 0, 0] : Fin 3 → Nat) a + S3x1024x1.size a ≤ S3x1024x1.size a
  h_S3x1024x1 : 0 < S3x1024x1.numel
  inb_S3x1024x1024_S3x1024x1024_0_0_0 : ∀ a, (![0, 0, 0] : Fin 3 → Nat) a + S3x1024x1024.size a ≤ S3x1024x1024.size a
  h_S3x1024x1024 : 0 < S3x1024x1024.numel
  natLt_1_32 : 1 < 32
  iota_S3x1024x1024_d1_w32 : S3x1024x1024.Iotas .tc 32 [1]
  iota_S3x1024x1024_d2_w32 : S3x1024x1024.Iotas .tc 32 [2]
  bitsLt_bf16_f32 : FTy.bits .bf16 < FTy.bits .f32
  packedbf16_S3x1024x1024_S3x1024x1024_0_0_0 : (Rect.unit (s := S3x1024x1024) ![0, 0, 0] S3x1024x1024.size inb_S3x1024x1024_S3x1024x1024_0_0_0).PackedRows (EltTy.packing .bf16)
  shapeCasts_S3x1024x1_S3x1024x1 : S3x1024x1.ShapeCasts S3x1024x1
  reduces_S3x1024x1024_S3x1024 : S3x1024x1024.Reduces [2] S3x1024
  shapeCasts_S3x1024_S3x1024x1 : S3x1024.ShapeCasts S3x1024x1
  bcast_S3x8192x1_S3x8192x128_0_1_2 : S3x8192x1.BroadcastsInDim S3x8192x128 (![0, 1, 2] : Fin 3 → Fin S3x8192x128.rank)
  bcast_S3x128_S3x1x128_0_2 : S3x128.BroadcastsInDim S3x1x128 (![0, 2] : Fin 2 → Fin S3x1x128.rank)
  inb_S3x256x8192_S3x256x8192_0_0_0 : ∀ a, (![0, 0, 0] : Fin 3 → Nat) a + S3x256x8192.size a ≤ S3x256x8192.size a
  h_S3x256x8192 : 0 < S3x256x8192.numel
  shapeCasts_S3x256x8192_S3x256x8192 : S3x256x8192.ShapeCasts S3x256x8192
  inb_S3x8192x128_S3x8192x128_0_0_0 : ∀ a, (![0, 0, 0] : Fin 3 → Nat) a + S3x8192x128.size a ≤ S3x8192x128.size a
  h_S3x8192x128 : 0 < S3x8192x128.numel
  shapeCasts_S3x8192x128_S3x8192x128 : S3x8192x128.ShapeCasts S3x8192x128
  inb_S3x256x1_S3x256x1_0_0_0 : ∀ a, (![0, 0, 0] : Fin 3 → Nat) a + S3x256x1.size a ≤ S3x256x1.size a
  h_S3x256x1 : 0 < S3x256x1.numel
  shapeCasts_S3x256x1_S3x256x1 : S3x256x1.ShapeCasts S3x256x1
  broadcasts_S3x256x1_S3x256x128 : S3x256x1.Broadcasts S3x256x128
  inb_S3x1x128_S3x1x128_0_0_0 : ∀ a, (![0, 0, 0] : Fin 3 → Nat) a + S3x1x128.size a ≤ S3x1x128.size a
  h_S3x1x128 : 0 < S3x1x128.numel
  shapeCasts_S3x1x128_S3x1x128 : S3x1x128.ShapeCasts S3x1x128
  broadcasts_S3x1x128_S3x256x128 : S3x1x128.Broadcasts S3x256x128
  inb_S3x256x128_S3x256x128_0_0_0 : ∀ a, (![0, 0, 0] : Fin 3 → Nat) a + S3x256x128.size a ≤ S3x256x128.size a
  h_S3x256x128 : 0 < S3x256x128.numel
  reducesTo_S3x8192x128_S3x128_d1 : S3x8192x128.ReducesTo [1] S3x128
  h_S_ : 0 < S_.numel
  bcast_S_S3x128 : S_.BroadcastsInDim S3x128 (![] : Fin 0 → Fin S3x128.rank)
  bcast_S64_S1x64_1 : S64.BroadcastsInDim S1x64 (![1] : Fin 1 → Fin S1x64.rank)
  bcast_S1x64_S3x64_0_1 : S1x64.BroadcastsInDim S3x64 (![0, 1] : Fin 2 → Fin S3x64.rank)
  bcast_S1_S1x1_1 : S1.BroadcastsInDim S1x1 (![1] : Fin 1 → Fin S1x1.rank)
  bcast_S1x1_S3x1_0_1 : S1x1.BroadcastsInDim S3x1 (![0, 1] : Fin 2 → Fin S3x1.rank)
  shapeCasts_S3x1_S3 : S3x1.ShapeCasts S3
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S3_S3x1x1_0 : S3.BroadcastsInDim S3x1x1 (![0] : Fin 1 → Fin S3x1x1.rank)
  bcast_S3x1x1_S3x8192x128_0_1_2 : S3x1x1.BroadcastsInDim S3x8192x128 (![0, 1, 2] : Fin 3 → Fin S3x8192x128.rank)
  transposes_S3x8192x128_S8192x3x128_1_0_2 : S3x8192x128.Transposes [1, 0, 2] S8192x3x128
  shapeCasts_S8192x3x128_S8192x384 : S8192x3x128.ShapeCasts S8192x384
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S3x256x8192_S3x8192x128_S3x256x128_2_1_1_2_0_0_wf : DotDims.WF S3x256x8192 S3x8192x128 S3x256x128 [2] [1] [1] [2] [0] [0]
  dot_S3x8192x128_S3x128x128_S3x8192x128_2_1_1_2_0_0_wf : DotDims.WF S3x8192x128 S3x128x128 S3x8192x128 [2] [1] [1] [2] [0] [0]
  dot_S3x128_S128x64_S3x64_1_0_0_1_n_n_wf : DotDims.WF S3x128 S128x64 S3x64 [1] [0] [0] [1] [] []
  dot_S3x64_S64x1_S3x1_1_0_0_1_n_n_wf : DotDims.WF S3x64 S64x1 S3x1 [1] [0] [0] [1] [] []
  dot_S8192x384_S384x256_S8192x256_1_0_0_1_n_n_wf : DotDims.WF S8192x384 S384x256 S8192x256 [1] [0] [0] [1] [] []
  dot_S8192x256_S256x128_S8192x128_1_0_0_1_n_n_wf : DotDims.WF S8192x256 S256x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1024x1024.size a ≤ S3x8192x8192.size a
  hwx0_0 : ∀ i : grid0.Coords, EltTy.bits .i32 = 32 ∨ (Rect.block (s := S3x8192x8192) S3x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1024x1024.size a ≤ S3x8192x8192.size a
  hwx0_1 : ∀ i : grid0.Coords, EltTy.bits .bf16 = 32 ∨ (Rect.block (s := S3x8192x8192) S3x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x1024x1.size a ≤ S3x8192x1.size a
  hwx0_2 : ∀ i : grid0.Coords, EltTy.bits .f32 = 32 ∨ (Rect.block (s := S3x8192x1) S3x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x256x8192.size a ≤ S3x8192x8192.size a
  hwx1_0 : ∀ i : grid1.Coords, EltTy.bits .bf16 = 32 ∨ (Rect.block (s := S3x8192x8192) S3x256x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x8192x128.size a ≤ S3x8192x128.size a
  hwx1_1 : ∀ i : grid1.Coords, EltTy.bits .bf16 = 32 ∨ (Rect.block (s := S3x8192x128) S3x8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x256x1.size a ≤ S3x8192x1.size a
  hwx1_2 : ∀ i : grid1.Coords, EltTy.bits .f32 = 32 ∨ (Rect.block (s := S3x8192x1) S3x256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x1x128.size a ≤ S3x1x128.size a
  hwx1_3 : ∀ i : grid1.Coords, EltTy.bits .f32 = 32 ∨ (Rect.block (s := S3x1x128) S3x1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x256x128.size a ≤ S3x8192x128.size a
  hwx1_4 : ∀ i : grid1.Coords, EltTy.bits .f32 = 32 ∨ (Rect.block (s := S3x8192x128) S3x256x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x256x8192.size a ≤ S3x8192x8192.size a
  hwx2_0 : ∀ i : grid2.Coords, EltTy.bits .bf16 = 32 ∨ (Rect.block (s := S3x8192x8192) S3x256x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x8192x128.size a ≤ S3x8192x128.size a
  hwx2_1 : ∀ i : grid2.Coords, EltTy.bits .bf16 = 32 ∨ (Rect.block (s := S3x8192x128) S3x8192x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3x256x1.size a ≤ S3x8192x1.size a
  hwx2_2 : ∀ i : grid2.Coords, EltTy.bits .f32 = 32 ∨ (Rect.block (s := S3x8192x1) S3x256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x1x128.size a ≤ S3x1x128.size a
  hwx2_3 : ∀ i : grid2.Coords, EltTy.bits .f32 = 32 ∨ (Rect.block (s := S3x1x128) S3x1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3x256x128.size a ≤ S3x8192x128.size a
  hwx2_4 : ∀ i : grid2.Coords, EltTy.bits .f32 = 32 ∨ (Rect.block (s := S3x8192x128) S3x256x128.size (cc2_transform_4 i) (hinb2_4 i)).WholeWords (EltTy.packing .f32)

variable [Facts₀]

def dot_S3x256x8192_S3x8192x128_S3x256x128_2_1_1_2_0_0 : DotDims S3x256x8192 S3x8192x128 S3x256x128 where
  lhsContracting := [2]
  rhsContracting := [1]
  lhsNonContracting := [1]
  rhsNonContracting := [2]
  lhsBatch := [0]
  rhsBatch := [0]
  wf := dot_S3x256x8192_S3x8192x128_S3x256x128_2_1_1_2_0_0_wf
def dot_S3x8192x128_S3x128x128_S3x8192x128_2_1_1_2_0_0 : DotDims S3x8192x128 S3x128x128 S3x8192x128 where
  lhsContracting := [2]
  rhsContracting := [1]
  lhsNonContracting := [1]
  rhsNonContracting := [2]
  lhsBatch := [0]
  rhsBatch := [0]
  wf := dot_S3x8192x128_S3x128x128_S3x8192x128_2_1_1_2_0_0_wf
def dot_S3x128_S128x64_S3x64_1_0_0_1_n_n : DotDims S3x128 S128x64 S3x64 where
  lhsContracting := [1]
  rhsContracting := [0]
  lhsNonContracting := [0]
  rhsNonContracting := [1]
  lhsBatch := []
  rhsBatch := []
  wf := dot_S3x128_S128x64_S3x64_1_0_0_1_n_n_wf
def dot_S3x64_S64x1_S3x1_1_0_0_1_n_n : DotDims S3x64 S64x1 S3x1 where
  lhsContracting := [1]
  rhsContracting := [0]
  lhsNonContracting := [0]
  rhsNonContracting := [1]
  lhsBatch := []
  rhsBatch := []
  wf := dot_S3x64_S64x1_S3x1_1_0_0_1_n_n_wf
def dot_S8192x384_S384x256_S8192x256_1_0_0_1_n_n : DotDims S8192x384 S384x256 S8192x256 where
  lhsContracting := [1]
  rhsContracting := [0]
  lhsNonContracting := [0]
  rhsNonContracting := [1]
  lhsBatch := []
  rhsBatch := []
  wf := dot_S8192x384_S384x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

abbrev win0_0 : Pipeline.Window sig grid0 :=
  Pipeline.Window.ofSpec (Memref.whole main_arg0) S3x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S3x1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S3x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_0) S3x256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S3x8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S3x256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S3x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S3x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_0) S3x256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S3x8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S3x256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S3x1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S3x256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S3x8192x8192 : Shape := ⟨3, ![3, 8192, 8192]⟩
abbrev S3x8192x128 : Shape := ⟨3, ![3, 8192, 128]⟩
abbrev S3x128 : Shape := ⟨2, ![3, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S384x256 : Shape := ⟨2, ![384, 256]⟩
abbrev S256 : Shape := ⟨1, ![256]⟩
abbrev S256x128 : Shape := ⟨2, ![256, 128]⟩
abbrev S128 : Shape := ⟨1, ![128]⟩
abbrev S_ : Shape := ⟨0, ![]⟩
abbrev S8192x8192 : Shape := ⟨2, ![8192, 8192]⟩
abbrev S1x8192x8192 : Shape := ⟨3, ![1, 8192, 8192]⟩
abbrev S3x8192 : Shape := ⟨2, ![3, 8192]⟩
abbrev S3x8192x1 : Shape := ⟨3, ![3, 8192, 1]⟩
abbrev S3x1x8192 : Shape := ⟨3, ![3, 1, 8192]⟩
abbrev S3x1x128 : Shape := ⟨3, ![3, 1, 128]⟩
abbrev S3x64 : Shape := ⟨2, ![3, 64]⟩
abbrev S1x64 : Shape := ⟨2, ![1, 64]⟩
abbrev S3x1 : Shape := ⟨2, ![3, 1]⟩
abbrev S1x1 : Shape := ⟨2, ![1, 1]⟩
abbrev S3 : Shape := ⟨1, ![3]⟩
abbrev S3x1x1 : Shape := ⟨3, ![3, 1, 1]⟩
abbrev S8192x3x128 : Shape := ⟨3, ![8192, 3, 128]⟩
abbrev S8192x384 : Shape := ⟨2, ![8192, 384]⟩
abbrev S8192x256 : Shape := ⟨2, ![8192, 256]⟩
abbrev S1x256 : Shape := ⟨2, ![1, 256]⟩
abbrev S8192x128 : Shape := ⟨2, ![8192, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S3x8192x8192, .i32⟩
  | .hbm, ⟨1, _⟩ => ⟨S3x8192x128, .f32⟩
  | .hbm, ⟨2, _⟩ => ⟨S3x128, .f32⟩
  | .hbm, ⟨3, _⟩ => ⟨S3x128x128, .f32⟩
  | .hbm, ⟨4, _⟩ => ⟨S3x128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S384x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S_, .i32⟩
  | .hbm, ⟨14, _⟩ => ⟨S3x8192x8192, .i32⟩
  | .hbm, ⟨15, _⟩ => ⟨S3x8192x8192, .i1⟩
  | .hbm, ⟨16, _⟩ => ⟨S3x8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S1x8192x8192, .f32⟩
  | .hbm, ⟨28, _⟩ => ⟨S3x8192x8192, .f32⟩
  | .hbm, ⟨29, _⟩ => ⟨S3x8192x8192, .f32⟩
  | .hbm, ⟨30, _⟩ => ⟨S1x8192x8192, .f32⟩
  | .hbm, ⟨31, _⟩ => ⟨S3x8192x8192, .f32⟩
  | .hbm, ⟨32, _⟩ => ⟨S3x8192x8192, .f32⟩
  | .hbm, ⟨33, _⟩ => ⟨S_, .f32⟩
  | .hbm, ⟨34, _⟩ => ⟨S3x8192, .f32⟩
  | .hbm, ⟨35, _⟩ => ⟨S3x8192, .f32⟩
  | .hbm, ⟨36, _⟩ => ⟨S3x8192x1, .f32⟩
  | .hbm, ⟨37, _⟩ => ⟨S3x8192x8192, .f32⟩
  | .hbm, ⟨38, _⟩ => ⟨S3x8192x8192, .f32⟩
  | .hbm, ⟨39, _⟩ => ⟨S3x1x8192, .f32⟩
  | .hbm, ⟨40, _⟩ => ⟨S3x8192x8192, .f32⟩
  | .hbm, ⟨41, _⟩ => ⟨S3x8192x8192, .f32⟩
  | .hbm, ⟨42, _⟩ => ⟨S3x8192x128, .f32⟩
  | .hbm, ⟨43, _⟩ => ⟨S3x1x128, .f32⟩
  | .hbm, ⟨44, _⟩ => ⟨S3x8192x128, .f32⟩
  | .hbm, ⟨45, _⟩ => ⟨S3x8192x128, .f32⟩
  | .hbm, ⟨46, _⟩ => ⟨S_, .f32⟩
  | .hbm, ⟨47, _⟩ => ⟨S3x8192x128, .f32⟩
  | .hbm, ⟨48, _⟩ => ⟨S3x8192x128, .f32⟩
  | .hbm, ⟨49, _⟩ => ⟨S3x8192x128, .f32⟩
  | .hbm, ⟨50, _⟩ => ⟨S3x8192x128, .f32⟩
  | .hbm, ⟨51, _⟩ => ⟨S3x1x128, .f32⟩
  | .hbm, ⟨52, _⟩ => ⟨S3x8192x128, .f32⟩
  | .hbm, ⟨53, _⟩ => ⟨S3x8192x128, .f32⟩
  | .hbm, ⟨54, _⟩ => ⟨S_, .f32⟩
  | .hbm, ⟨55, _⟩ => ⟨S3x8192x128, .f32⟩
  | .hbm, ⟨56, _⟩ => ⟨S3x8192x128, .f32⟩
  | .hbm, ⟨57, _⟩ => ⟨S_, .f32⟩
  | .hbm, ⟨58, _⟩ => ⟨S3x128, .f32⟩
  | .hbm, ⟨59, _⟩ => ⟨S_, .f32⟩
  | .hbm, ⟨60, _⟩ => ⟨S3x128, .f32⟩
  | .hbm, ⟨61, _⟩ => ⟨S3x128, .f32⟩
  | .hbm, ⟨62, _⟩ => ⟨S3x64, .f32⟩
  | .hbm, ⟨63, _⟩ => ⟨S1x64, .f32⟩
  | .hbm, ⟨64, _⟩ => ⟨S3x64, .f32⟩
  | .hbm, ⟨65, _⟩ => ⟨S3x64, .f32⟩
  | .hbm, ⟨66, _⟩ => ⟨S3x64, .f32⟩
  | .hbm, ⟨67, _⟩ => ⟨S3x1, .f32⟩
  | .hbm, ⟨68, _⟩ => ⟨S1x1, .f32⟩
  | .hbm, ⟨69, _⟩ => ⟨S3x1, .f32⟩
  | .hbm, ⟨70, _⟩ => ⟨S3x1, .f32⟩
  | .hbm, ⟨71, _⟩ => ⟨S3, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1, .f32⟩
  | .hbm, ⟨77, _⟩ => ⟨S3, .f32⟩
  | .hbm, ⟨78, _⟩ => ⟨S3, .f32⟩
  | .hbm, ⟨79, _⟩ => ⟨S3, .f32⟩
  | .hbm, ⟨80, _⟩ => ⟨S_, .f32⟩
  | .hbm, ⟨81, _⟩ => ⟨S_, .f32⟩
  | .hbm, ⟨82, _⟩ => ⟨S1, .f32⟩
  | .hbm, ⟨83, _⟩ => ⟨S3, .f32⟩
  | .hbm, ⟨84, _⟩ => ⟨S3, .f32⟩
  | .hbm, ⟨85, _⟩ => ⟨S3x1x1, .f32⟩
  | .hbm, ⟨86, _⟩ => ⟨S3x8192x128, .f32⟩
  | .hbm, ⟨87, _⟩ => ⟨S3x8192x128, .f32⟩
  | .hbm, ⟨88, _⟩ => ⟨S8192x3x128, .f32⟩
  | .hbm, ⟨89, _⟩ => ⟨S8192x384, .f32⟩
  | .hbm, ⟨90, _⟩ => ⟨S8192x256, .f32⟩
  | .hbm, ⟨91, _⟩ => ⟨S1x256, .f32⟩
  | .hbm, ⟨92, _⟩ => ⟨S8192x256, .f32⟩
  | .hbm, ⟨93, _⟩ => ⟨S8192x256, .f32⟩
  | .hbm, ⟨94, _⟩ => ⟨S_, .f32⟩
  | .hbm, ⟨95, _⟩ => ⟨S8192x256, .f32⟩
  | .hbm, ⟨96, _⟩ => ⟨S8192x256, .f32⟩
  | .hbm, ⟨97, _⟩ => ⟨S8192x128, .f32⟩
  | .hbm, ⟨98, _⟩ => ⟨S1x128, .f32⟩
  | .hbm, ⟨99, _⟩ => ⟨S8192x128, .f32⟩
  | .hbm, ⟨100, _⟩ => ⟨S8192x128, .f32⟩
  | _, _ => ⟨S3x8192x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_cst : Ref sig .tc := ⟨.hbm, 54, rfl⟩
abbrev main_call1_v0 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call2_cst : Ref sig .tc := ⟨.hbm, 94, rfl⟩
abbrev main_call2_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]

class Facts₀ : Prop where
  bcast_S_S3x8192x8192 : S_.BroadcastsInDim S3x8192x8192 (![] : Fin 0 → Fin S3x8192x8192.rank)
  bcast_S_S8192x8192 : S_.BroadcastsInDim S8192x8192 (![] : Fin 0 → Fin S8192x8192.rank)
  bcast_S8192x8192_S1x8192x8192_1_2 : S8192x8192.BroadcastsInDim S1x8192x8192 (![1, 2] : Fin 2 → Fin S1x8192x8192.rank)
  bcast_S1x8192x8192_S3x8192x8192_0_1_2 : S1x8192x8192.BroadcastsInDim S3x8192x8192 (![0, 1, 2] : Fin 3 → Fin S3x8192x8192.rank)
  reducesTo_S3x8192x8192_S3x8192_d2 : S3x8192x8192.ReducesTo [2] S3x8192
  h_S_ : 0 < S_.numel
  bcast_S3x8192_S3x8192x1_0_1 : S3x8192.BroadcastsInDim S3x8192x1 (![0, 1] : Fin 2 → Fin S3x8192x1.rank)
  bcast_S3x8192x1_S3x8192x8192_0_1_2 : S3x8192x1.BroadcastsInDim S3x8192x8192 (![0, 1, 2] : Fin 3 → Fin S3x8192x8192.rank)
  bcast_S3x8192_S3x1x8192_0_2 : S3x8192.BroadcastsInDim S3x1x8192 (![0, 2] : Fin 2 → Fin S3x1x8192.rank)
  bcast_S3x1x8192_S3x8192x8192_0_1_2 : S3x1x8192.BroadcastsInDim S3x8192x8192 (![0, 1, 2] : Fin 3 → Fin S3x8192x8192.rank)
  bcast_S3x128_S3x1x128_0_2 : S3x128.BroadcastsInDim S3x1x128 (![0, 2] : Fin 2 → Fin S3x1x128.rank)
  bcast_S3x1x128_S3x8192x128_0_1_2 : S3x1x128.BroadcastsInDim S3x8192x128 (![0, 1, 2] : Fin 3 → Fin S3x8192x128.rank)
  bcast_S_S3x8192x128 : S_.BroadcastsInDim S3x8192x128 (![] : Fin 0 → Fin S3x8192x128.rank)
  reducesTo_S3x8192x128_S3x128_d1 : S3x8192x128.ReducesTo [1] S3x128
  bcast_S_S3x128 : S_.BroadcastsInDim S3x128 (![] : Fin 0 → Fin S3x128.rank)
  bcast_S64_S1x64_1 : S64.BroadcastsInDim S1x64 (![1] : Fin 1 → Fin S1x64.rank)
  bcast_S1x64_S3x64_0_1 : S1x64.BroadcastsInDim S3x64 (![0, 1] : Fin 2 → Fin S3x64.rank)
  bcast_S1_S1x1_1 : S1.BroadcastsInDim S1x1 (![1] : Fin 1 → Fin S1x1.rank)
  bcast_S1x1_S3x1_0_1 : S1x1.BroadcastsInDim S3x1 (![0, 1] : Fin 2 → Fin S3x1.rank)
  shapeCasts_S3x1_S3 : S3x1.ShapeCasts S3
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  bcast_S3_S3x1x1_0 : S3.BroadcastsInDim S3x1x1 (![0] : Fin 1 → Fin S3x1x1.rank)
  bcast_S3x1x1_S3x8192x128_0_1_2 : S3x1x1.BroadcastsInDim S3x8192x128 (![0, 1, 2] : Fin 3 → Fin S3x8192x128.rank)
  transposes_S3x8192x128_S8192x3x128_1_0_2 : S3x8192x128.Transposes [1, 0, 2] S8192x3x128
  shapeCasts_S8192x3x128_S8192x384 : S8192x3x128.ShapeCasts S8192x384
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S3x8192x8192_S3x8192x128_S3x8192x128_2_1_1_2_0_0_wf : DotDims.WF S3x8192x8192 S3x8192x128 S3x8192x128 [2] [1] [1] [2] [0] [0]
  dot_S3x8192x128_S3x128x128_S3x8192x128_2_1_1_2_0_0_wf : DotDims.WF S3x8192x128 S3x128x128 S3x8192x128 [2] [1] [1] [2] [0] [0]
  dot_S3x128_S128x64_S3x64_1_0_0_1_n_n_wf : DotDims.WF S3x128 S128x64 S3x64 [1] [0] [0] [1] [] []
  dot_S3x64_S64x1_S3x1_1_0_0_1_n_n_wf : DotDims.WF S3x64 S64x1 S3x1 [1] [0] [0] [1] [] []
  dot_S8192x384_S384x256_S8192x256_1_0_0_1_n_n_wf : DotDims.WF S8192x384 S384x256 S8192x256 [1] [0] [0] [1] [] []
  dot_S8192x256_S256x128_S8192x128_1_0_0_1_n_n_wf : DotDims.WF S8192x256 S256x128 S8192x128 [1] [0] [0] [1] [] []

variable [Facts₀]

def dot_S3x8192x8192_S3x8192x128_S3x8192x128_2_1_1_2_0_0 : DotDims S3x8192x8192 S3x8192x128 S3x8192x128 where
  lhsContracting := [2]
  rhsContracting := [1]
  lhsNonContracting := [1]
  rhsNonContracting := [2]
  lhsBatch := [0]
  rhsBatch := [0]
  wf := dot_S3x8192x8192_S3x8192x128_S3x8192x128_2_1_1_2_0_0_wf
def dot_S3x8192x128_S3x128x128_S3x8192x128_2_1_1_2_0_0 : DotDims S3x8192x128 S3x128x128 S3x8192x128 where
  lhsContracting := [2]
  rhsContracting := [1]
  lhsNonContracting := [1]
  rhsNonContracting := [2]
  lhsBatch := [0]
  rhsBatch := [0]
  wf := dot_S3x8192x128_S3x128x128_S3x8192x128_2_1_1_2_0_0_wf
def dot_S3x128_S128x64_S3x64_1_0_0_1_n_n : DotDims S3x128 S128x64 S3x64 where
  lhsContracting := [1]
  rhsContracting := [0]
  lhsNonContracting := [0]
  rhsNonContracting := [1]
  lhsBatch := []
  rhsBatch := []
  wf := dot_S3x128_S128x64_S3x64_1_0_0_1_n_n_wf
def dot_S3x64_S64x1_S3x1_1_0_0_1_n_n : DotDims S3x64 S64x1 S3x1 where
  lhsContracting := [1]
  rhsContracting := [0]
  lhsNonContracting := [0]
  rhsNonContracting := [1]
  lhsBatch := []
  rhsBatch := []
  wf := dot_S3x64_S64x1_S3x1_1_0_0_1_n_n_wf
def dot_S8192x384_S384x256_S8192x256_1_0_0_1_n_n : DotDims S8192x384 S384x256 S8192x256 where
  lhsContracting := [1]
  rhsContracting := [0]
  lhsNonContracting := [0]
  rhsNonContracting := [1]
  lhsBatch := []
  rhsBatch := []
  wf := dot_S8192x384_S384x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf

class Facts : Prop extends Facts₀ where

variable [Facts]
-- ==== Proof.Spec.lean ====
/-
  The mathematics both programs compute, stated once over coordinates.

  A graph convolution over three views of an 8192-node graph.  From the integer adjacency `adj` the binary edge
  indicator `edge` (1 where the entry is nonzero) is forced to 1 on the diagonal: `ahat = edge·(1 − diag) + diag`.
  Its row sums are the degrees, `dinv = deg^(-1/2)`.  One layer sends features `X` to
  `max(D^(-1/2)·Â·D^(-1/2)·X + bias, 0)`; the two programs group the two scalings differently:

    * scaled operand, then scaled row   (`layerK`):  (Σ_m â(n,m)·(dinv m · X m)) · dinv n + bias
    * normalised matrix first           (`layerR`):  Σ_m ((â(n,m)·dinv n)·dinv m) · X m + bias

  The network is layer 1 on `W1`, a product with `W2`, layer 2; `netK` and `netR` are the two groupings.
-/
import Idealize.ShloMosaic.PureOps.Ideal
import Idealize.ShloMosaic.Lib.ValueIdx

noncomputable section

open scoped BigOperators

namespace Cert.Gcn

open Idealize.ShloMosaic Idealize.ShloMosaic.ValueIdx

/-- The shapes of the arrays: adjacency [3,8192,8192], features [3,8192,128], a column [3,8192,1], a bias row
    [3,1,128], the bias argument [3,128] and the second weight [3,128,128]. -/
abbrev SAdj : Shape := ⟨3, ![3, 8192, 8192]⟩
abbrev SFeat : Shape := ⟨3, ![3, 8192, 128]⟩
abbrev SCol : Shape := ⟨3, ![3, 8192, 1]⟩
abbrev SRow : Shape := ⟨3, ![3, 1, 128]⟩
abbrev SBias : Shape := ⟨2, ![3, 128]⟩
abbrev SW2 : Shape := ⟨3, ![3, 128, 128]⟩

/-- The edge indicator: 1 where the adjacency word is nonzero. -/
def edge (adj : SAdj.Idx → BitVec 32) (v : Fin 3) (n m : Fin 8192) : EReal :=
  if adj (ix3 v n m) = 0#32 then 0 else 1

/-- The diagonal indicator. -/
def diag (n m : Fin 8192) : EReal := if n = m then 1 else 0

/-- The adjacency with self loops forced: `edge·(1 − diag) + diag`. -/
def ahat (adj : SAdj.Idx → BitVec 32) (v : Fin 3) (n m : Fin 8192) : EReal :=
  edge adj v n m * (1 - diag n m) + diag n m

/-- The degree of node `n` in view `v`: the row sum of `ahat`. -/
def deg (adj : SAdj.Idx → BitVec 32) (v : Fin 3) (n : Fin 8192) : EReal := ∑ m : Fin 8192, ahat adj v n m

/-- Its inverse square root. -/
def dinv (adj : SAdj.Idx → BitVec 32) (v : Fin 3) (n : Fin 8192) : EReal := Ideal.rsqrt (deg adj v n)

/-- `ahat` and `deg` as arrays. -/
def ahatArr (adj : SAdj.Idx → BitVec 32) : SAdj.Idx → EReal := fun i => ahat adj (i 0) (i 1) (i 2)
def degArr (adj : SAdj.Idx → BitVec 32) : SCol.Idx → EReal := fun i => deg adj (i 0) (i 1)

/-- One layer on arbitrary arrays, in the arrangement "scaled operand in, row scaled after":
    `max((Σ_k a(v,n,k)·w(v,k,h))·d(v,n) + b(v,h), 0)`. -/
def layerArr (a : SAdj.Idx → EReal) (w : SFeat.Idx → EReal) (d : SCol.Idx → EReal) (b : SRow.Idx → EReal) :
    SFeat.Idx → EReal :=
  fun i => max ((∑ k : Fin 8192, a (ix3 (i 0) (i 1) k) * w (ix3 (i 0) k (i 2))) * d (ix3 (i 0) (i 1) (0 : Fin 1))
    + b (ix3 (i 0) (0 : Fin 1) (i 2))) 0

/-- A layer with the operand pre-scaled by `dinv` and the row scaled afterwards. -/
def layerK (adj : SAdj.Idx → BitVec 32) (X : Fin 3 → Fin 8192 → Fin 128 → EReal) (b : SBias.Idx → EReal)
    (v : Fin 3) (n : Fin 8192) (h : Fin 128) : EReal :=
  max ((∑ m : Fin 8192, ahat adj v n m * (dinv adj v m * X v m h)) * dinv adj v n + b (ix2 v h)) 0

/-- A layer over the normalised adjacency `(â·dinv n)·dinv m`. -/
def layerR (adj : SAdj.Idx → BitVec 32) (X : Fin 3 → Fin 8192 → Fin 128 → EReal) (b : SBias.Idx → EReal)
    (v : Fin 3) (n : Fin 8192) (h : Fin 128) : EReal :=
  max ((∑ m : Fin 8192, (ahat adj v n m * dinv adj v n * dinv adj v m) * X v m h) + b (ix2 v h)) 0

/-- The product with the second weight: `Σ_h Y(v,n,h)·W2(v,h,k)`. -/
def mix (Y : Fin 3 → Fin 8192 → Fin 128 → EReal) (W2 : SW2.Idx → EReal) (v : Fin 3) (n : Fin 8192) (k : Fin 128) : EReal :=
  ∑ h : Fin 128, Y v n h * W2 (ix3 v h k)

/-- The two-layer network, first arrangement. -/
def netK (adj : SAdj.Idx → BitVec 32) (W1 : SFeat.Idx → EReal) (b1 : SBias.Idx → EReal) (W2 : SW2.Idx → EReal)
    (b2 : SBias.Idx → EReal) : Fin 3 → Fin 8192 → Fin 128 → EReal :=
  layerK adj (mix (layerK adj (fun v m h => W1 (ix3 v m h)) b1) W2) b2

/-- The two-layer network, second arrangement. -/
def netR (adj : SAdj.Idx → BitVec 32) (W1 : SFeat.Idx → EReal) (b1 : SBias.Idx → EReal) (W2 : SW2.Idx → EReal)
    (b2 : SBias.Idx → EReal) : Fin 3 → Fin 8192 → Fin 128 → EReal :=
  layerR adj (mix (layerR adj (fun v m h => W1 (ix3 v m h)) b1) W2) b2

/-- A function of coordinates as a feature array. -/
def featArr (H : Fin 3 → Fin 8192 → Fin 128 → EReal) : SFeat.Idx → EReal := fun i => H (i 0) (i 1) (i 2)

end Cert.Gcn

end
-- ==== Proof.PrepBody.lean ====
/-
  What the body of the first kernel leaves in its two output blocks, case by case.

  The body runs on whole staging buffers: it loads the integer adjacency block, stores the self-looped 0/1 block
  (one covering store), and stores into the degree block the sum of what that block held and the lane sums of the
  0/1 block (one covering store).  At the first column block it first stores the zero block and reads it back, so
  there the degree block ends at zero plus the lane sums.  Each lemma reads one output block back as the stored
  value applied to the loaded blocks: a covering store through the whole-buffer rectangle leaves its value, and a
  load through it reads the contents.
-/
import proofs.«148398_j29910152249795_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PrepValue
open Cert.KernelIdeal Cert.KernelIdeal.Gen

variable {F : FTy → Type} [FloatOps F]

/-- The zero offsets of the whole-buffer rectangle, as a constant function. -/
theorem hz3 : (![0, 0, 0] : Fin 3 → Nat) = fun _ => 0 := funext fun a => by fin_cases a <;> rfl

/-- Away from the first column block the degree block ends at the accumulating value of the loaded adjacency block
    and of what the degree block held. -/
theorem out_B_2 (c : Dev nD) (i : grid0.Coords) (a2 : Memref sig .tc .vmem S3x1024x1024 .i32) (h2 : a2.IsWhole)
    (a3 : Memref sig .tc .vmem S3x1024x1024 .bf16) (h3 : a3.IsWhole) (a4 : Memref sig .tc .vmem S3x1024x1 .f32)
    (h4 : a4.IsWhole) (hc : ¬cond0_0 i) (x : Vec F S3x1024x1024 .i32) (xo : Vec F S3x1024x1 .f32) :
    out0_B_2 c i a2 h2 a3 h3 a4 h4 hc x xo = k0_pay4 i x xo := by
  unfold out0_B_2
  rw [View.read_writes_eq_canon _ _ _ (cover0_B_2 c i a2 h2 a3 h3 a4 h4 hc x xo)]
  unfold kernelRun0_B
  dsimp only
  rw [View.canon_unit_zero hz3]
  simp only [View.readAt_eq_ld, h2.read_unread, h4.read_unread, View.ld_unit_zero (S := S3x1024x1024) hz3,
    View.ld_unit_zero (S := S3x1024x1) hz3]

/-- At the first column block the degree block is first zeroed, so it ends at the accumulating value over the zero
    block. -/
theorem out_A_2 (c : Dev nD) (i : grid0.Coords) (a2 : Memref sig .tc .vmem S3x1024x1024 .i32) (h2 : a2.IsWhole)
    (a3 : Memref sig .tc .vmem S3x1024x1024 .bf16) (h3 : a3.IsWhole) (a4 : Memref sig .tc .vmem S3x1024x1 .f32)
    (h4 : a4.IsWhole) (hc : cond0_0 i) (x : Vec F S3x1024x1024 .i32) :
    out0_A_2 c i a2 h2 a3 h3 a4 h4 hc x = k0_pay4 i x k0_pay1 := by
  unfold out0_A_2
  rw [View.read_writes_eq_canon _ _ _ (cover0_A_2 c i a2 h2 a3 h3 a4 h4 hc x)]
  unfold kernelRun0_A
  dsimp only
  sl_unfold_words
  rw [View.canon_cons_unit_zero (S := S3x1024x1) hz3, View.readCov_unit_zero (S := S3x1024x1) _ hz3]
  simp only [View.readAt_eq_ld, h2.read_unread, View.ld_unit_zero (S := S3x1024x1024) hz3]

/-- The 0/1 block stored away from the first column block. -/
theorem out_B_1 (c : Dev nD) (i : grid0.Coords) (a2 : Memref sig .tc .vmem S3x1024x1024 .i32) (h2 : a2.IsWhole)
    (a3 : Memref sig .tc .vmem S3x1024x1024 .bf16) (h3 : a3.IsWhole) (a4 : Memref sig .tc .vmem S3x1024x1 .f32)
    (h4 : a4.IsWhole) (hc : ¬cond0_0 i) (x : Vec F S3x1024x1024 .i32) (xo : Vec F S3x1024x1 .f32) :
    out0_B_1 c i a2 h2 a3 h3 a4 h4 hc x xo = k0_pay3 i x := by
  unfold out0_B_1
  rw [View.read_writes_eq_canon _ _ _ (cover0_B_1 c i a2 h2 a3 h3 a4 h4 hc x xo)]
  unfold kernelRun0_B
  dsimp only
  rw [View.canon_unit_zero hz3]
  simp only [View.readAt_eq_ld, h2.read_unread, View.ld_unit_zero (S := S3x1024x1024) hz3]

/-- The 0/1 block stored at the first column block. -/
theorem out_A_1 (c : Dev nD) (i : grid0.Coords) (a2 : Memref sig .tc .vmem S3x1024x1024 .i32) (h2 : a2.IsWhole)
    (a3 : Memref sig .tc .vmem S3x1024x1024 .bf16) (h3 : a3.IsWhole) (a4 : Memref sig .tc .vmem S3x1024x1 .f32)
    (h4 : a4.IsWhole) (hc : cond0_0 i) (x : Vec F S3x1024x1024 .i32) :
    out0_A_1 c i a2 h2 a3 h3 a4 h4 hc x = k0_pay3 i x := by
  unfold out0_A_1
  rw [View.read_writes_eq_canon _ _ _ (cover0_A_1 c i a2 h2 a3 h3 a4 h4 hc x)]
  unfold kernelRun0_A
  dsimp only
  rw [View.canon_unit_zero hz3]
  simp only [View.readAt_eq_ld, h2.read_unread, View.ld_unit_zero (S := S3x1024x1024) hz3]

end Cert.KernelIdeal.PrepValue
end
-- ==== Proof.LibKeepdims3.lean ====
/-
  Layout facts a reduction over the LAST axis of a three-axis array meets when its result is kept as a trailing
  unit axis and spread back, each read at an entry given by its coordinates: the sum along the last axis of an
  `[a, b, c]` array; an `[a, b]` array viewed as `[a, b, 1]` or as `[a, 1, b]`, and an `[a, 1]` array viewed as `[a, 1, 1]` or as `[a]`; and the
  three spreadings `[a, 1, 1] → [a, b, 1]`, `[a, b, 1] → [a, b, c]`, `[a, 1, c] → [a, b, c]`. They hold for any
  extents, and all but the sum for entries of any type.
-/
import Idealize.ShloMosaic.Lib.Pipeline.Value
import Idealize.ShloMosaic.Lib.ValueIdx
import Idealize.ShloMosaic.PureOps.Ideal.Laws

noncomputable section

open scoped BigOperators

namespace Cert.LibKeepdims3

open Idealize.ShloMosaic Idealize.ShloMosaic.ValueIdx

variable {α : Type}

/-- An `[a, b]` array cast to `[a, b, 1]` reads, at `(i, j, u)`, the operand at `(i, j)`: the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, 1]` array cast to `[a]` reads, at `i`, the operand's one entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, b]` array cast to `[a, 1, b]` reads, at `(i, u, j)`, the operand at `(i, j)`: the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, 1]` array spread to `[a, b, 1]` reads, at `(i, j, u)`, the operand's one entry of row `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array spread to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread to `[a, b, c]` reads, at `(i, j, k)`, the operand at `(i, 0, k)`: the same for every `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Over the extended reals, the sum of an `[a, b, c]` array along its last axis, started from the zero word, is at
    `(i, j)` the sum over `k` of the entries `(i, j, k)`. -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  apply Fin.ext
  match ax with
  | ⟨0, _⟩ => rfl
  | ⟨1, _⟩ => rfl
  | ⟨2, _⟩ => rfl

/-- The same sum with the accumulator's side condition typed as a printed program's evidence for it really is (the
    zero word equal to itself), so that the statement is found by rewriting inside a printed value. -/
theorem multiReduction_add_last_printed {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last_apply src h hφ hacc i j

/-- The sum of an `[a, b]` array along its second axis, at row `i`, with the side condition typed as printed. -/
theorem multiReduction_add_rows_printed {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims3

end
-- ==== Proof.LibArithMask.lean ====
/-
  Masking by arithmetic on a bit read as a number, over the extended reals.

  A kernel that may not select on a one-bit vector can mask by arithmetic instead: with the bit read as the number
  m ∈ {0, 1} it computes  e · m + (1 − m) · N,  where a reference writes "e where the bit is set, else N".  The two agree
  for ALL extended reals e and N, infinities included: with m = 1 the arithmetic is e · 1 + 0 · N = e, with m = 0 it is
  e · 0 + 1 · N = N, and on the extended reals x · 1 = x, x · 0 = 0 · x = 0 and x + 0 = 0 + x = x have no exception
  (0 · ±∞ is 0 there).  So no finiteness of e or of N is needed.  The constant 1 enters as the single-precision word
  0x3F800000, which denotes the number one.
-/
import Idealize.ShloMosaic.PureOps.Ideal.Laws
import Idealize.ShloMosaic.Lib.ValueIdx

noncomputable section

namespace Cert.LibArithMask

open Idealize.ShloMosaic Idealize.ShloMosaic.ValueIdx

/-- The single-precision word of 1.0 denotes the number one. -/
theorem one_word : Ideal.ofBits .f32 0x3F800000#32 = 1 := by
  simp [Ideal.ofBits, Ideal.ieee, -EReal.coe_mul]; norm_num

/-- A one-bit word read unsigned is the number 1 when it is the set bit … -/
theorem toNat_one : (((1#1 : BitVec 1).toNat : ℝ) : EReal) = 1 := by norm_num

/-- … and the number 0 when it is the clear bit. -/
theorem toNat_zero : (((0#1 : BitVec 1).toNat : ℝ) : EReal) = 0 := by norm_num

/-- THE MASK LAW.  With the bit `w` read as the number 0 or 1, the arithmetic mask `e · w + (1 − w) · N` is the
    selection "`e` if the bit is set, else `N`", for all extended reals `e`, `N`. -/
theorem mask_law (w : BitVec 1) (e N : EReal) :
    e * ((w.toNat : ℝ) : EReal) + (Ideal.ofBits .f32 0x3F800000#32 - ((w.toNat : ℝ) : EReal)) * N
      = Scalar.select w e N := by
  rw [one_word]
  by_cases h : w = 1#1
  · subst h
    rw [select_one]
    have h11 : (1 : EReal) - 1 = 0 := by rw [← EReal.coe_one, ← EReal.coe_sub, sub_self, EReal.coe_zero]
    rw [toNat_one, h11, mul_one, zero_mul, add_zero]
  · have h0 := eq_zero_of_ne_one h
    subst h0
    rw [select_zero, toNat_zero, mul_zero, sub_zero, one_mul, zero_add]

/-- The same law with the number written on the left of the masked value: `w · e + (1 − w) · N`. -/
theorem mask_law_left (w : BitVec 1) (e N : EReal) :
    ((w.toNat : ℝ) : EReal) * e + (Ideal.ofBits .f32 0x3F800000#32 - ((w.toNat : ℝ) : EReal)) * N
      = Scalar.select w e N := by
  rw [mul_comm]; exact mask_law w e N

end Cert.LibArithMask

end
-- ==== Proof.PrepPayload.lean ====
/-
  The arithmetic of the first kernel's body, read entry by entry over the extended reals.

  From an integer adjacency block the body forms the indicator "the word is nonzero" (0 or 1), the indicator "the
  global row equals the global column" (0 or 1; the global positions are the positions inside the block plus 1024
  times the block's position on the grid, and these 32-bit sums stay below 8192, so they do not wrap), and stores
  `nonzero · (1 − same) + same`.  Converting that value to a narrower float format changes nothing over the extended
  reals.  The second stored value adds to the degree block the sum of each row of the 0/1 block, kept as a trailing
  unit axis.
-/
import proofs.«148398_j29910152249795_1_alg».proof.Proof.Gen.KernelIdeal.Skeleton
import proofs.«148398_j29910152249795_1_alg».proof.Proof.LibKeepdims3
import proofs.«148398_j29910152249795_1_alg».proof.Proof.LibArithMask
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.PrepValue
open Cert.KernelIdeal Cert.KernelIdeal.Gen

/-- The indicator of a nonzero word. -/
def nz (w : BitVec 32) : EReal := if w = 0#32 then 0 else 1

/-- The indicator of two equal naturals. -/
def eqN (a b : ℕ) : EReal := if a = b then 1 else 0

/-- The arithmetic of one entry of the stored block, on scalars: from the adjacency word `w`, the row and column
    positions inside the block `r`, `c` and the two block positions `a0`, `a1`, all as 32-bit words. -/
def entry (a0 a1 w r c : BitVec 32) : EReal :=
  FloatOps.addf (F := Ideal) (φ := .f32)
    (FloatOps.mulf (FloatOps.sitofp .f32 ((IntOp.cmpi .ne w 0#32).setWidth 32))
      (FloatOps.subf (FloatOps.ofBits .f32 0x3F800000#32)
        (FloatOps.sitofp .f32 ((IntOp.cmpi .eq (IntOp.addi r (Scalar.muli a0 1024#32)) (IntOp.addi c (Scalar.muli a1 1024#32))).setWidth 32))))
    (FloatOps.sitofp .f32 ((IntOp.cmpi .eq (IntOp.addi r (Scalar.muli a0 1024#32)) (IntOp.addi c (Scalar.muli a1 1024#32))).setWidth 32))

/-- The stored value at an index is that arithmetic of the loaded word, the two position counters there and the
    block's position. -/
theorem pay2_entry (i : grid0.Coords) (x : Vec Ideal S3x1024x1024 .i32) (j : S3x1024x1024.Idx) :
    k0_pay2 (F := Ideal) i x j = entry (BitVec.ofNat 32 (i 0).val) (BitVec.ofNat 32 (i 1).val) (x j)
      (iota .tc S3x1024x1024 32 [1] iota_S3x1024x1024_d1_w32 j) (iota .tc S3x1024x1024 32 [2] iota_S3x1024x1024_d2_w32 j) := rfl

/-- A one-bit word widened to 32 bits and read as a signed integer is 1 when the bit is set and 0 when it is clear. -/
theorem ind_toInt (b : Bool) : ((((BitVec.ofBool b).setWidth 32).toInt : ℝ) : EReal) = if b = true then 1 else 0 := by
  cases b
  · have h : ((BitVec.ofBool false).setWidth 32).toInt = 0 := by decide
    rw [h]; simp
  · have h : ((BitVec.ofBool true).setWidth 32).toInt = 1 := by decide
    rw [h]; simp

/-- Below 8192 the 32-bit sums `p + 1024·I` do not wrap: two of them are equal words exactly when the naturals agree. -/
theorem word_eq_iff (I J p q : ℕ) (hI : I < 8) (hJ : J < 8) (hp : p < 1024) (hq : q < 1024) :
    (BitVec.ofNat 32 p + BitVec.ofNat 32 I * 1024#32 = BitVec.ofNat 32 q + BitVec.ofNat 32 J * 1024#32)
      ↔ 1024 * I + p = 1024 * J + q := by
  rw [← BitVec.toNat_inj]
  simp only [BitVec.toNat_add, BitVec.toNat_mul, BitVec.toNat_ofNat]
  omega

/-- The entry arithmetic in closed form: the nonzero indicator, forced to one where the global positions agree. -/
theorem entry_eq (I J p q : ℕ) (hI : I < 8) (hJ : J < 8) (hp : p < 1024) (hq : q < 1024) (w : BitVec 32) :
    entry (BitVec.ofNat 32 I) (BitVec.ofNat 32 J) w (BitVec.ofNat 32 p) (BitVec.ofNat 32 q)
      = nz w * (1 - eqN (1024 * I + p) (1024 * J + q)) + eqN (1024 * I + p) (1024 * J + q) := by
  have e1 : (FloatOps.sitofp (F := Ideal) .f32 ((IntOp.cmpi .ne w 0#32).setWidth 32) : EReal) = nz w := by
    show ((((BitVec.ofBool (w != 0#32)).setWidth 32).toInt : ℝ) : EReal) = _
    rw [ind_toInt]
    unfold nz
    by_cases h : w = 0#32
    · simp [h]
    · simp [h]
  have e2 : (FloatOps.sitofp (F := Ideal) .f32 ((IntOp.cmpi .eq (IntOp.addi (BitVec.ofNat 32 p) (Scalar.muli (BitVec.ofNat 32 I) 1024#32))
      (IntOp.addi (BitVec.ofNat 32 q) (Scalar.muli (BitVec.ofNat 32 J) 1024#32))).setWidth 32) : EReal)
        = eqN (1024 * I + p) (1024 * J + q) := by
    show ((((BitVec.ofBool (BitVec.ofNat 32 p + BitVec.ofNat 32 I * 1024#32 == BitVec.ofNat 32 q + BitVec.ofNat 32 J * 1024#32)).setWidth 32).toInt : ℝ) : EReal) = _
    rw [ind_toInt]
    unfold eqN
    by_cases h : 1024 * I + p = 1024 * J + q
    · rw [if_pos h, if_pos (by rw [beq_iff_eq]; exact (word_eq_iff I J p q hI hJ hp hq).mpr h)]
    · rw [if_neg h, if_neg (by rw [beq_iff_eq]; exact fun h' => h ((word_eq_iff I J p q hI hJ hp hq).mp h'))]
  unfold entry
  rw [e1, e2]
  show nz w * (Ideal.ofBits .f32 0x3F800000#32 - _) + _ = _
  rw [Cert.LibArithMask.one_word]

/-- One entry of the 0/1 block before the change of format, at block position `i` and coordinates `(v, p, q)`
    inside the block: the nonzero indicator of the adjacency word, forced to one where the global row
    `1024·i₀ + p` equals the global column `1024·i₁ + q` (the 32-bit additions do not wrap below 8192). -/
theorem pay2_apply (i : grid0.Coords) (x : Vec Ideal S3x1024x1024 .i32) (v : Fin 3) (p q : Fin 1024) :
    k0_pay2 (F := Ideal) i x (ix3 v p q)
      = nz (x (ix3 v p q)) * (1 - eqN (1024 * (i 0).val + p.val) (1024 * (i 1).val + q.val))
        + eqN (1024 * (i 0).val + p.val) (1024 * (i 1).val + q.val) := by
  rw [pay2_entry, iota_single_apply, iota_single_apply]
  exact entry_eq (i 0).val (i 1).val p.val q.val (i 0).isLt (i 1).isLt p.isLt q.isLt _

/-- The stored block is the same values: over the extended reals the change of format is the identity. -/
theorem pay3_apply (i : grid0.Coords) (x : Vec Ideal S3x1024x1024 .i32) (j : S3x1024x1024.Idx) :
    k0_pay3 (F := Ideal) i x j = k0_pay2 (F := Ideal) i x j := rfl

/-- The zero block. -/
theorem pay1_apply (j : S3x1024x1.Idx) : k0_pay1 (F := Ideal) j = 0 := Ideal.ofBits_zero_f32

/-- The accumulating value at `(v, p, 0)`: what the degree block held there plus the sum of row `p` of the 0/1 block. -/
theorem pay4_apply (i : grid0.Coords) (x : Vec Ideal S3x1024x1024 .i32) (xo : Vec Ideal S3x1024x1 .f32)
    (v : Fin 3) (p : Fin 1024) (u : Fin 1) :
    k0_pay4 (F := Ideal) i x xo (ix3 v p u) = xo (ix3 v p u) + ∑ q : Fin 1024, k0_pay2 (F := Ideal) i x (ix3 v p q) := by
  unfold k0_pay4
  show shapeCast S3x1024x1 xo shapeCasts_S3x1024x1_S3x1024x1 (ix3 v p u)
    + shapeCast S3x1024x1 (multiReduction .add [2] S3x1024 (k0_pay2 (F := Ideal) i x) 0x00000000#32 reduces_S3x1024x1024_S3x1024 (.inl rfl) rfl)
        shapeCasts_S3x1024_S3x1024x1 (ix3 v p u) = _
  rw [shapeCast_self]
  refine congrArg (xo (ix3 v p u) + ·) ?_
  refine (Cert.LibKeepdims3.shapeCast_ab_ab1_apply _ _ v p u).trans ?_
  exact Cert.LibKeepdims3.multiReduction_add_last_printed _ _ _ _ v p

end Cert.KernelIdeal.PrepValue
end
-- ==== Proof.PrepBlocks.lean ====
/-
  Where the blocks of the first kernel sit in their arrays.

  The 8×8 grid is walked row block by row block: point `t` is row block `t / 8`, column block `t % 8`.  The adjacency
  window and the 0/1 output window take block `(t / 8, t % 8)` of size 1024×1024 (all three views at once); the degree
  window takes row block `t / 8` and does not move along the column axis.  These facts about the printed index maps
  are decided once over the 64 points.  An element at `(v, p, q)` of the adjacency block therefore is the array's entry
  at row `1024·(t / 8) + p`, column `1024·(t % 8) + q`.
-/
import proofs.«148398_j29910152249795_1_alg».proof.Proof.Gen.KernelIdeal.Frame
import proofs.«148398_j29910152249795_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.PrepValue
open Cert.KernelIdeal Cert.KernelIdeal.Gen Cert.Gcn

variable (V : (c : Dev nD) → (b : Ref sig .tc) → Buf (Elt Ideal) ((c : Thread nD τ).loc b))

/-- Point `t` of the 8×8 grid is row block `t / 8`, column block `t % 8`. -/
theorem coords_facts : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The adjacency window's block index at point `t`: all views, row block `t / 8`, column block `t % 8`. -/
theorem idx_facts0 : ∀ t : Fin cfg0.N, win0_0.index t (0 : Fin 3) = 0 ∧ win0_0.index t (1 : Fin 3) = t.val / 8
    ∧ win0_0.index t (2 : Fin 3) = t.val % 8 :=
  (by decide +kernel : ∀ t : Fin grid0.N, _)

/-- The 0/1 output window moves the same way. -/
theorem idx_facts1 : ∀ t : Fin cfg0.N, win0_1.index t (0 : Fin 3) = 0 ∧ win0_1.index t (1 : Fin 3) = t.val / 8
    ∧ win0_1.index t (2 : Fin 3) = t.val % 8 :=
  (by decide +kernel : ∀ t : Fin grid0.N, _)

/-- The degree window's block index does not move along the column axis. -/
theorem idx_facts2 : ∀ t : Fin cfg0.N, win0_2.index t (0 : Fin 3) = 0 ∧ win0_2.index t (1 : Fin 3) = t.val / 8
    ∧ win0_2.index t (2 : Fin 3) = 0 :=
  (by decide +kernel : ∀ t : Fin grid0.N, _)

/-- The adjacency block at point `t` holds, at `(v, p, q)`, the array's word at global row `1024·(t / 8) + p` and
    global column `1024·(t % 8) + q`. -/
theorem iblk_apply (c : Dev nD) (t : Fin cfg0.N) (v : Fin 3) (p q : Fin 1024) (n m : Fin 8192)
    (hn : n.val = 1024 * (t.val / 8) + p.val) (hm : m.val = 1024 * (t.val % 8) + q.val) :
    (iblk0 (F := Ideal) V c 0 t : Vec Ideal S3x1024x1024 .i32) (ix3 v p q) = (V c main_arg0 : SAdj.Idx → BitVec 32) (ix3 v n m) := by
  unfold iblk0
  rw [View.read_apply]
  show (V c main_arg0 : SAdj.Idx → BitVec 32) (((cfg0.win 0).blk t).view.emb (ix3 v p q)) = _
  refine congrArg (V c main_arg0 : SAdj.Idx → BitVec 32) (funext fun a => Fin.ext ?_)
  obtain ⟨e0, e1, e2⟩ := idx_facts0 t
  match a with
  | ⟨0, _⟩ => show win0_0.index t (0 : Fin 3) * 3 + 1 * v.val = v.val; rw [e0]; omega
  | ⟨1, _⟩ => show win0_0.index t (1 : Fin 3) * 1024 + 1 * p.val = n.val; rw [e1, hn]; omega
  | ⟨2, _⟩ => show win0_0.index t (2 : Fin 3) * 1024 + 1 * q.val = m.val; rw [e2, hm]; omega

end Cert.KernelIdeal.PrepValue
end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.PrepValue.lean ====
/-
  The two arrays the first kernel leaves: the self-looped 0/1 adjacency and its row sums (the degrees).

  The kernel walks an 8×8 grid of 1024×1024 blocks of the integer adjacency, row block by row block.  At point
  `t = 8·r + s` (row block `r`, column block `s`) it stores, for all three views, the block of
  `ahat = edge·(1 − diag) + diag` at global rows `1024·r + p` and global columns `1024·s + q`, and that block is
  written back at once: the blocks tile the array, so the array ends as `ahat` everywhere.

  The degree block of row block `r` stays in place along the column axis.  It is reset to zero at `s = 0`, and every
  point adds the row sums of its 0/1 block: after the point `8·r + s` it holds
  `0 + Σ_{s' ≤ s} Σ_{q < 1024} ahat(v, 1024·r + p, 1024·s' + q)` (a fold over the run of points, by induction on
  the offset in the run, never by listing the grid).  It is written back after `s = 7`, when the double sum runs
  over all 8·1024 = 8192 columns: the degree.  These write-backs tile the degree array.
-/
import proofs.«148398_j29910152249795_1_alg».proof.Proof.Gen.KernelIdeal.Frame
import proofs.«148398_j29910152249795_1_alg».proof.Proof.Spec
import proofs.«148398_j29910152249795_1_alg».proof.Proof.PrepBody
import proofs.«148398_j29910152249795_1_alg».proof.Proof.PrepPayload
import proofs.«148398_j29910152249795_1_alg».proof.Proof.PrepBlocks
import proofs.«148398_j29910152249795_1_alg».proof.Proof.LibTileSum
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.PrepValue
open Cert.KernelIdeal Cert.KernelIdeal.Gen Cert.Gcn

variable (V : (c : Dev nD) → (b : Ref sig .tc) → Buf (Elt Ideal) ((c : Thread nD τ).loc b))

/-- The adjacency array as the region finds it, as words over its literal shape. -/
abbrev adjOf (c : Dev nD) : SAdj.Idx → BitVec 32 := V c main_arg0

/-- An entry of the 0/1 block at point `t` is the self-looped adjacency at the global row and column. -/
theorem pay2_ahat (c : Dev nD) (t : Fin cfg0.N) (v : Fin 3) (p q : Fin 1024) (n m : Fin 8192)
    (hn : n.val = 1024 * (t.val / 8) + p.val) (hm : m.val = 1024 * (t.val % 8) + q.val) :
    k0_pay2 (F := Ideal) (grid0.coords t) (iblk0 V c 0 t) (ix3 v p q) = ahat (adjOf V c) v n m := by
  refine (pay2_apply (grid0.coords t) (iblk0 V c 0 t) v p q).trans ?_
  rw [iblk_apply V c t v p q n m hn hm]
  obtain ⟨c0, c1⟩ := coords_facts t
  rw [c0, c1, ← hn, ← hm]
  unfold ahat edge diag nz eqN
  by_cases h : n = m
  · rw [if_pos h, if_pos (congrArg Fin.val h)]
  · rw [if_neg h, if_neg (fun h' => h (Fin.ext h'))]

/-- What the 0/1 output block holds after point `t`, in either case: the stored value of the point's adjacency block. -/
theorem outs1_eq (c : Dev nD) (t : Fin cfg0.N) :
    (outsAt0 (F := Ideal) V c t.val t.isLt).1 = k0_pay3 (F := Ideal) (grid0.coords t) (iblk0 (F := Ideal) V c 0 t) := by
  by_cases h0 : t.val % 8 = 0
  · rw [outsAt0_A (F := Ideal) V c t h0]
    dsimp only
    exact out_A_1 (F := Ideal) c (grid0.coords t) (ms0_0 t) (hs0_0 t) (ms0_1 t) (hs0_1 t) (ms0_2 t) (hs0_2 t) ((hcond0_0 t).mpr h0) (iblk0 (F := Ideal) V c 0 t)
  · rw [outsAt0_B (F := Ideal) V c t h0]
    dsimp only
    exact out_B_1 (F := Ideal) c (grid0.coords t) (ms0_0 t) (hs0_0 t) (ms0_1 t) (hs0_1 t) (ms0_2 t) (hs0_2 t) (fun h => h0 ((hcond0_0 t).mp h)) (iblk0 (F := Ideal) V c 0 t)
      (outsAt0 (F := Ideal) V c (t.val - 1) (Nat.lt_of_le_of_lt (Nat.sub_le _ _) t.isLt)).2

/-- The self-looped adjacency on natural positions (zero outside the array): a function of every natural, so that
    sums over ranges of positions can be stated without bounds. -/
def ahatN (adj : SAdj.Idx → BitVec 32) (v : Fin 3) (n m : ℕ) : EReal :=
  if h : n < 8192 ∧ m < 8192 then ahat adj v ⟨n, h.1⟩ ⟨m, h.2⟩ else 0

/-- The sum of row `p` of the 0/1 block at point `s`: the self-looped adjacency of global row `1024·(s / 8) + p`
    over the 1024 columns of column block `s % 8`. -/
def rowSum (adj : SAdj.Idx → BitVec 32) (s : ℕ) (v : Fin 3) (p : Fin 1024) : EReal :=
  ∑ q : Fin 1024, ahatN adj v (1024 * (s / 8) + p.val) (1024 * (s % 8) + q.val)

/-- The accumulating value at point `t` over any previous contents: the contents plus the row sum of the point's block. -/
theorem pay4_point (c : Dev nD) (t : Fin cfg0.N) (acc : Vec Ideal S3x1024x1 .f32) (v : Fin 3) (p : Fin 1024) (u : Fin 1) :
    k0_pay4 (F := Ideal) (grid0.coords t) (iblk0 (F := Ideal) V c 0 t) acc (ix3 v p u)
      = acc (ix3 v p u) + rowSum (adjOf V c) t.val v p := by
  have hN : t.val < 64 := lt_of_lt_of_eq t.isLt N_0
  refine (pay4_apply (grid0.coords t) (iblk0 (F := Ideal) V c 0 t) acc v p u).trans ?_
  refine congrArg (acc (ix3 v p u) + ·) ?_
  unfold rowSum
  refine Finset.sum_congr rfl fun q _ => ?_
  have hn : 1024 * (t.val / 8) + p.val < 8192 := by have := p.isLt; omega
  have hm : 1024 * (t.val % 8) + q.val < 8192 := by have := q.isLt; omega
  refine (pay2_ahat V c t v p q ⟨_, hn⟩ ⟨_, hm⟩ rfl rfl).trans ?_
  unfold ahatN
  rw [dif_pos ⟨hn, hm⟩]

/-- The degree block after a point that resets it, and the step at every other point. -/
def degA (c : Dev nD) (n : ℕ) (h : n < cfg0.N) : S3x1024x1.Idx → EReal :=
  k0_pay4 (F := Ideal) (grid0.coords ⟨n, h⟩) (iblk0 (F := Ideal) V c 0 ⟨n, h⟩) (k0_pay1 (F := Ideal))
def degG (c : Dev nD) (n : ℕ) (h : n < cfg0.N) (acc : S3x1024x1.Idx → EReal) : S3x1024x1.Idx → EReal :=
  k0_pay4 (F := Ideal) (grid0.coords ⟨n, h⟩) (iblk0 (F := Ideal) V c 0 ⟨n, h⟩) acc

/-- The addend of point `s` at an index of the degree block. -/
def degM (adj : SAdj.Idx → BitVec 32) (s : ℕ) (idx : S3x1024x1.Idx) : EReal := rowSum adj s (idx 0) (idx 1)

/-- At the first point of a run the degree block is the accumulating value over the zero block. -/
theorem outs2_reset (c : Dev nD) (n : ℕ) (h : n < cfg0.N) (h0 : n % 8 = 0) :
    (outsAt0 (F := Ideal) V c n h).2 = degA V c n h := by
  rw [outsAt0_A (F := Ideal) V c ⟨n, h⟩ h0]
  dsimp only
  exact out_A_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    ((hcond0_0 ⟨n, h⟩).mpr h0) (iblk0 (F := Ideal) V c 0 ⟨n, h⟩)

/-- At every other point it is the accumulating value over what the point before left. -/
theorem outs2_step (c : Dev nD) (n : ℕ) (h : n + 1 < cfg0.N) (h0 : ¬(n + 1) % 8 = 0) :
    (outsAt0 (F := Ideal) V c (n + 1) h).2 = degG V c (n + 1) h (outsAt0 (F := Ideal) V c n (Nat.lt_of_succ_lt h)).2 := by
  rw [outsAt0_B (F := Ideal) V c ⟨n + 1, h⟩ h0]
  dsimp only
  exact out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
    (fun hh => h0 ((hcond0_0 ⟨n + 1, h⟩).mp hh)) (iblk0 (F := Ideal) V c 0 ⟨n + 1, h⟩) (outsAt0 (F := Ideal) V c n (Nat.lt_of_succ_lt h)).2

/-- The degree block after point `8·r + j` is the fold over the run of points `8·r … 8·r + j`. -/
theorem outs2_fold (c : Dev nD) (r j : ℕ) (hj : j < 8) (h : 8 * r + j < cfg0.N) :
    (outsAt0 (F := Ideal) V c (8 * r + j) h).2 = Pipeline.accAt (degA V c) (degG V c) (8 * r) j h :=
  Pipeline.eq_accAt (fun n h => (outsAt0 (F := Ideal) V c n h).2) 8 (degA V c) (degG V c)
    (outs2_reset V c) (outs2_step V c) r j hj h

/-- A step adds the point's addend, entry by entry. -/
theorem degG_apply (c : Dev nD) (n : ℕ) (h : n < cfg0.N) (acc : S3x1024x1.Idx → EReal) (idx : S3x1024x1.Idx) :
    degG V c n h acc idx = acc idx + degM (adjOf V c) n idx := by
  obtain ⟨v, p, u, rfl⟩ : ∃ (v : Fin 3) (p : Fin 1024) (u : Fin 1), idx = ix3 v p u := ⟨idx 0, idx 1, idx 2, eq_ix3 idx⟩
  exact pay4_point V c ⟨n, h⟩ acc v p u

/-- The reset leaves zero plus the first point's addend. -/
theorem degA_apply (c : Dev nD) (n : ℕ) (h : n < cfg0.N) (idx : S3x1024x1.Idx) :
    degA V c n h idx = 0 + degM (adjOf V c) n idx := by
  obtain ⟨v, p, u, rfl⟩ : ∃ (v : Fin 3) (p : Fin 1024) (u : Fin 1), idx = ix3 v p u := ⟨idx 0, idx 1, idx 2, eq_ix3 idx⟩
  refine (pay4_point V c ⟨n, h⟩ (k0_pay1 (F := Ideal)) v p u).trans ?_
  rw [pay1_apply]
  rfl

/-- The fold unrolled: zero plus the addends of the run's points. -/
theorem fold_apply (c : Dev nD) (b j : ℕ) (hj : j ≤ 7) (h : b + j < cfg0.N) (idx : S3x1024x1.Idx) :
    Pipeline.accAt (degA V c) (degG V c) b j h idx = 0 + ∑ s ∈ Finset.range (j + 1), degM (adjOf V c) (b + s) idx :=
  Pipeline.accAt_add_apply (degA V c) (degG V c) (fun _ => 0) (degM (adjOf V c)) b 7
    (fun hb i => degA_apply V c b hb i) (fun n hn acc i _ _ => degG_apply V c n hn acc i) j hj h idx

/-- Eight column blocks of 1024 columns are the 8192 columns: the row sums of a row block's eight points add up to the degree. -/
theorem deg_sum (adj : SAdj.Idx → BitVec 32) (r : ℕ) (v : Fin 3) (p : Fin 1024) (n : Fin 8192) (hn : n.val = 1024 * r + p.val) :
    ∑ s ∈ Finset.range 8, rowSum adj (8 * r + s) v p = deg adj v n := by
  unfold deg rowSum
  have e : ∀ s ∈ Finset.range 8, (∑ q : Fin 1024, ahatN adj v (1024 * ((8 * r + s) / 8) + p.val) (1024 * ((8 * r + s) % 8) + q.val))
      = ∑ q : Fin 1024, (fun m => ahatN adj v n.val m) (s * 1024 + q.val) := by
    intro s hs
    have hs' := Finset.mem_range.mp hs
    refine Finset.sum_congr rfl fun q _ => ?_
    have e1 : (8 * r + s) / 8 = r := by omega
    have e2 : (8 * r + s) % 8 = s := by omega
    rw [e1, e2, hn, Nat.mul_comm 1024 s]
  rw [Finset.sum_congr rfl e, Cert.LibTileSum.tile_sum 1024 (fun m => ahatN adj v n.val m) 8]
  show ∑ m : Fin 8192, ahatN adj v n.val m.val = _
  refine Finset.sum_congr rfl fun m _ => ?_
  unfold ahatN
  rw [dif_pos ⟨n.isLt, m.isLt⟩]

/-- After the last point of a row block's run the degree block holds the degrees of its rows. -/
theorem outs2_deg (c : Dev nD) (t : Fin cfg0.N) (h7 : t.val % 8 = 7) (v : Fin 3) (p : Fin 1024) (u : Fin 1) (n : Fin 8192)
    (hn : n.val = 1024 * (t.val / 8) + p.val) :
    (outsAt0 (F := Ideal) V c t.val t.isLt).2 (ix3 v p u) = deg (adjOf V c) v n := by
  have hN : cfg0.N = 64 := N_0
  have ht : 8 * (t.val / 8) + 7 = t.val := by omega
  have h' : 8 * (t.val / 8) + 7 < cfg0.N := by rw [ht]; exact t.isLt
  have key : ∀ (w : ℕ) (hw : w < cfg0.N), w = t.val →
      (outsAt0 (F := Ideal) V c w hw).2 = (outsAt0 (F := Ideal) V c t.val t.isLt).2 := fun w hw e => by subst e; rfl
  rw [← key _ h' ht, outs2_fold V c (t.val / 8) 7 (by decide) h', fold_apply V c (8 * (t.val / 8)) 7 (le_refl 7) h', zero_add]
  show ∑ s ∈ Finset.range 8, rowSum (adjOf V c) (8 * (t.val / 8) + s) v p = _
  exact deg_sum (adjOf V c) (t.val / 8) v p n hn

/-- The self-looped adjacency and the degree depend on their coordinates only through their values. -/
theorem ahat_congr (adj : SAdj.Idx → BitVec 32) (v v' : Fin 3) (n n' m m' : Fin 8192) (hv : v'.val = v.val)
    (hn : n'.val = n.val) (hm : m'.val = m.val) : ahat adj v n m = ahat adj v' n' m' := by
  obtain rfl : v' = v := Fin.ext hv
  obtain rfl : n' = n := Fin.ext hn
  obtain rfl : m' = m := Fin.ext hm
  rfl

theorem deg_congr (adj : SAdj.Idx → BitVec 32) (v v' : Fin 3) (n n' : Fin 8192) (hv : v'.val = v.val)
    (hn : n'.val = n.val) : deg adj v n = deg adj v' n' := by
  obtain rfl : v' = v := Fin.ext hv
  obtain rfl : n' = n := Fin.ext hn
  rfl

/-- What every point writes back into the 0/1 array is its block of the self-looped adjacency. -/
theorem ah_flushed (c : Dev nD) (t : Fin cfg0.N) :
    (dat0 (F := Ideal) V c).flushed 1 t = ((cfg0.win 1).blk t).view.read (Elt Ideal) (ahatArr (adjOf V c)) := by
  show (cfg0.win 1).cut (grid0.coords t) ((dat0 (F := Ideal) V c).after 1 t) = _
  rw [after0_1, outs1_eq]
  refine funext fun (j : S3x1024x1024.Idx) => ?_
  obtain ⟨v, p, q, rfl⟩ : ∃ (v : Fin 3) (p q : Fin 1024), j = ix3 v p q := ⟨j 0, j 1, j 2, eq_ix3 j⟩
  have hN : t.val < 64 := lt_of_lt_of_eq t.isLt N_0
  obtain ⟨e0, e1, e2⟩ := idx_facts1 t
  show k0_pay3 (F := Ideal) (grid0.coords t) (iblk0 (F := Ideal) V c 0 t) (ix3 v p q)
    = ahatArr (adjOf V c) (((cfg0.win 1).blk t).view.emb (ix3 v p q))
  refine (pay3_apply _ _ _).trans ?_
  have hn : 1024 * (t.val / 8) + p.val < 8192 := by have := p.isLt; omega
  have hm : 1024 * (t.val % 8) + q.val < 8192 := by have := q.isLt; omega
  refine (pay2_ahat V c t v p q ⟨_, hn⟩ ⟨_, hm⟩ rfl rfl).trans ?_
  unfold ahatArr
  refine ahat_congr (adjOf V c) v _ ⟨_, hn⟩ _ ⟨_, hm⟩ _ ?_ ?_ ?_
  · show win0_1.index t (0 : Fin 3) * 3 + 1 * v.val = v.val; rw [e0]; omega
  · show win0_1.index t (1 : Fin 3) * 1024 + 1 * p.val = 1024 * (t.val / 8) + p.val; rw [e1]; omega
  · show win0_1.index t (2 : Fin 3) * 1024 + 1 * q.val = 1024 * (t.val % 8) + q.val; rw [e2]; omega

/-- Every entry of the 0/1 array lies in the block of the point at its row block and column block. -/
theorem ah_cover (i : SAdj.Idx) :
    ∃ t : Fin cfg0.N, (cfg0.win 1).flush t = true ∧ i ∈ ((cfg0.win 1).blk t).view.set := by
  have h0 : (i 0).val < 3 := (i 0).isLt
  have h1 : (i 1).val < 8192 := (i 1).isLt
  have h2 : (i 2).val < 8192 := (i 2).isLt
  have hN : cfg0.N = 64 := N_0
  obtain ⟨t, ht⟩ : ∃ t : Fin cfg0.N, t.val = 8 * ((i 1).val / 1024) + (i 2).val / 1024 :=
    ⟨⟨8 * ((i 1).val / 1024) + (i 2).val / 1024, by rw [hN]; omega⟩, rfl⟩
  refine ⟨t, flush0_1 t, ?_⟩
  show i ∈ ((View.whole main_v0_0).slice (win0_1.rect t)).set
  rw [View.set_slice_whole, Rect.mem_set_unit]
  obtain ⟨e0, e1, e2⟩ := idx_facts1 t
  intro a
  match a with
  | ⟨0, _⟩ =>
    show win0_1.index t (0 : Fin 3) * 3 ≤ (i 0).val ∧ (i 0).val < win0_1.index t (0 : Fin 3) * 3 + 3
    rw [e0]; omega
  | ⟨1, _⟩ =>
    show win0_1.index t (1 : Fin 3) * 1024 ≤ (i 1).val ∧ (i 1).val < win0_1.index t (1 : Fin 3) * 1024 + 1024
    rw [e1, ht]; omega
  | ⟨2, _⟩ =>
    show win0_1.index t (2 : Fin 3) * 1024 ≤ (i 2).val ∧ (i 2).val < win0_1.index t (2 : Fin 3) * 1024 + 1024
    rw [e2, ht]; omega

/-- The 0/1 array after the run is the self-looped adjacency of the adjacency array. -/
theorem ah_final (c : Dev nD) : (dat0 (F := Ideal) V c).arrAt 1 cfg0.N = ahatArr (V c main_arg0) :=
  (dat0 (F := Ideal) V c).arrAt_eq_of_cover 1 (ahatArr (adjOf V c)) (fun t _ => ah_flushed V c t) (fun i => ah_cover i)

/-- What the last point of each row block's run writes back into the degree array is its block of the degrees. -/
theorem deg_flushed (c : Dev nD) (t : Fin cfg0.N) (hf : (cfg0.win 2).flush t = true) :
    (dat0 (F := Ideal) V c).flushed 2 t = ((cfg0.win 2).blk t).view.read (Elt Ideal) (degArr (adjOf V c)) := by
  have h7 : t.val % 8 = 7 := (flush0_2 t).mp hf
  show (cfg0.win 2).cut (grid0.coords t) ((dat0 (F := Ideal) V c).after 2 t) = _
  rw [after0_2]
  refine funext fun (j : S3x1024x1.Idx) => ?_
  obtain ⟨v, p, u, rfl⟩ : ∃ (v : Fin 3) (p : Fin 1024) (u : Fin 1), j = ix3 v p u := ⟨j 0, j 1, j 2, eq_ix3 j⟩
  have hN : t.val < 64 := lt_of_lt_of_eq t.isLt N_0
  obtain ⟨e0, e1, e2⟩ := idx_facts2 t
  show (outsAt0 (F := Ideal) V c t.val t.isLt).2 (ix3 v p u) = degArr (adjOf V c) (((cfg0.win 2).blk t).view.emb (ix3 v p u))
  have hn : 1024 * (t.val / 8) + p.val < 8192 := by have := p.isLt; omega
  refine (outs2_deg V c t h7 v p u ⟨_, hn⟩ rfl).trans ?_
  unfold degArr
  refine deg_congr (adjOf V c) v _ ⟨_, hn⟩ _ ?_ ?_
  · show win0_2.index t (0 : Fin 3) * 3 + 1 * v.val = v.val; rw [e0]; omega
  · show win0_2.index t (1 : Fin 3) * 1024 + 1 * p.val = 1024 * (t.val / 8) + p.val; rw [e1]; omega

/-- Every entry of the degree array lies in the block the last point of its row block's run writes back. -/
theorem deg_cover (i : SCol.Idx) :
    ∃ t : Fin cfg0.N, (cfg0.win 2).flush t = true ∧ i ∈ ((cfg0.win 2).blk t).view.set := by
  have h0 : (i 0).val < 3 := (i 0).isLt
  have h1 : (i 1).val < 8192 := (i 1).isLt
  have h2 : (i 2).val < 1 := (i 2).isLt
  have hN : cfg0.N = 64 := N_0
  obtain ⟨t, ht⟩ : ∃ t : Fin cfg0.N, t.val = 8 * ((i 1).val / 1024) + 7 :=
    ⟨⟨8 * ((i 1).val / 1024) + 7, by rw [hN]; omega⟩, rfl⟩
  refine ⟨t, (flush0_2 t).mpr (by rw [ht]; omega), ?_⟩
  show i ∈ ((View.whole main_v0_1).slice (win0_2.rect t)).set
  rw [View.set_slice_whole, Rect.mem_set_unit]
  obtain ⟨e0, e1, e2⟩ := idx_facts2 t
  intro a
  match a with
  | ⟨0, _⟩ =>
    show win0_2.index t (0 : Fin 3) * 3 ≤ (i 0).val ∧ (i 0).val < win0_2.index t (0 : Fin 3) * 3 + 3
    rw [e0]; omega
  | ⟨1, _⟩ =>
    show win0_2.index t (1 : Fin 3) * 1024 ≤ (i 1).val ∧ (i 1).val < win0_2.index t (1 : Fin 3) * 1024 + 1024
    rw [e1, ht]; omega
  | ⟨2, _⟩ =>
    show win0_2.index t (2 : Fin 3) * 1 ≤ (i 2).val ∧ (i 2).val < win0_2.index t (2 : Fin 3) * 1 + 1
    rw [e2]; omega

/-- The degree array after the run holds the row sums of the self-looped adjacency. -/
theorem deg_final (c : Dev nD) : (dat0 (F := Ideal) V c).arrAt 2 cfg0.N = degArr (V c main_arg0) :=
  (dat0 (F := Ideal) V c).arrAt_eq_of_cover 2 (degArr (adjOf V c)) (fun t hf => deg_flushed V c t hf) (fun i => deg_cover i)

end Cert.KernelIdeal.PrepValue
end
-- ==== Proof.LayerPayload.lean ====
/-
  One graph-convolution layer's stored block, read at an index.

  Both layer regions run the same body on a row block of 256 nodes: the adjacency block `[3,256,8192]` times the
  operand `[3,8192,128]` (batched over the 3 views, contracting the 8192 neighbours) into a zero accumulator, each
  row scaled by its entry of the column `[3,256,1]`, the bias row `[3,1,128]` added to every row, the result clipped
  below at 0.  At the exact values the entry `(v, p, h)` is
  `max((Σ_k x0(v,p,k)·x1(v,k,h))·x2(v,p,0) + x3(v,0,h), 0)`; and if the adjacency and column blocks are rows
  `256 n + p` of their arrays while the operand and the bias row are whole, that entry is the layer `layerArr` of the
  arrays at `(v, 256 n + p, h)`.
-/
import proofs.«148398_j29910152249795_1_alg».proof.Proof.Gen.KernelIdeal.Skeleton
import proofs.«148398_j29910152249795_1_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.LayerValue

open Cert.KernelIdeal Cert.KernelIdeal.Gen Cert.Gcn

/-- The zero offsets of a whole-block access, however they are spelt. -/
theorem hz : (![0, 0, 0] : Fin 3 → Nat) = fun _ => 0 := funext fun a => by fin_cases a <;> rfl

/-! ## The batched product read at an index

The dimension numbers batch axis 0, contract axis 2 of the left operand with axis 1 of the right: at the output
index `(v, p, h)` and contraction position `k` the operands are read at `(v, p, k)` and `(v, k, h)`. -/

theorem mm_lhs_0 (i : S3x256x128.Idx) (q : dot_S3x256x8192_S3x8192x128_S3x256x128_2_1_1_2_0_0.contr.Idx) :
    (dot_S3x256x8192_S3x8192x128_S3x256x128_2_1_1_2_0_0.lhsIdx i q 0).val = (i 0).val := by
  unfold DotDims.lhsIdx
  rw [dif_pos (show (0 : Fin S3x256x8192.rank) ∈ dot_S3x256x8192_S3x8192x128_S3x256x128_2_1_1_2_0_0.lhsBatch by decide)]
  rfl
theorem mm_lhs_1 (i : S3x256x128.Idx) (q : dot_S3x256x8192_S3x8192x128_S3x256x128_2_1_1_2_0_0.contr.Idx) :
    (dot_S3x256x8192_S3x8192x128_S3x256x128_2_1_1_2_0_0.lhsIdx i q 1).val = (i 1).val := by
  unfold DotDims.lhsIdx
  rw [dif_neg (show ¬(1 : Fin S3x256x8192.rank) ∈ dot_S3x256x8192_S3x8192x128_S3x256x128_2_1_1_2_0_0.lhsBatch by decide),
    dif_pos (show (1 : Fin S3x256x8192.rank) ∈ dot_S3x256x8192_S3x8192x128_S3x256x128_2_1_1_2_0_0.lhsNonContracting by decide)]
  rfl
theorem mm_lhs_2 (i : S3x256x128.Idx) (q : dot_S3x256x8192_S3x8192x128_S3x256x128_2_1_1_2_0_0.contr.Idx) :
    (dot_S3x256x8192_S3x8192x128_S3x256x128_2_1_1_2_0_0.lhsIdx i q 2).val = (q ⟨0, by decide⟩).val :=
  dot_S3x256x8192_S3x8192x128_S3x256x128_2_1_1_2_0_0.lhsIdx_val_of_single rfl i q
theorem mm_rhs_0 (i : S3x256x128.Idx) (q : dot_S3x256x8192_S3x8192x128_S3x256x128_2_1_1_2_0_0.contr.Idx) :
    (dot_S3x256x8192_S3x8192x128_S3x256x128_2_1_1_2_0_0.rhsIdx i q 0).val = (i 0).val := by
  unfold DotDims.rhsIdx
  rw [dif_pos (show (0 : Fin S3x8192x128.rank) ∈ dot_S3x256x8192_S3x8192x128_S3x256x128_2_1_1_2_0_0.rhsBatch by decide)]
  rfl
theorem mm_rhs_1 (i : S3x256x128.Idx) (q : dot_S3x256x8192_S3x8192x128_S3x256x128_2_1_1_2_0_0.contr.Idx) :
    (dot_S3x256x8192_S3x8192x128_S3x256x128_2_1_1_2_0_0.rhsIdx i q 1).val = (q ⟨0, by decide⟩).val :=
  dot_S3x256x8192_S3x8192x128_S3x256x128_2_1_1_2_0_0.rhsIdx_val_of_single rfl i q
theorem mm_rhs_2 (i : S3x256x128.Idx) (q : dot_S3x256x8192_S3x8192x128_S3x256x128_2_1_1_2_0_0.contr.Idx) :
    (dot_S3x256x8192_S3x8192x128_S3x256x128_2_1_1_2_0_0.rhsIdx i q 2).val = (i 2).val := by
  unfold DotDims.rhsIdx
  rw [dif_neg (show ¬(2 : Fin S3x8192x128.rank) ∈ dot_S3x256x8192_S3x8192x128_S3x256x128_2_1_1_2_0_0.rhsBatch by decide),
    dif_pos (show (2 : Fin S3x8192x128.rank) ∈ dot_S3x256x8192_S3x8192x128_S3x256x128_2_1_1_2_0_0.rhsNonContracting by decide)]
  rfl

/-- The batched product into a zero accumulator, at `(v, p, h)`: the sum over the contracted axis. -/
theorem mm_apply (y0 : FVec Ideal S3x256x8192 .bf16) (y1 : FVec Ideal S3x8192x128 .bf16) (v : Fin 3) (p : Fin 256) (h : Fin 128) :
    FloatOps.matmul dot_S3x256x8192_S3x8192x128_S3x256x128_2_1_1_2_0_0 none y0 y1 (constant S3x256x128 .f32 0x00000000#32) (ix3 v p h)
      = ∑ k : Fin 8192, y0 (ix3 v p k) * y1 (ix3 v k h) := by
  rw [Ideal.matmul_constant_zero_apply, ← Equiv.sum_comp (contrEquiv1 dot_S3x256x8192_S3x8192x128_S3x256x128_2_1_1_2_0_0 8192 rfl rfl).symm]
  refine Finset.sum_congr rfl fun k _ => ?_
  have hk := contrEquiv1_symm_val dot_S3x256x8192_S3x8192x128_S3x256x128_2_1_1_2_0_0 8192 rfl rfl k
  have el : dot_S3x256x8192_S3x8192x128_S3x256x128_2_1_1_2_0_0.lhsIdx (ix3 v p h)
      ((contrEquiv1 dot_S3x256x8192_S3x8192x128_S3x256x128_2_1_1_2_0_0 8192 rfl rfl).symm k) = ix3 v p k :=
    funext fun a => Fin.ext (by
      match a with
      | ⟨0, _⟩ => exact mm_lhs_0 _ _
      | ⟨1, _⟩ => exact mm_lhs_1 _ _
      | ⟨2, _⟩ => exact (mm_lhs_2 _ _).trans hk)
  have er : dot_S3x256x8192_S3x8192x128_S3x256x128_2_1_1_2_0_0.rhsIdx (ix3 v p h)
      ((contrEquiv1 dot_S3x256x8192_S3x8192x128_S3x256x128_2_1_1_2_0_0 8192 rfl rfl).symm k) = ix3 v k h :=
    funext fun a => Fin.ext (by
      match a with
      | ⟨0, _⟩ => exact mm_rhs_0 _ _
      | ⟨1, _⟩ => exact (mm_rhs_1 _ _).trans hk
      | ⟨2, _⟩ => exact mm_rhs_2 _ _)
  rw [el, er]

/-! ## The two broadcasts read at an index -/

/-- The column `[3,256,1]` broadcast along the last axis, at `(v, p, h)`: the column's entry `(v, p, 0)`. -/
theorem col_apply (x2 : FVec Ideal S3x256x1 .f32) (hc : S3x256x1.ShapeCasts S3x256x1) (hb : S3x256x1.Broadcasts S3x256x128)
    (v : Fin 3) (p : Fin 256) (h : Fin 128) :
    broadcastTo S3x256x128 (shapeCast S3x256x1 x2 hc) hb (ix3 v p h) = x2 (ix3 v p (0 : Fin 1)) := by
  rw [shapeCast_self]
  refine broadcastTo_apply x2 hb (ix3 v p h) (ix3 v p (0 : Fin 1)) fun a => ?_
  match a with
  | ⟨0, _⟩ => rfl
  | ⟨1, _⟩ => rfl
  | ⟨2, _⟩ => rfl

/-- The row `[3,1,128]` broadcast along the rows, at `(v, p, h)`: the row's entry `(v, 0, h)`. -/
theorem row_apply (x3 : FVec Ideal S3x1x128 .f32) (hc : S3x1x128.ShapeCasts S3x1x128) (hb : S3x1x128.Broadcasts S3x256x128)
    (v : Fin 3) (p : Fin 256) (h : Fin 128) :
    broadcastTo S3x256x128 (shapeCast S3x1x128 x3 hc) hb (ix3 v p h) = x3 (ix3 v (0 : Fin 1) h) := by
  rw [shapeCast_self]
  refine broadcastTo_apply x3 hb (ix3 v p h) (ix3 v (0 : Fin 1) h) fun a => ?_
  match a with
  | ⟨0, _⟩ => rfl
  | ⟨1, _⟩ => rfl
  | ⟨2, _⟩ => rfl

/-- The product of the two loaded blocks (each cast to its own shape) into the zero accumulator, at `(v, p, h)`. -/
theorem prod_apply (x0 : FVec Ideal S3x256x8192 .bf16) (x1 : FVec Ideal S3x8192x128 .bf16)
    (h0 : S3x256x8192.ShapeCasts S3x256x8192) (h1 : S3x8192x128.ShapeCasts S3x8192x128) (v : Fin 3) (p : Fin 256) (h : Fin 128) :
    FloatOps.matmul dot_S3x256x8192_S3x8192x128_S3x256x128_2_1_1_2_0_0 none (shapeCast S3x256x8192 x0 h0) (shapeCast S3x8192x128 x1 h1)
        (constant S3x256x128 .f32 0x00000000#32) (ix3 v p h)
      = ∑ k : Fin 8192, x0 (ix3 v p k) * x1 (ix3 v k h) := by
  rw [shapeCast_self, shapeCast_self]
  exact mm_apply x0 x1 v p h

/-! ## The layer body's stored value at an index -/

/-- Region 1's stored value at `(v, p, h)`: the product's entry scaled by the column, plus the row, clipped below at 0. -/
theorem pay1_apply (x0 : FVec Ideal S3x256x8192 .bf16) (x1 : FVec Ideal S3x8192x128 .bf16) (x2 : FVec Ideal S3x256x1 .f32)
    (x3 : FVec Ideal S3x1x128 .f32) (v : Fin 3) (p : Fin 256) (h : Fin 128) :
    k1_pay1 (F := Ideal) x0 x1 x2 x3 (ix3 v p h)
      = max ((∑ k : Fin 8192, x0 (ix3 v p k) * x1 (ix3 v k h)) * x2 (ix3 v p (0 : Fin 1)) + x3 (ix3 v (0 : Fin 1) h)) 0 := by
  unfold k1_pay1
  show max (FloatOps.matmul dot_S3x256x8192_S3x8192x128_S3x256x128_2_1_1_2_0_0 none (shapeCast S3x256x8192 x0 _) (shapeCast S3x8192x128 x1 _)
        (constant S3x256x128 .f32 0x00000000#32) (ix3 v p h)
      * broadcastTo S3x256x128 (shapeCast S3x256x1 x2 _) _ (ix3 v p h)
      + broadcastTo S3x256x128 (shapeCast S3x1x128 x3 _) _ (ix3 v p h)) (Ideal.ofBits .f32 0x00000000#32) = _
  exact congrArg₂ max
    (congrArg₂ (· + ·) (congrArg₂ (· * ·) (prod_apply x0 x1 _ _ v p h) (col_apply x2 _ _ v p h)) (row_apply x3 _ _ v p h))
    Ideal.ofBits_zero_f32

/-- Region 2's stored value is the same term. -/
theorem pay2_apply (x0 : FVec Ideal S3x256x8192 .bf16) (x1 : FVec Ideal S3x8192x128 .bf16) (x2 : FVec Ideal S3x256x1 .f32)
    (x3 : FVec Ideal S3x1x128 .f32) (v : Fin 3) (p : Fin 256) (h : Fin 128) :
    k2_pay1 (F := Ideal) x0 x1 x2 x3 (ix3 v p h)
      = max ((∑ k : Fin 8192, x0 (ix3 v p k) * x1 (ix3 v k h)) * x2 (ix3 v p (0 : Fin 1)) + x3 (ix3 v (0 : Fin 1) h)) 0 :=
  pay1_apply x0 x1 x2 x3 v p h

/-! ## A block of the layer, from what its four input blocks read

Stated over variables: `x0 … x3` are the loaded blocks, `a w d b` the whole arrays, `n` the row block's number. If the
adjacency block and the column block read rows `256 n + p` of their arrays and the other two blocks read their whole
arrays, the stored value at `(v, p, h)` is the layer at `(v, 256 n + p, h)`. -/
theorem block_value (x0 : FVec Ideal S3x256x8192 .bf16) (x1 : FVec Ideal S3x8192x128 .bf16) (x2 : FVec Ideal S3x256x1 .f32)
    (x3 : FVec Ideal S3x1x128 .f32)
    (a : SAdj.Idx → EReal) (w : SFeat.Idx → EReal) (d : SCol.Idx → EReal) (b : SRow.Idx → EReal) (n : Nat)
    (h0 : ∀ (v : Fin 3) (p : Fin 256) (k : Fin 8192) (r : Fin 8192), r.val = n * 256 + p.val → x0 (ix3 v p k) = a (ix3 v r k))
    (h1 : ∀ (v : Fin 3) (k : Fin 8192) (h : Fin 128), x1 (ix3 v k h) = w (ix3 v k h))
    (h2 : ∀ (v : Fin 3) (p : Fin 256) (r : Fin 8192), r.val = n * 256 + p.val → x2 (ix3 v p (0 : Fin 1)) = d (ix3 v r (0 : Fin 1)))
    (h3 : ∀ (v : Fin 3) (h : Fin 128), x3 (ix3 v (0 : Fin 1) h) = b (ix3 v (0 : Fin 1) h))
    (j : S3x256x128.Idx) (i : SFeat.Idx) (hi0 : (i 0).val = (j 0).val) (hi1 : (i 1).val = n * 256 + (j 1).val)
    (hi2 : (i 2).val = (j 2).val) :
    k1_pay1 (F := Ideal) x0 x1 x2 x3 j = layerArr a w d b i := by
  obtain ⟨v, p, h, rfl⟩ : ∃ (v : Fin 3) (p : Fin 256) (h : Fin 128), j = ix3 v p h := ⟨j 0, j 1, j 2, eq_ix3 j⟩
  obtain ⟨v', r, h', rfl⟩ : ∃ (v' : Fin 3) (r : Fin 8192) (h' : Fin 128), i = ix3 v' r h' := ⟨i 0, i 1, i 2, eq_ix3 i⟩
  obtain rfl : v' = v := Fin.ext hi0
  obtain rfl : h' = h := Fin.ext hi2
  have hr : r.val = n * 256 + p.val := hi1
  refine (pay1_apply x0 x1 x2 x3 v' p h').trans ?_
  show _ = max ((∑ k : Fin 8192, a (ix3 v' r k) * w (ix3 v' k h')) * d (ix3 v' r (0 : Fin 1)) + b (ix3 v' (0 : Fin 1) h')) 0
  rw [h2 v' p r hr, h3 v' h']
  refine congrArg (fun s => max (s * d (ix3 v' r (0 : Fin 1)) + b (ix3 v' (0 : Fin 1) h')) 0) (Finset.sum_congr rfl fun k _ => ?_)
  rw [h0 v' p k r hr, h1 v' k h']

/-- The same for region 2's stored value, which is the same term. -/
theorem block_value2 (x0 : FVec Ideal S3x256x8192 .bf16) (x1 : FVec Ideal S3x8192x128 .bf16) (x2 : FVec Ideal S3x256x1 .f32)
    (x3 : FVec Ideal S3x1x128 .f32)
    (a : SAdj.Idx → EReal) (w : SFeat.Idx → EReal) (d : SCol.Idx → EReal) (b : SRow.Idx → EReal) (n : Nat)
    (h0 : ∀ (v : Fin 3) (p : Fin 256) (k : Fin 8192) (r : Fin 8192), r.val = n * 256 + p.val → x0 (ix3 v p k) = a (ix3 v r k))
    (h1 : ∀ (v : Fin 3) (k : Fin 8192) (h : Fin 128), x1 (ix3 v k h) = w (ix3 v k h))
    (h2 : ∀ (v : Fin 3) (p : Fin 256) (r : Fin 8192), r.val = n * 256 + p.val → x2 (ix3 v p (0 : Fin 1)) = d (ix3 v r (0 : Fin 1)))
    (h3 : ∀ (v : Fin 3) (h : Fin 128), x3 (ix3 v (0 : Fin 1) h) = b (ix3 v (0 : Fin 1) h))
    (j : S3x256x128.Idx) (i : SFeat.Idx) (hi0 : (i 0).val = (j 0).val) (hi1 : (i 1).val = n * 256 + (j 1).val)
    (hi2 : (i 2).val = (j 2).val) :
    k2_pay1 (F := Ideal) x0 x1 x2 x3 j = layerArr a w d b i :=
  block_value x0 x1 x2 x3 a w d b n h0 h1 h2 h3 j i hi0 hi1 hi2

end Cert.KernelIdeal.LayerValue

end
-- ==== Proof.LayerRegion1.lean ====
/-
  Region 1 (the first layer) block by block.

  The grid has 32 points; point `t` stages rows `256 t … 256 t + 255` of the adjacency and of the column, the whole
  operand and the whole bias row, and writes back rows `256 t … 256 t + 255` of the result.  So what point `t` writes
  back is block `t` of the layer of the arrays as the region finds them, and the 32 blocks cover the result array.
-/
import proofs.«148398_j29910152249795_1_alg».proof.Proof.Gen.KernelIdeal.Frame
import proofs.«148398_j29910152249795_1_alg».proof.Proof.LayerPayload

noncomputable section

open scoped BigOperators
open Idealize.ShloMosaic Idealize.ShloMosaic.TcCoe Idealize.SL.Sem Idealize.ShloMosaic.ValueIdx

namespace Cert.KernelIdeal.LayerValue

open Cert.KernelIdeal Cert.KernelIdeal.Gen Cert.Gcn

variable (V : (c : Dev nD) → (b : Ref sig .tc) → Buf (Elt Ideal) ((c : Thread nD τ).loc b))

/-- The block indices of region 1's five windows at point `t`, decided over the 32 points: the adjacency, column and
    output blocks are row block `t`; the operand and the bias row are whole. -/
theorem idx_facts1 : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = 0 ∧ win1_3.index t (2 : Fin 3) = 0
    ∧ win1_4.index t (0 : Fin 3) = 0 ∧ win1_4.index t (1 : Fin 3) = t.val ∧ win1_4.index t (2 : Fin 3) = 0 :=
  (by decide +kernel : ∀ t : Fin grid1.N, _)

/-! ## Region 1: each input block read where the output block's rows say -/

/-- The adjacency block at point `t` is rows `256 t … 256 t + 255` of the array. -/
theorem read1_0 (c : Dev nD) (t : Fin cfg1.N) (v : Fin 3) (p : Fin 256) (k : Fin 8192) (r : Fin 8192)
    (hr : r.val = t.val * 256 + p.val) :
    (iblk1 V c 0 t : Vec Ideal S3x256x8192 .bf16) (ix3 v p k) = (V c main_v0_0 : SAdj.Idx → EReal) (ix3 v r k) := by
  obtain ⟨e0, e1, e2, -⟩ := idx_facts1 t
  unfold iblk1
  rw [View.read_apply]
  show V c main_v0_0 (((cfg1.win 0).blk t).view.emb (ix3 v p k)) = V c main_v0_0 (ix3 v r k)
  refine congrArg _ (funext fun a => Fin.ext ?_)
  match a with
  | ⟨0, _⟩ => show win1_0.index t (0 : Fin 3) * 3 + 1 * v.val = v.val; omega
  | ⟨1, _⟩ => show win1_0.index t (1 : Fin 3) * 256 + 1 * p.val = r.val; omega
  | ⟨2, _⟩ => show win1_0.index t (2 : Fin 3) * 8192 + 1 * k.val = k.val; omega

/-- The operand block is the whole operand at every point. -/
theorem read1_1 (c : Dev nD) (t : Fin cfg1.N) (v : Fin 3) (k : Fin 8192) (h : Fin 128) :
    (iblk1 V c 1 t : Vec Ideal S3x8192x128 .bf16) (ix3 v k h) = (V c main_v4 : SFeat.Idx → EReal) (ix3 v k h) := by
  obtain ⟨-, -, -, e0, e1, e2, -⟩ := idx_facts1 t
  unfold iblk1
  rw [View.read_apply]
  show V c main_v4 (((cfg1.win 1).blk t).view.emb (ix3 v k h)) = V c main_v4 (ix3 v k h)
  refine congrArg _ (funext fun a => Fin.ext ?_)
  match a with
  | ⟨0, _⟩ => show win1_1.index t (0 : Fin 3) * 3 + 1 * v.val = v.val; omega
  | ⟨1, _⟩ => show win1_1.index t (1 : Fin 3) * 8192 + 1 * k.val = k.val; omega
  | ⟨2, _⟩ => show win1_1.index t (2 : Fin 3) * 128 + 1 * h.val = h.val; omega

/-- The column block at point `t` is rows `256 t … 256 t + 255` of the column. -/
theorem read1_2 (c : Dev nD) (t : Fin cfg1.N) (v : Fin 3) (p : Fin 256) (r : Fin 8192) (hr : r.val = t.val * 256 + p.val) :
    (iblk1 V c 2 t : Vec Ideal S3x256x1 .f32) (ix3 v p (0 : Fin 1)) = (V c main_v1 : SCol.Idx → EReal) (ix3 v r (0 : Fin 1)) := by
  obtain ⟨-, -, -, -, -, -, e0, e1, e2, -⟩ := idx_facts1 t
  unfold iblk1
  rw [View.read_apply]
  show V c main_v1 (((cfg1.win 2).blk t).view.emb (ix3 v p (0 : Fin 1))) = V c main_v1 (ix3 v r (0 : Fin 1))
  refine congrArg _ (funext fun a => Fin.ext ?_)
  match a with
  | ⟨0, _⟩ => show win1_2.index t (0 : Fin 3) * 3 + 1 * v.val = v.val; omega
  | ⟨1, _⟩ => show win1_2.index t (1 : Fin 3) * 256 + 1 * p.val = r.val; omega
  | ⟨2, _⟩ => show win1_2.index t (2 : Fin 3) * 1 + 1 * 0 = 0; omega

/-- The bias row's block is the whole row at every point. -/
theorem read1_3 (c : Dev nD) (t : Fin cfg1.N) (v : Fin 3) (h : Fin 128) :
    (iblk1 V c 3 t : Vec Ideal S3x1x128 .f32) (ix3 v (0 : Fin 1) h) = (V c main_v5 : SRow.Idx → EReal) (ix3 v (0 : Fin 1) h) := by
  obtain ⟨-, -, -, -, -, -, -, -, -, e0, e1, e2, -⟩ := idx_facts1 t
  unfold iblk1
  rw [View.read_apply]
  show V c main_v5 (((cfg1.win 3).blk t).view.emb (ix3 v (0 : Fin 1) h)) = V c main_v5 (ix3 v (0 : Fin 1) h)
  refine congrArg _ (funext fun a => Fin.ext ?_)
  match a with
  | ⟨0, _⟩ => show win1_3.index t (0 : Fin 3) * 3 + 1 * v.val = v.val; omega
  | ⟨1, _⟩ => show win1_3.index t (1 : Fin 3) * 1 + 1 * 0 = 0; omega
  | ⟨2, _⟩ => show win1_3.index t (2 : Fin 3) * 128 + 1 * h.val = h.val; omega

/-- WHAT POINT `t` WRITES BACK is block `t` of the layer of the arrays as the region finds them. -/
theorem flushed1_eq (c : Dev nD) (t : Fin cfg1.N) :
    (dat1 (F := Ideal) V c).flushed 4 t = ((cfg1.win 4).blk t).view.read (Elt Ideal)
      (layerArr (V c main_v0_0) (V c main_v4) (V c main_v1) (V c main_v5)) := by
  show (cfg1.win 4).cut (grid1.coords t) ((dat1 V c).after 4 t) = _
  rw [after1_4]
  unfold out1_4
  rw [View.canon_unit_zero hz]
  simp only [View.ld_unit_zero (S := S3x256x8192) hz, View.ld_unit_zero (S := S3x8192x128) hz,
    View.ld_unit_zero (S := S3x256x1) hz, View.ld_unit_zero (S := S3x1x128) hz]
  obtain ⟨-, -, -, -, -, -, -, -, -, -, -, -, e0, e1, e2⟩ := idx_facts1 t
  funext j
  show k1_pay1 (F := Ideal) (iblk1 V c 0 t) (iblk1 V c 1 t) (iblk1 V c 2 t) (iblk1 V c 3 t) j
    = layerArr (V c main_v0_0) (V c main_v4) (V c main_v1) (V c main_v5) (((cfg1.win 4).blk t).view.emb j)
  refine block_value (iblk1 V c 0 t) (iblk1 V c 1 t) (iblk1 V c 2 t) (iblk1 V c 3 t)
    (V c main_v0_0) (V c main_v4) (V c main_v1) (V c main_v5) t.val
    (fun v p k r hr => read1_0 V c t v p k r hr) (fun v k h => read1_1 V c t v k h)
    (fun v p r hr => read1_2 V c t v p r hr) (fun v h => read1_3 V c t v h)
    j (((cfg1.win 4).blk t).view.emb j) ?_ ?_ ?_
  · show win1_4.index t (0 : Fin 3) * 3 + 1 * (j 0).val = (j 0).val; omega
  · show win1_4.index t (1 : Fin 3) * 256 + 1 * (j 1).val = t.val * 256 + (j 1).val; omega
  · show win1_4.index t (2 : Fin 3) * 128 + 1 * (j 2).val = (j 2).val; omega

/-- An index of the array is in point `t`'s block iff each coordinate is in the block's range on its axis. -/
theorem mem_blk1 (t : Fin cfg1.N) (i : SFeat.Idx) :
    i ∈ ((cfg1.win 4).blk t).view.set ↔ ∀ a : Fin 3, win1_4.index t a * S3x256x128.size a ≤ (i a).val
      ∧ (i a).val < win1_4.index t a * S3x256x128.size a + S3x256x128.size a := by
  show i ∈ ((View.whole main_v6).slice (win1_4.rect t)).set ↔ _
  rw [View.set_slice_whole, Rect.mem_set_unit]
  exact Iff.rfl

/-- Every index of the array is in some point's block: row `r` lies in the block of point `r / 256`. -/
theorem cover1 (i : SFeat.Idx) : ∃ t : Fin cfg1.N, (cfg1.win 4).flush t = true ∧ i ∈ ((cfg1.win 4).blk t).view.set := by
  have hN : grid1.N = 32 := N_1
  have hi0 : (i 0).val < 3 := (i 0).isLt
  have hi1 : (i 1).val < 8192 := (i 1).isLt
  have hi2 : (i 2).val < 128 := (i 2).isLt
  have hlt : (i 1).val / 256 < grid1.N := by rw [hN]; omega
  refine ⟨⟨(i 1).val / 256, hlt⟩, flush1_4 _, ?_⟩
  rw [mem_blk1]
  obtain ⟨-, -, -, -, -, -, -, -, -, -, -, -, e0, e1, e2⟩ := idx_facts1 ⟨(i 1).val / 256, hlt⟩
  have e1' : win1_4.index ⟨(i 1).val / 256, hlt⟩ (1 : Fin 3) = (i 1).val / 256 := e1
  intro a
  match a with
  | ⟨0, _⟩ =>
    show win1_4.index ⟨(i 1).val / 256, hlt⟩ (0 : Fin 3) * 3 ≤ (i 0).val
      ∧ (i 0).val < win1_4.index ⟨(i 1).val / 256, hlt⟩ (0 : Fin 3) * 3 + 3
    omega
  | ⟨1, _⟩ =>
    show win1_4.index ⟨(i 1).val / 256, hlt⟩ (1 : Fin 3) * 256 ≤ (i 1).val
      ∧ (i 1).val < win1_4.index ⟨(i 1).val / 256, hlt⟩ (1 : Fin 3) * 256 + 256
    omega
  | ⟨2, _⟩ =>
    show win1_4.index ⟨(i 1).val / 256, hlt⟩ (2 : Fin 3) * 128 ≤ (i 2).val
      ∧ (i 2).val < win1_4.index ⟨(i 1).val / 256, hlt⟩ (2 : Fin 3) * 128 + 128
    omega

end Cert.KernelIdeal.LayerValue

end
-- ==== Proof.LayerRegion2.lean ====
/-
  Region 2 (the second layer) block by block: the same schedule as the first layer on its own arrays.

  Point `t` of the 32 stages rows `256 t … 256 t + 255` of the adjacency and of the column, the whole operand and the
  whole bias row, and writes back rows `256 t … 256 t + 255` of the result: block `t` of the layer of the arrays as the
  region finds them; the 32 blocks cover the result array.
-/
import proofs.«148398_j29910152249795_1_alg».proof.Proof.Gen.KernelIdeal.Frame
import proofs.«148398_j29910152249795_1_alg».proof.Proof.LayerPayload

noncomputable section

open scoped BigOperators
open Idealize.ShloMosaic Idealize.ShloMosaic.TcCoe Idealize.SL.Sem Idealize.ShloMosaic.ValueIdx

namespace Cert.KernelIdeal.LayerValue

open Cert.KernelIdeal Cert.KernelIdeal.Gen Cert.Gcn

variable (V : (c : Dev nD) → (b : Ref sig .tc) → Buf (Elt Ideal) ((c : Thread nD τ).loc b))

/-- The block indices of region 2's five windows at point `t`, decided over the 32 points: the adjacency, column and
    output blocks are row block `t`; the operand and the bias row are whole. -/
theorem idx_facts2 : ∀ t : Fin cfg2.N,
    win2_0.index t (0 : Fin 3) = 0 ∧ win2_0.index t (1 : Fin 3) = t.val ∧ win2_0.index t (2 : Fin 3) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = t.val ∧ win2_2.index t (2 : Fin 3) = 0
    ∧ win2_3.index t (0 : Fin 3) = 0 ∧ win2_3.index t (1 : Fin 3) = 0 ∧ win2_3.index t (2 : Fin 3) = 0
    ∧ win2_4.index t (0 : Fin 3) = 0 ∧ win2_4.index t (1 : Fin 3) = t.val ∧ win2_4.index t (2 : Fin 3) = 0 :=
  (by decide +kernel : ∀ t : Fin grid2.N, _)

/-! ## Region 2: each input block read where the output block's rows say -/

/-- The adjacency block at point `t` is rows `256 t … 256 t + 255` of the array. -/
theorem read2_0 (c : Dev nD) (t : Fin cfg2.N) (v : Fin 3) (p : Fin 256) (k : Fin 8192) (r : Fin 8192)
    (hr : r.val = t.val * 256 + p.val) :
    (iblk2 V c 0 t : Vec Ideal S3x256x8192 .bf16) (ix3 v p k) = (V c main_v0_0 : SAdj.Idx → EReal) (ix3 v r k) := by
  obtain ⟨e0, e1, e2, -⟩ := idx_facts2 t
  unfold iblk2
  rw [View.read_apply]
  show V c main_v0_0 (((cfg2.win 0).blk t).view.emb (ix3 v p k)) = V c main_v0_0 (ix3 v r k)
  refine congrArg _ (funext fun a => Fin.ext ?_)
  match a with
  | ⟨0, _⟩ => show win2_0.index t (0 : Fin 3) * 3 + 1 * v.val = v.val; omega
  | ⟨1, _⟩ => show win2_0.index t (1 : Fin 3) * 256 + 1 * p.val = r.val; omega
  | ⟨2, _⟩ => show win2_0.index t (2 : Fin 3) * 8192 + 1 * k.val = k.val; omega

/-- The operand block is the whole operand at every point. -/
theorem read2_1 (c : Dev nD) (t : Fin cfg2.N) (v : Fin 3) (k : Fin 8192) (h : Fin 128) :
    (iblk2 V c 1 t : Vec Ideal S3x8192x128 .bf16) (ix3 v k h) = (V c main_v10 : SFeat.Idx → EReal) (ix3 v k h) := by
  obtain ⟨-, -, -, e0, e1, e2, -⟩ := idx_facts2 t
  unfold iblk2
  rw [View.read_apply]
  show V c main_v10 (((cfg2.win 1).blk t).view.emb (ix3 v k h)) = V c main_v10 (ix3 v k h)
  refine congrArg _ (funext fun a => Fin.ext ?_)
  match a with
  | ⟨0, _⟩ => show win2_1.index t (0 : Fin 3) * 3 + 1 * v.val = v.val; omega
  | ⟨1, _⟩ => show win2_1.index t (1 : Fin 3) * 8192 + 1 * k.val = k.val; omega
  | ⟨2, _⟩ => show win2_1.index t (2 : Fin 3) * 128 + 1 * h.val = h.val; omega

/-- The column block at point `t` is rows `256 t … 256 t + 255` of the column. -/
theorem read2_2 (c : Dev nD) (t : Fin cfg2.N) (v : Fin 3) (p : Fin 256) (r : Fin 8192) (hr : r.val = t.val * 256 + p.val) :
    (iblk2 V c 2 t : Vec Ideal S3x256x1 .f32) (ix3 v p (0 : Fin 1)) = (V c main_v1 : SCol.Idx → EReal) (ix3 v r (0 : Fin 1)) := by
  obtain ⟨-, -, -, -, -, -, e0, e1, e2, -⟩ := idx_facts2 t
  unfold iblk2
  rw [View.read_apply]
  show V c main_v1 (((cfg2.win 2).blk t).view.emb (ix3 v p (0 : Fin 1))) = V c main_v1 (ix3 v r (0 : Fin 1))
  refine congrArg _ (funext fun a => Fin.ext ?_)
  match a with
  | ⟨0, _⟩ => show win2_2.index t (0 : Fin 3) * 3 + 1 * v.val = v.val; omega
  | ⟨1, _⟩ => show win2_2.index t (1 : Fin 3) * 256 + 1 * p.val = r.val; omega
  | ⟨2, _⟩ => show win2_2.index t (2 : Fin 3) * 1 + 1 * 0 = 0; omega

/-- The bias row's block is the whole row at every point. -/
theorem read2_3 (c : Dev nD) (t : Fin cfg2.N) (v : Fin 3) (h : Fin 128) :
    (iblk2 V c 3 t : Vec Ideal S3x1x128 .f32) (ix3 v (0 : Fin 1) h) = (V c main_v11 : SRow.Idx → EReal) (ix3 v (0 : Fin 1) h) := by
  obtain ⟨-, -, -, -, -, -, -, -, -, e0, e1, e2, -⟩ := idx_facts2 t
  unfold iblk2
  rw [View.read_apply]
  show V c main_v11 (((cfg2.win 3).blk t).view.emb (ix3 v (0 : Fin 1) h)) = V c main_v11 (ix3 v (0 : Fin 1) h)
  refine congrArg _ (funext fun a => Fin.ext ?_)
  match a with
  | ⟨0, _⟩ => show win2_3.index t (0 : Fin 3) * 3 + 1 * v.val = v.val; omega
  | ⟨1, _⟩ => show win2_3.index t (1 : Fin 3) * 1 + 1 * 0 = 0; omega
  | ⟨2, _⟩ => show win2_3.index t (2 : Fin 3) * 128 + 1 * h.val = h.val; omega

/-- WHAT POINT `t` WRITES BACK is block `t` of the layer of the arrays as the region finds them. -/
theorem flushed2_eq (c : Dev nD) (t : Fin cfg2.N) :
    (dat2 (F := Ideal) V c).flushed 4 t = ((cfg2.win 4).blk t).view.read (Elt Ideal)
      (layerArr (V c main_v0_0) (V c main_v10) (V c main_v1) (V c main_v11)) := by
  show (cfg2.win 4).cut (grid2.coords t) ((dat2 V c).after 4 t) = _
  rw [after2_4]
  unfold out2_4
  rw [View.canon_unit_zero hz]
  simp only [View.ld_unit_zero (S := S3x256x8192) hz, View.ld_unit_zero (S := S3x8192x128) hz,
    View.ld_unit_zero (S := S3x256x1) hz, View.ld_unit_zero (S := S3x1x128) hz]
  obtain ⟨-, -, -, -, -, -, -, -, -, -, -, -, e0, e1, e2⟩ := idx_facts2 t
  funext j
  show k2_pay1 (F := Ideal) (iblk2 V c 0 t) (iblk2 V c 1 t) (iblk2 V c 2 t) (iblk2 V c 3 t) j
    = layerArr (V c main_v0_0) (V c main_v10) (V c main_v1) (V c main_v11) (((cfg2.win 4).blk t).view.emb j)
  refine block_value2 (iblk2 V c 0 t) (iblk2 V c 1 t) (iblk2 V c 2 t) (iblk2 V c 3 t)
    (V c main_v0_0) (V c main_v10) (V c main_v1) (V c main_v11) t.val
    (fun v p k r hr => read2_0 V c t v p k r hr) (fun v k h => read2_1 V c t v k h)
    (fun v p r hr => read2_2 V c t v p r hr) (fun v h => read2_3 V c t v h)
    j (((cfg2.win 4).blk t).view.emb j) ?_ ?_ ?_
  · show win2_4.index t (0 : Fin 3) * 3 + 1 * (j 0).val = (j 0).val; omega
  · show win2_4.index t (1 : Fin 3) * 256 + 1 * (j 1).val = t.val * 256 + (j 1).val; omega
  · show win2_4.index t (2 : Fin 3) * 128 + 1 * (j 2).val = (j 2).val; omega

/-- An index of the array is in point `t`'s block iff each coordinate is in the block's range on its axis. -/
theorem mem_blk2 (t : Fin cfg2.N) (i : SFeat.Idx) :
    i ∈ ((cfg2.win 4).blk t).view.set ↔ ∀ a : Fin 3, win2_4.index t a * S3x256x128.size a ≤ (i a).val
      ∧ (i a).val < win2_4.index t a * S3x256x128.size a + S3x256x128.size a := by
  show i ∈ ((View.whole main_v12).slice (win2_4.rect t)).set ↔ _
  rw [View.set_slice_whole, Rect.mem_set_unit]
  exact Iff.rfl

/-- Every index of the array is in some point's block: row `r` lies in the block of point `r / 256`. -/
theorem cover2 (i : SFeat.Idx) : ∃ t : Fin cfg2.N, (cfg2.win 4).flush t = true ∧ i ∈ ((cfg2.win 4).blk t).view.set := by
  have hN : grid2.N = 32 := N_2
  have hi0 : (i 0).val < 3 := (i 0).isLt
  have hi1 : (i 1).val < 8192 := (i 1).isLt
  have hi2 : (i 2).val < 128 := (i 2).isLt
  have hlt : (i 1).val / 256 < grid2.N := by rw [hN]; omega
  refine ⟨⟨(i 1).val / 256, hlt⟩, flush2_4 _, ?_⟩
  rw [mem_blk2]
  obtain ⟨-, -, -, -, -, -, -, -, -, -, -, -, e0, e1, e2⟩ := idx_facts2 ⟨(i 1).val / 256, hlt⟩
  have e1' : win2_4.index ⟨(i 1).val / 256, hlt⟩ (1 : Fin 3) = (i 1).val / 256 := e1
  intro a
  match a with
  | ⟨0, _⟩ =>
    show win2_4.index ⟨(i 1).val / 256, hlt⟩ (0 : Fin 3) * 3 ≤ (i 0).val
      ∧ (i 0).val < win2_4.index ⟨(i 1).val / 256, hlt⟩ (0 : Fin 3) * 3 + 3
    omega
  | ⟨1, _⟩ =>
    show win2_4.index ⟨(i 1).val / 256, hlt⟩ (1 : Fin 3) * 256 ≤ (i 1).val
      ∧ (i 1).val < win2_4.index ⟨(i 1).val / 256, hlt⟩ (1 : Fin 3) * 256 + 256
    omega
  | ⟨2, _⟩ =>
    show win2_4.index ⟨(i 1).val / 256, hlt⟩ (2 : Fin 3) * 128 ≤ (i 2).val
      ∧ (i 2).val < win2_4.index ⟨(i 1).val / 256, hlt⟩ (2 : Fin 3) * 128 + 128
    omega

end Cert.KernelIdeal.LayerValue

end
-- ==== Proof.LayerValue.lean ====
/-
  The two layer regions' result arrays.

  Each layer region's 32 write-backs are the 32 row blocks of one whole-array function, the layer `layerArr` of the
  four arrays the region stages (adjacency, operand, column, bias row) as it finds them; the blocks cover the result
  array, so after the region the array is that function.
-/
import proofs.«148398_j29910152249795_1_alg».proof.Proof.LayerRegion1
import proofs.«148398_j29910152249795_1_alg».proof.Proof.LayerRegion2

noncomputable section

open scoped BigOperators
open Idealize.ShloMosaic Idealize.ShloMosaic.TcCoe Idealize.SL.Sem Idealize.ShloMosaic.ValueIdx

namespace Cert.KernelIdeal.LayerValue

open Cert.KernelIdeal Cert.KernelIdeal.Gen Cert.Gcn

variable (V : (c : Dev nD) → (b : Ref sig .tc) → Buf (Elt Ideal) ((c : Thread nD τ).loc b))

/-- THE ARRAY after region 1: the layer of the arrays as the region finds them. -/
theorem layer1_final (c : Dev nD) :
    (dat1 (F := Ideal) V c).arrAt 4 cfg1.N = layerArr (V c main_v0_0) (V c main_v4) (V c main_v1) (V c main_v5) :=
  (dat1 (F := Ideal) V c).arrAt_eq_of_cover 4 (layerArr (V c main_v0_0) (V c main_v4) (V c main_v1) (V c main_v5))
    (fun t _ => flushed1_eq V c t) cover1

/-- THE ARRAY after region 2: the layer of the arrays as the region finds them. -/
theorem layer2_final (c : Dev nD) :
    (dat2 (F := Ideal) V c).arrAt 4 cfg2.N = layerArr (V c main_v0_0) (V c main_v10) (V c main_v1) (V c main_v11) :=
  (dat2 (F := Ideal) V c).arrAt_eq_of_cover 4 (layerArr (V c main_v0_0) (V c main_v10) (V c main_v1) (V c main_v11))
    (fun t _ => flushed2_eq V c t) cover2

end Cert.KernelIdeal.LayerValue

end
-- ==== Proof.KernelRun.lean ====
/-
  The idealized kernel's run with its buffers NAMED.  The program is three kernel regions among stretches of host
  operations; the buffer contents at each boundary are a fold from the launch memory (`Gen.W1` … `Gen.W8`).  Every
  weakly fair execution terminates and every buffer that outlives the regions ends at the last boundary's contents
  `Gen.W8`: in particular the three results, and the arguments as launched.
-/
import proofs.«148398_j29910152249795_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer the thread state holds at the end is
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The three results at the last boundary's contents, the arguments as launched. -/
theorem run_named : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_v35) = W8 m ρ c (Proc.devRef .tc main_v35)
      ∧ r.2.mem ((c.tc : Thread nD τ).loc main_v12) = W8 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨h c _ (mem_uc main_v49 (by decide)),
       h c _ (mem_uc main_v35 (by decide)),
       h c _ (mem_uc main_v12 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)
    (run_all m ρ)

end Cert.KernelIdeal.RunValue

end
-- ==== Proof.HostGlue.lean ====
/-
  The host operations of the idealized kernel between and after its three regions, read as functions of the buffer
  contents they start from (any contents `W`).

  Between regions 0 and 1: the degree column is turned into `dinv = rsqrt deg`, the first weight is scaled row by
  row by it and the first bias is laid out as a row.  Between regions 1 and 2: the first layer's output is
  multiplied by the second weight, scaled by `dinv` again, and the second bias laid out.  After region 2: the
  attention weights of the three views (`attn`: mean over the nodes, a small tanh network, a softmax over the
  views) and the fused output (`fused`: the views weighted, concatenated per node, a two-layer perceptron) — the
  same operations the reference applies to its own node embeddings, carried here as two opaque functions.
-/
import proofs.«148398_j29910152249795_1_alg».proof.Proof.Gen.KernelIdeal.Launch
import Idealize.ShloMosaic.Lib.StableHlo.Run

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F]

/-! ## The tail as two functions of the node embeddings -/

/-- The attention weights of the three views from the node embeddings `h`: the mean over the 8192 nodes, a dense
    layer with tanh, a dense layer to one score per view, and a softmax over the three scores (the maximum
    subtracted first). -/
def attn (h : FVec F S3x8192x128 .f32) (a5 : FVec F S128x64 .f32) (a6 : FVec F S64 .f32) (a7 : FVec F S64x1 .f32)
    (a8 : FVec F S1 .f32) : FVec F S3 .f32 :=
  let s : FVec F S3x128 .f32 := Host.divf (Host.reduceAdd h (constant S_ .f32 0x00000000#32) reducesTo_S3x8192x128_S3x128_d1 h_S_)
    (broadcastInDim S3x128 ![] bcast_S_S3x128 (constant S_ .f32 0x46000000#32))
  let t : FVec F S3x64 .f32 := Host.tanh (addf (Host.dotGeneral dot_S3x128_S128x64_S3x64_1_0_0_1_n_n none s a5)
    (broadcastInDim S3x64 ![0, 1] bcast_S1x64_S3x64_0_1 (broadcastInDim S1x64 ![1] bcast_S64_S1x64_1 a6)))
  let sc : FVec F S3 .f32 := shapeCast S3 (addf (Host.dotGeneral dot_S3x64_S64x1_S3x1_1_0_0_1_n_n none t a7)
    (broadcastInDim S3x1 ![0, 1] bcast_S1x1_S3x1_0_1 (broadcastInDim S1x1 ![1] bcast_S1_S1x1_1 a8))) shapeCasts_S3x1_S3
  let mx : FVec F S_ .f32 := maximumf (constant S_ .f32 0xFF800000#32)
    (Host.reduce FloatOps.maximumf sc (constant S_ .f32 0xFF800000#32) reducesTo_S3_S_d0 h_S_)
  let e : FVec F S3 .f32 := Host.exp (subf sc (broadcastInDim S3 ![0] bcast_S1_S3_0 (broadcastInDim S1 ![] bcast_S_S1 mx)))
  Host.divf e (broadcastInDim S3 ![0] bcast_S1_S3_0 (broadcastInDim S1 ![] bcast_S_S1
    (Host.reduceAdd e (constant S_ .f32 0x00000000#32) reducesTo_S3_S_d0 h_S_)))

/-- The hidden layer of the fusion perceptron before its rectifier: the embeddings weighted view by view by `w`,
    the three views of a node laid side by side, times the first fusion weight, plus its bias. -/
def fuseHidden (h : FVec F S3x8192x128 .f32) (w : FVec F S3 .f32) (a9 : FVec F S384x256 .f32) (a10 : FVec F S256 .f32) :
    FVec F S8192x256 .f32 :=
  addf (Host.dotGeneral dot_S8192x384_S384x256_S8192x256_1_0_0_1_n_n none
      (shapeCast S8192x384 (transpose S8192x3x128 [1, 0, 2]
        (mulf h (broadcastInDim S3x8192x128 ![0, 1, 2] bcast_S3x1x1_S3x8192x128_0_1_2 (broadcastInDim S3x1x1 ![0] bcast_S3_S3x1x1_0 w)))
        transposes_S3x8192x128_S8192x3x128_1_0_2) shapeCasts_S8192x3x128_S8192x384) a9)
    (broadcastInDim S8192x256 ![0, 1] bcast_S1x256_S8192x256_0_1 (broadcastInDim S1x256 ![1] bcast_S256_S1x256_1 a10))

/-- The fused output from the rectified hidden layer: times the second fusion weight, plus its bias. -/
def fuseOut (r : FVec F S8192x256 .f32) (a11 : FVec F S256x128 .f32) (a12 : FVec F S128 .f32) : FVec F S8192x128 .f32 :=
  addf (Host.dotGeneral dot_S8192x256_S256x128_S8192x128_1_0_0_1_n_n none r a11)
    (broadcastInDim S8192x128 ![0, 1] bcast_S1x128_S8192x128_0_1 (broadcastInDim S1x128 ![1] bcast_S128_S1x128_1 a12))

/-- The rectifier as the host spells it: the maximum with a broadcast zero. -/
def relu256 (x : FVec F S8192x256 .f32) : FVec F S8192x256 .f32 :=
  maximumf x (broadcastInDim S8192x256 ![] bcast_S_S8192x256 (constant S_ .f32 0x00000000#32))

/-- The fused output as one function of the node embeddings. -/
def fused (h : FVec F S3x8192x128 .f32) (a5 : FVec F S128x64 .f32) (a6 : FVec F S64 .f32) (a7 : FVec F S64x1 .f32)
    (a8 : FVec F S1 .f32) (a9 : FVec F S384x256 .f32) (a10 : FVec F S256 .f32) (a11 : FVec F S256x128 .f32)
    (a12 : FVec F S128 .f32) : FVec F S8192x128 .f32 :=
  fuseOut (relu256 (fuseHidden h (attn h a5 a6 a7 a8) a9 a10)) a11 a12

variable (W : Valuation τ sig (Elt F))

/-! ## Between regions 0 and 1 -/

theorem ops1_v1 : StableHlo.after (hostOps1 (F := F)) W (Proc.devRef .tc main_v1) = Host.rsqrt (W (Proc.devRef .tc main_v0_1)) := by
  after_results
theorem ops1_v4 : StableHlo.after (hostOps1 (F := F)) W (Proc.devRef .tc main_v4)
    = truncf .bf16 (mulf (broadcastInDim S3x8192x128 ![0, 1, 2] bcast_S3x8192x1_S3x8192x128_0_1_2
        (Host.rsqrt (W (Proc.devRef .tc main_v0_1)))) (W (Proc.devRef .tc main_arg1))) bitsLt_bf16_f32 := by
  after_results
theorem ops1_v5 : StableHlo.after (hostOps1 (F := F)) W (Proc.devRef .tc main_v5)
    = broadcastInDim S3x1x128 ![0, 2] bcast_S3x128_S3x1x128_0_2 (W (Proc.devRef .tc main_arg2)) := by
  after_results
theorem ops1_v0_0 : StableHlo.after (hostOps1 (F := F)) W (Proc.devRef .tc main_v0_0) = W (Proc.devRef .tc main_v0_0) := by
  after_results

/-! ## Between regions 1 and 2 -/

theorem ops2_v10 : StableHlo.after (hostOps2 (F := F)) W (Proc.devRef .tc main_v10)
    = truncf .bf16 (mulf (broadcastInDim S3x8192x128 ![0, 1, 2] bcast_S3x8192x1_S3x8192x128_0_1_2 (W (Proc.devRef .tc main_v1)))
        (Host.dotGeneral dot_S3x8192x128_S3x128x128_S3x8192x128_2_1_1_2_0_0 none (W (Proc.devRef .tc main_v6)) (W (Proc.devRef .tc main_arg3))))
        bitsLt_bf16_f32 := by
  after_results
theorem ops2_v11 : StableHlo.after (hostOps2 (F := F)) W (Proc.devRef .tc main_v11)
    = broadcastInDim S3x1x128 ![0, 2] bcast_S3x128_S3x1x128_0_2 (W (Proc.devRef .tc main_arg4)) := by
  after_results
theorem ops2_v1 : StableHlo.after (hostOps2 (F := F)) W (Proc.devRef .tc main_v1) = W (Proc.devRef .tc main_v1) := by
  after_results
theorem ops2_v0_0 : StableHlo.after (hostOps2 (F := F)) W (Proc.devRef .tc main_v0_0) = W (Proc.devRef .tc main_v0_0) := by
  after_results

end Cert.KernelIdeal.HostGlue

end
-- ==== Proof.HostTail.lean ====
/-
  The host operations after the third region, read from any buffer contents `W`: the attention weights and the
  fused output are the two functions `attn` and `fused` of the node embeddings (buffer main_v12) and of the
  arguments; the node embeddings themselves are not touched.
-/
import proofs.«148398_j29910152249795_1_alg».proof.Proof.HostGlue

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-! ## The first stretch: up to the hidden layer of the fusion perceptron -/

set_option maxRecDepth 8192 in
theorem ops3_v35 : StableHlo.after (hostOps3 (F := F)) W (Proc.devRef .tc main_v35)
    = attn (W (Proc.devRef .tc main_v12)) (W (Proc.devRef .tc main_arg5)) (W (Proc.devRef .tc main_arg6))
        (W (Proc.devRef .tc main_arg7)) (W (Proc.devRef .tc main_arg8)) := by
  after_results_simp <;> rfl
set_option maxRecDepth 8192 in
theorem ops3_v44 : StableHlo.after (hostOps3 (F := F)) W (Proc.devRef .tc main_v44)
    = fuseHidden (W (Proc.devRef .tc main_v12))
        (attn (W (Proc.devRef .tc main_v12)) (W (Proc.devRef .tc main_arg5)) (W (Proc.devRef .tc main_arg6))
          (W (Proc.devRef .tc main_arg7)) (W (Proc.devRef .tc main_arg8)))
        (W (Proc.devRef .tc main_arg9)) (W (Proc.devRef .tc main_arg10)) := by
  after_results_simp <;> rfl
set_option maxRecDepth 8192 in
theorem ops3_v12 : StableHlo.after (hostOps3 (F := F)) W (Proc.devRef .tc main_v12) = W (Proc.devRef .tc main_v12) := by
  after_results_simp <;> rfl
set_option maxRecDepth 8192 in
theorem ops3_arg11 : StableHlo.after (hostOps3 (F := F)) W (Proc.devRef .tc main_arg11) = W (Proc.devRef .tc main_arg11) := by
  after_results_simp <;> rfl
set_option maxRecDepth 8192 in
theorem ops3_arg12 : StableHlo.after (hostOps3 (F := F)) W (Proc.devRef .tc main_arg12) = W (Proc.devRef .tc main_arg12) := by
  after_results_simp <;> rfl

/-! ## The rectifier -/

theorem ops31_v45 : StableHlo.after (hostOps3_1 (F := F)) W (Proc.devRef .tc main_v45) = relu256 (W (Proc.devRef .tc main_v44)) := by
  after_results_simp <;> rfl
theorem ops31_v35 : StableHlo.after (hostOps3_1 (F := F)) W (Proc.devRef .tc main_v35) = W (Proc.devRef .tc main_v35) := by
  after_results_simp <;> rfl
theorem ops31_v12 : StableHlo.after (hostOps3_1 (F := F)) W (Proc.devRef .tc main_v12) = W (Proc.devRef .tc main_v12) := by
  after_results_simp <;> rfl
theorem ops31_arg11 : StableHlo.after (hostOps3_1 (F := F)) W (Proc.devRef .tc main_arg11) = W (Proc.devRef .tc main_arg11) := by
  after_results_simp <;> rfl
theorem ops31_arg12 : StableHlo.after (hostOps3_1 (F := F)) W (Proc.devRef .tc main_arg12) = W (Proc.devRef .tc main_arg12) := by
  after_results_simp <;> rfl

/-! ## The output layer -/

theorem ops32_v49 : StableHlo.after (hostOps3_2 (F := F)) W (Proc.devRef .tc main_v49)
    = fuseOut (W (Proc.devRef .tc main_v45)) (W (Proc.devRef .tc main_arg11)) (W (Proc.devRef .tc main_arg12)) := by
  after_results_simp <;> rfl
theorem ops32_v35 : StableHlo.after (hostOps3_2 (F := F)) W (Proc.devRef .tc main_v35) = W (Proc.devRef .tc main_v35) := by
  after_results_simp <;> rfl
theorem ops32_v12 : StableHlo.after (hostOps3_2 (F := F)) W (Proc.devRef .tc main_v12) = W (Proc.devRef .tc main_v12) := by
  after_results_simp <;> rfl

/-! ## The three stretches in a row -/

/-- The node embeddings pass through the tail unchanged. -/
theorem tail_v12 : StableHlo.after (hostOps3_2 (F := F)) (StableHlo.after (hostOps3_1 (F := F)) (StableHlo.after (hostOps3 (F := F)) W))
    (Proc.devRef .tc main_v12) = W (Proc.devRef .tc main_v12) := by
  rw [ops32_v12, ops31_v12, ops3_v12]

/-- The attention weights after the tail. -/
theorem tail_v35 : StableHlo.after (hostOps3_2 (F := F)) (StableHlo.after (hostOps3_1 (F := F)) (StableHlo.after (hostOps3 (F := F)) W))
    (Proc.devRef .tc main_v35)
    = attn (W (Proc.devRef .tc main_v12)) (W (Proc.devRef .tc main_arg5)) (W (Proc.devRef .tc main_arg6))
        (W (Proc.devRef .tc main_arg7)) (W (Proc.devRef .tc main_arg8)) := by
  rw [ops32_v35, ops31_v35, ops3_v35]

/-- The fused output after the tail. -/
theorem tail_v49 : StableHlo.after (hostOps3_2 (F := F)) (StableHlo.after (hostOps3_1 (F := F)) (StableHlo.after (hostOps3 (F := F)) W))
    (Proc.devRef .tc main_v49)
    = fused (W (Proc.devRef .tc main_v12)) (W (Proc.devRef .tc main_arg5)) (W (Proc.devRef .tc main_arg6))
        (W (Proc.devRef .tc main_arg7)) (W (Proc.devRef .tc main_arg8)) (W (Proc.devRef .tc main_arg9))
        (W (Proc.devRef .tc main_arg10)) (W (Proc.devRef .tc main_arg11)) (W (Proc.devRef .tc main_arg12)) := by
  rw [ops32_v49, ops31_v45, ops31_arg11, ops31_arg12, ops3_v44, ops3_arg11, ops3_arg12]
  rfl

end Cert.KernelIdeal.HostGlue

end
-- ==== Proof.HostKeep.lean ====
/-
  The host operations between the regions leave the arguments' buffers as they were (none of them writes an
  argument), read from any buffer contents `W`.
-/
import proofs.«148398_j29910152249795_1_alg».proof.Proof.HostGlue

noncomputable section

namespace Cert.KernelIdeal.HostGlue

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-! ## Between regions 0 and 1 -/

theorem ops1_arg1 : StableHlo.after (hostOps1 (F := F)) W (Proc.devRef .tc main_arg1) = W (Proc.devRef .tc main_arg1) := by
  after_results
theorem ops1_arg2 : StableHlo.after (hostOps1 (F := F)) W (Proc.devRef .tc main_arg2) = W (Proc.devRef .tc main_arg2) := by
  after_results
theorem ops1_arg3 : StableHlo.after (hostOps1 (F := F)) W (Proc.devRef .tc main_arg3) = W (Proc.devRef .tc main_arg3) := by
  after_results
theorem ops1_arg4 : StableHlo.after (hostOps1 (F := F)) W (Proc.devRef .tc main_arg4) = W (Proc.devRef .tc main_arg4) := by
  after_results
theorem ops1_arg5 : StableHlo.after (hostOps1 (F := F)) W (Proc.devRef .tc main_arg5) = W (Proc.devRef .tc main_arg5) := by
  after_results
theorem ops1_arg6 : StableHlo.after (hostOps1 (F := F)) W (Proc.devRef .tc main_arg6) = W (Proc.devRef .tc main_arg6) := by
  after_results
theorem ops1_arg7 : StableHlo.after (hostOps1 (F := F)) W (Proc.devRef .tc main_arg7) = W (Proc.devRef .tc main_arg7) := by
  after_results
theorem ops1_arg8 : StableHlo.after (hostOps1 (F := F)) W (Proc.devRef .tc main_arg8) = W (Proc.devRef .tc main_arg8) := by
  after_results
theorem ops1_arg9 : StableHlo.after (hostOps1 (F := F)) W (Proc.devRef .tc main_arg9) = W (Proc.devRef .tc main_arg9) := by
  after_results
theorem ops1_arg10 : StableHlo.after (hostOps1 (F := F)) W (Proc.devRef .tc main_arg10) = W (Proc.devRef .tc main_arg10) := by
  after_results
theorem ops1_arg11 : StableHlo.after (hostOps1 (F := F)) W (Proc.devRef .tc main_arg11) = W (Proc.devRef .tc main_arg11) := by
  after_results
theorem ops1_arg12 : StableHlo.after (hostOps1 (F := F)) W (Proc.devRef .tc main_arg12) = W (Proc.devRef .tc main_arg12) := by
  after_results

/-! ## Between regions 1 and 2 -/

theorem ops2_arg3 : StableHlo.after (hostOps2 (F := F)) W (Proc.devRef .tc main_arg3) = W (Proc.devRef .tc main_arg3) := by
  after_results
theorem ops2_arg4 : StableHlo.after (hostOps2 (F := F)) W (Proc.devRef .tc main_arg4) = W (Proc.devRef .tc main_arg4) := by
  after_results
theorem ops2_arg5 : StableHlo.after (hostOps2 (F := F)) W (Proc.devRef .tc main_arg5) = W (Proc.devRef .tc main_arg5) := by
  after_results
theorem ops2_arg6 : StableHlo.after (hostOps2 (F := F)) W (Proc.devRef .tc main_arg6) = W (Proc.devRef .tc main_arg6) := by
  after_results
theorem ops2_arg7 : StableHlo.after (hostOps2 (F := F)) W (Proc.devRef .tc main_arg7) = W (Proc.devRef .tc main_arg7) := by
  after_results
theorem ops2_arg8 : StableHlo.after (hostOps2 (F := F)) W (Proc.devRef .tc main_arg8) = W (Proc.devRef .tc main_arg8) := by
  after_results
theorem ops2_arg9 : StableHlo.after (hostOps2 (F := F)) W (Proc.devRef .tc main_arg9) = W (Proc.devRef .tc main_arg9) := by
  after_results
theorem ops2_arg10 : StableHlo.after (hostOps2 (F := F)) W (Proc.devRef .tc main_arg10) = W (Proc.devRef .tc main_arg10) := by
  after_results
theorem ops2_arg11 : StableHlo.after (hostOps2 (F := F)) W (Proc.devRef .tc main_arg11) = W (Proc.devRef .tc main_arg11) := by
  after_results
theorem ops2_arg12 : StableHlo.after (hostOps2 (F := F)) W (Proc.devRef .tc main_arg12) = W (Proc.devRef .tc main_arg12) := by
  after_results

end Cert.KernelIdeal.HostGlue

end
-- ==== Proof.KernelGlue.lean ====
/-
  The kernel's host operations between its regions, read entry by entry over the extended reals, and a layer on
  the arrays they produce as Spec's `layerK`.

  Entry (v,m,h) of the scaled operand is `dinv v m · X(v,m,h)` (a column [3,8192,1] spread along the last axis, a
  product, a change of float format that is the identity here); entry (v,0,h) of a bias row is the bias at (v,h);
  entry (v,n,k) of the batched product with the second weight is `Σ_h L(v,n,h)·R(v,h,k)`.
-/
import proofs.«148398_j29910152249795_1_alg».proof.KernelIdeal
import proofs.«148398_j29910152249795_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Glue

open Cert.KernelIdeal Cert.Gcn
open Idealize.ShloMosaic Idealize.ShloMosaic.ValueIdx

variable [Facts]

/-- A column [3,8192,1] spread along the last axis, read at (v,n,h): the column's entry (v,n,0). -/
theorem bcast_col_apply (hb : S3x8192x1.BroadcastsInDim S3x8192x128 ![0, 1, 2]) (x : S3x8192x1.Idx → EReal)
    (v : Fin 3) (n : Fin 8192) (h : Fin 128) :
    broadcastInDim S3x8192x128 ![0, 1, 2] hb x (ix3 v n h) = x (ix3 v n (0 : Fin 1)) :=
  broadcastInDim_apply _ hb x (ix3 v n h) (ix3 v n (0 : Fin 1)) (fun a => match a with
    | ⟨0, _⟩ => by show v.val = if (3 : Nat) = 1 then 0 else v.val; rw [if_neg (by decide)]
    | ⟨1, _⟩ => by show n.val = if (8192 : Nat) = 1 then 0 else n.val; rw [if_neg (by decide)]
    | ⟨2, _⟩ => by show 0 = if (1 : Nat) = 1 then 0 else h.val; rw [if_pos rfl])

/-- A bias [3,128] laid out as a row [3,1,128], read at (v,0,h): the bias at (v,h). -/
theorem bcast_bias_apply (hb : S3x128.BroadcastsInDim S3x1x128 ![0, 2]) (x : S3x128.Idx → EReal) (v : Fin 3) (h : Fin 128) :
    broadcastInDim S3x1x128 ![0, 2] hb x (ix3 v (0 : Fin 1) h) = x (ix2 v h) :=
  broadcastInDim_apply _ hb x (ix3 v (0 : Fin 1) h) (ix2 v h) (fun a => match a with
    | ⟨0, _⟩ => by show v.val = if (3 : Nat) = 1 then 0 else v.val; rw [if_neg (by decide)]
    | ⟨1, _⟩ => by show h.val = if (128 : Nat) = 1 then 0 else h.val; rw [if_neg (by decide)])

/-- The host's inverse square root of the degree column is `dinv`. -/
theorem rsqrt_deg_apply (adj : SAdj.Idx → BitVec 32) (v : Fin 3) (n : Fin 8192) :
    Host.rsqrt (F := Ideal) (s := S3x8192x1) (φ := .f32) (degArr adj) (ix3 v n (0 : Fin 1)) = dinv adj v n := rfl

/-- The operand scaled row by row by `dinv`, then changed to the narrower float format: entry (v,m,h). -/
theorem scaled_apply (hb : S3x8192x1.BroadcastsInDim S3x8192x128 ![0, 1, 2]) (hlt : FTy.bf16.bits < FTy.f32.bits)
    (d : S3x8192x1.Idx → EReal) (X : S3x8192x128.Idx → EReal) (v : Fin 3) (m : Fin 8192) (h : Fin 128) :
    (truncf (F := Ideal) .bf16 (mulf (F := Ideal) (φ := .f32) (broadcastInDim S3x8192x128 ![0, 1, 2] hb d) X) hlt) (ix3 v m h)
      = d (ix3 v m (0 : Fin 1)) * X (ix3 v m h) := by
  show broadcastInDim S3x8192x128 ![0, 1, 2] hb d (ix3 v m h) * X (ix3 v m h) = _
  rw [bcast_col_apply]

/-! The operand indices of the batched product `[3,8192,128] × [3,128,128]` (batch axis 0, contraction over the left
operand's axis 2 and the right operand's axis 1), coordinate by coordinate. -/

theorem dot_w2_l0 (i : S3x8192x128.Idx) (q : dot_S3x8192x128_S3x128x128_S3x8192x128_2_1_1_2_0_0.contr.Idx) : (dot_S3x8192x128_S3x128x128_S3x8192x128_2_1_1_2_0_0.lhsIdx i q 0).val = (i 0).val := by
  unfold DotDims.lhsIdx
  rw [dif_pos (show (0 : Fin S3x8192x128.rank) ∈ dot_S3x8192x128_S3x128x128_S3x8192x128_2_1_1_2_0_0.lhsBatch from List.mem_singleton.mpr rfl)]
  rfl
theorem dot_w2_l1 (i : S3x8192x128.Idx) (q : dot_S3x8192x128_S3x128x128_S3x8192x128_2_1_1_2_0_0.contr.Idx) : (dot_S3x8192x128_S3x128x128_S3x8192x128_2_1_1_2_0_0.lhsIdx i q 1).val = (i 1).val := by
  unfold DotDims.lhsIdx
  rw [dif_neg (show ¬(1 : Fin S3x8192x128.rank) ∈ dot_S3x8192x128_S3x128x128_S3x8192x128_2_1_1_2_0_0.lhsBatch from fun hm => absurd (List.mem_singleton.mp hm) (by decide)),
    dif_pos (show (1 : Fin S3x8192x128.rank) ∈ dot_S3x8192x128_S3x128x128_S3x8192x128_2_1_1_2_0_0.lhsNonContracting from List.mem_singleton.mpr rfl)]
  rfl
theorem dot_w2_l2 (i : S3x8192x128.Idx) (q : dot_S3x8192x128_S3x128x128_S3x8192x128_2_1_1_2_0_0.contr.Idx) : (dot_S3x8192x128_S3x128x128_S3x8192x128_2_1_1_2_0_0.lhsIdx i q 2).val = (q ⟨0, Nat.one_pos⟩).val :=
  dot_S3x8192x128_S3x128x128_S3x8192x128_2_1_1_2_0_0.lhsIdx_val_of_single rfl i q
theorem dot_w2_r0 (i : S3x8192x128.Idx) (q : dot_S3x8192x128_S3x128x128_S3x8192x128_2_1_1_2_0_0.contr.Idx) : (dot_S3x8192x128_S3x128x128_S3x8192x128_2_1_1_2_0_0.rhsIdx i q 0).val = (i 0).val := by
  unfold DotDims.rhsIdx
  rw [dif_pos (show (0 : Fin S3x128x128.rank) ∈ dot_S3x8192x128_S3x128x128_S3x8192x128_2_1_1_2_0_0.rhsBatch from List.mem_singleton.mpr rfl)]
  rfl
theorem dot_w2_r1 (i : S3x8192x128.Idx) (q : dot_S3x8192x128_S3x128x128_S3x8192x128_2_1_1_2_0_0.contr.Idx) : (dot_S3x8192x128_S3x128x128_S3x8192x128_2_1_1_2_0_0.rhsIdx i q 1).val = (q ⟨0, Nat.one_pos⟩).val :=
  dot_S3x8192x128_S3x128x128_S3x8192x128_2_1_1_2_0_0.rhsIdx_val_of_single rfl i q
theorem dot_w2_r2 (i : S3x8192x128.Idx) (q : dot_S3x8192x128_S3x128x128_S3x8192x128_2_1_1_2_0_0.contr.Idx) : (dot_S3x8192x128_S3x128x128_S3x8192x128_2_1_1_2_0_0.rhsIdx i q 2).val = (i 2).val := by
  unfold DotDims.rhsIdx
  rw [dif_neg (show ¬(2 : Fin S3x128x128.rank) ∈ dot_S3x8192x128_S3x128x128_S3x8192x128_2_1_1_2_0_0.rhsBatch from fun hm => absurd (List.mem_singleton.mp hm) (by decide)),
    dif_pos (show (2 : Fin S3x128x128.rank) ∈ dot_S3x8192x128_S3x128x128_S3x8192x128_2_1_1_2_0_0.rhsNonContracting from List.mem_singleton.mpr rfl)]
  rfl

/-- The batched product with the second weight at (v,n,k): `Σ_h L(v,n,h)·R(v,h,k)`. -/
theorem dot_w2_apply (L : FVec Ideal S3x8192x128 .f32) (R : FVec Ideal S3x128x128 .f32) (v : Fin 3) (n : Fin 8192) (k : Fin 128) :
    Host.dotGeneral dot_S3x8192x128_S3x128x128_S3x8192x128_2_1_1_2_0_0 none L R (ix3 v n k)
      = ∑ h : Fin 128, L (ix3 v n h) * R (ix3 v h k) := by
  simp only [Host.dotGeneral]
  rw [Ideal.dotGeneral_apply, ← Equiv.sum_comp (contrEquiv1 dot_S3x8192x128_S3x128x128_S3x8192x128_2_1_1_2_0_0 128 rfl rfl).symm]
  refine Finset.sum_congr rfl fun h _ => ?_
  have hk := contrEquiv1_symm_val dot_S3x8192x128_S3x128x128_S3x8192x128_2_1_1_2_0_0 128 rfl rfl h
  have el : dot_S3x8192x128_S3x128x128_S3x8192x128_2_1_1_2_0_0.lhsIdx (ix3 v n k) ((contrEquiv1 dot_S3x8192x128_S3x128x128_S3x8192x128_2_1_1_2_0_0 128 rfl rfl).symm h) = ix3 v n h :=
    funext fun a => Fin.ext (by
      match a with
      | ⟨0, _⟩ => exact dot_w2_l0 _ _
      | ⟨1, _⟩ => exact dot_w2_l1 _ _
      | ⟨2, _⟩ => exact (dot_w2_l2 _ _).trans hk)
  have er : dot_S3x8192x128_S3x128x128_S3x8192x128_2_1_1_2_0_0.rhsIdx (ix3 v n k) ((contrEquiv1 dot_S3x8192x128_S3x128x128_S3x8192x128_2_1_1_2_0_0 128 rfl rfl).symm h) = ix3 v h k :=
    funext fun a => Fin.ext (by
      match a with
      | ⟨0, _⟩ => exact dot_w2_r0 _ _
      | ⟨1, _⟩ => exact (dot_w2_r1 _ _).trans hk
      | ⟨2, _⟩ => exact dot_w2_r2 _ _)
  rw [el, er]

/-- A layer on arrays whose entries are the scaled operand, the `dinv` column and the bias row is `layerK`. -/
theorem layerArr_eq (adj : SAdj.Idx → BitVec 32) (X : Fin 3 → Fin 8192 → Fin 128 → EReal) (b' : SBias.Idx → EReal)
    (w : SFeat.Idx → EReal) (d : SCol.Idx → EReal) (b : SRow.Idx → EReal)
    (hw : ∀ (v : Fin 3) (m : Fin 8192) (h : Fin 128), w (ix3 v m h) = dinv adj v m * X v m h)
    (hd : ∀ (v : Fin 3) (n : Fin 8192), d (ix3 v n (0 : Fin 1)) = dinv adj v n)
    (hb : ∀ (v : Fin 3) (h : Fin 128), b (ix3 v (0 : Fin 1) h) = b' (ix2 v h)) :
    layerArr (ahatArr adj) w d b = featArr (layerK adj X b') := by
  funext i
  obtain ⟨v, n, h, rfl⟩ : ∃ (v : Fin 3) (n : Fin 8192) (h : Fin 128), i = ix3 v n h := ⟨i 0, i 1, i 2, eq_ix3 i⟩
  show max ((∑ k : Fin 8192, ahatArr adj (ix3 v n k) * w (ix3 v k h)) * d (ix3 v n (0 : Fin 1)) + b (ix3 v (0 : Fin 1) h)) 0
    = max ((∑ m : Fin 8192, ahat adj v n m * (dinv adj v m * X v m h)) * dinv adj v n + b' (ix2 v h)) 0
  rw [hd, hb]
  refine congrArg (fun s => max (s * dinv adj v n + b' (ix2 v h)) 0) ?_
  exact Finset.sum_congr rfl fun k _ => by rw [hw]; rfl

end Cert.KernelIdeal.Glue

end
-- ==== Proof.KernelChain.lean ====
/-
  The idealized kernel's buffers at the end of its run, as Spec's functions of the arguments.

  The fold of buffer contents through the program (launch memory → region 0 → host operations → region 1 → host
  operations → region 2 → the tail) is read one boundary at a time: region 0 leaves the self-looped adjacency and the
  degrees; the host turns the degrees into `dinv` and scales the first weight; region 1 is then one layer
  (`layerK`); the host multiplies by the second weight and scales again; region 2 is the second layer, so the node
  embeddings are `netK`; the tail applies `attn` and `fused` to them.  What each region leaves (`hah`, `hdeg`,
  `hl1`, `hl2`) is taken as a hypothesis here and proved from the region's own run elsewhere.
-/
import proofs.«148398_j29910152249795_1_alg».proof.Proof.Gen.KernelIdeal.Frame
import proofs.«148398_j29910152249795_1_alg».proof.Proof.HostTail
import proofs.«148398_j29910152249795_1_alg».proof.Proof.HostKeep
import proofs.«148398_j29910152249795_1_alg».proof.Proof.KernelGlue

noncomputable section

namespace Cert.KernelIdeal.Chain

open Cert.KernelIdeal Cert.KernelIdeal.Gen Cert.KernelIdeal.HostGlue Cert.KernelIdeal.Glue Cert.Gcn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- What the regions leave, for any entry contents `V`: region 0 the adjacency with self loops and the degrees,
    regions 1 and 2 a layer of their four input arrays. -/
structure RegionValues : Prop where
  ah : ∀ (V : (c : Dev nD) → (b : Ref sig .tc) → Buf (Elt Ideal) ((c : Thread nD τ).loc b)) (c : Dev nD),
    (dat0 (F := Ideal) V c).arrAt 1 cfg0.N = ahatArr (V c main_arg0)
  deg : ∀ (V : (c : Dev nD) → (b : Ref sig .tc) → Buf (Elt Ideal) ((c : Thread nD τ).loc b)) (c : Dev nD),
    (dat0 (F := Ideal) V c).arrAt 2 cfg0.N = degArr (V c main_arg0)
  l1 : ∀ (V : (c : Dev nD) → (b : Ref sig .tc) → Buf (Elt Ideal) ((c : Thread nD τ).loc b)) (c : Dev nD),
    (dat1 (F := Ideal) V c).arrAt 4 cfg1.N = layerArr (V c main_v0_0) (V c main_v4) (V c main_v1) (V c main_v5)
  l2 : ∀ (V : (c : Dev nD) → (b : Ref sig .tc) → Buf (Elt Ideal) ((c : Thread nD τ).loc b)) (c : Dev nD),
    (dat2 (F := Ideal) V c).arrAt 4 cfg2.N = layerArr (V c main_v0_0) (V c main_v10) (V c main_v1) (V c main_v11)

/-- The adjacency argument as the spec reads it. -/
abbrev adj : SAdj.Idx → BitVec 32 := m ((c : Thread nD τ).loc main_arg0)

/-! ## After region 0 -/

theorem W1_ah (hR : RegionValues) : W1 m ρ c (Proc.devRef .tc main_v0_0) = ahatArr (adj m c) :=
  (W1_arr m ρ c 1).trans (hR.ah (V0 m ρ) c)
theorem W1_deg (hR : RegionValues) : W1 m ρ c (Proc.devRef .tc main_v0_1) = degArr (adj m c) :=
  (W1_arr m ρ c 2).trans (hR.deg (V0 m ρ) c)
theorem W1_arg1 : W1 m ρ c (Proc.devRef .tc main_arg1) = m ((c : Thread nD τ).loc main_arg1) :=
  W1_of_ne m ρ c main_arg1 (by decide)
theorem W1_arg2 : W1 m ρ c (Proc.devRef .tc main_arg2) = m ((c : Thread nD τ).loc main_arg2) :=
  W1_of_ne m ρ c main_arg2 (by decide)
theorem W1_arg3 : W1 m ρ c (Proc.devRef .tc main_arg3) = m ((c : Thread nD τ).loc main_arg3) :=
  W1_of_ne m ρ c main_arg3 (by decide)
theorem W1_arg4 : W1 m ρ c (Proc.devRef .tc main_arg4) = m ((c : Thread nD τ).loc main_arg4) :=
  W1_of_ne m ρ c main_arg4 (by decide)
theorem W1_arg5 : W1 m ρ c (Proc.devRef .tc main_arg5) = m ((c : Thread nD τ).loc main_arg5) :=
  W1_of_ne m ρ c main_arg5 (by decide)
theorem W1_arg6 : W1 m ρ c (Proc.devRef .tc main_arg6) = m ((c : Thread nD τ).loc main_arg6) :=
  W1_of_ne m ρ c main_arg6 (by decide)
theorem W1_arg7 : W1 m ρ c (Proc.devRef .tc main_arg7) = m ((c : Thread nD τ).loc main_arg7) :=
  W1_of_ne m ρ c main_arg7 (by decide)
theorem W1_arg8 : W1 m ρ c (Proc.devRef .tc main_arg8) = m ((c : Thread nD τ).loc main_arg8) :=
  W1_of_ne m ρ c main_arg8 (by decide)
theorem W1_arg9 : W1 m ρ c (Proc.devRef .tc main_arg9) = m ((c : Thread nD τ).loc main_arg9) :=
  W1_of_ne m ρ c main_arg9 (by decide)
theorem W1_arg10 : W1 m ρ c (Proc.devRef .tc main_arg10) = m ((c : Thread nD τ).loc main_arg10) :=
  W1_of_ne m ρ c main_arg10 (by decide)
theorem W1_arg11 : W1 m ρ c (Proc.devRef .tc main_arg11) = m ((c : Thread nD τ).loc main_arg11) :=
  W1_of_ne m ρ c main_arg11 (by decide)
theorem W1_arg12 : W1 m ρ c (Proc.devRef .tc main_arg12) = m ((c : Thread nD τ).loc main_arg12) :=
  W1_of_ne m ρ c main_arg12 (by decide)

/-! ## At region 1's entry -/

theorem W2_ah (hR : RegionValues) : W2 m ρ c (Proc.devRef .tc main_v0_0) = ahatArr (adj m c) :=
  (ops1_v0_0 (W1 m ρ c)).trans (W1_ah m ρ c hR)
theorem W2_dinv (hR : RegionValues) : W2 m ρ c (Proc.devRef .tc main_v1) = Host.rsqrt (F := Ideal) (s := S3x8192x1) (φ := .f32) (degArr (adj m c)) :=
  (ops1_v1 (W1 m ρ c)).trans (by rw [W1_deg m ρ c hR])
theorem W2_w1 (hR : RegionValues) : W2 m ρ c (Proc.devRef .tc main_v4)
    = truncf (F := Ideal) .bf16 (mulf (F := Ideal) (φ := .f32) (broadcastInDim S3x8192x128 ![0, 1, 2] bcast_S3x8192x1_S3x8192x128_0_1_2
        (Host.rsqrt (F := Ideal) (s := S3x8192x1) (φ := .f32) (degArr (adj m c)))) (m ((c : Thread nD τ).loc main_arg1))) bitsLt_bf16_f32 :=
  (ops1_v4 (W1 m ρ c)).trans (by rw [W1_deg m ρ c hR, W1_arg1 m ρ c])
theorem W2_b1 : W2 m ρ c (Proc.devRef .tc main_v5)
    = broadcastInDim S3x1x128 ![0, 2] bcast_S3x128_S3x1x128_0_2 (m ((c : Thread nD τ).loc main_arg2)) :=
  (ops1_v5 (W1 m ρ c)).trans (by rw [W1_arg2 m ρ c])
theorem W2_arg3 : W2 m ρ c (Proc.devRef .tc main_arg3) = m ((c : Thread nD τ).loc main_arg3) :=
  (ops1_arg3 (W1 m ρ c)).trans (W1_arg3 m ρ c)
theorem W2_arg4 : W2 m ρ c (Proc.devRef .tc main_arg4) = m ((c : Thread nD τ).loc main_arg4) :=
  (ops1_arg4 (W1 m ρ c)).trans (W1_arg4 m ρ c)
theorem W2_arg5 : W2 m ρ c (Proc.devRef .tc main_arg5) = m ((c : Thread nD τ).loc main_arg5) :=
  (ops1_arg5 (W1 m ρ c)).trans (W1_arg5 m ρ c)
theorem W2_arg6 : W2 m ρ c (Proc.devRef .tc main_arg6) = m ((c : Thread nD τ).loc main_arg6) :=
  (ops1_arg6 (W1 m ρ c)).trans (W1_arg6 m ρ c)
theorem W2_arg7 : W2 m ρ c (Proc.devRef .tc main_arg7) = m ((c : Thread nD τ).loc main_arg7) :=
  (ops1_arg7 (W1 m ρ c)).trans (W1_arg7 m ρ c)
theorem W2_arg8 : W2 m ρ c (Proc.devRef .tc main_arg8) = m ((c : Thread nD τ).loc main_arg8) :=
  (ops1_arg8 (W1 m ρ c)).trans (W1_arg8 m ρ c)
theorem W2_arg9 : W2 m ρ c (Proc.devRef .tc main_arg9) = m ((c : Thread nD τ).loc main_arg9) :=
  (ops1_arg9 (W1 m ρ c)).trans (W1_arg9 m ρ c)
theorem W2_arg10 : W2 m ρ c (Proc.devRef .tc main_arg10) = m ((c : Thread nD τ).loc main_arg10) :=
  (ops1_arg10 (W1 m ρ c)).trans (W1_arg10 m ρ c)
theorem W2_arg11 : W2 m ρ c (Proc.devRef .tc main_arg11) = m ((c : Thread nD τ).loc main_arg11) :=
  (ops1_arg11 (W1 m ρ c)).trans (W1_arg11 m ρ c)
theorem W2_arg12 : W2 m ρ c (Proc.devRef .tc main_arg12) = m ((c : Thread nD τ).loc main_arg12) :=
  (ops1_arg12 (W1 m ρ c)).trans (W1_arg12 m ρ c)

/-! ## After region 1: the first layer -/

/-- The first layer's operand: the first weight, by coordinates. -/
abbrev X1 : Fin 3 → Fin 8192 → Fin 128 → EReal := fun v n h => m ((c : Thread nD τ).loc main_arg1) (ix3 v n h)

theorem W3_h1 (hR : RegionValues) : W3 m ρ c (Proc.devRef .tc main_v6)
    = featArr (layerK (adj m c) (X1 m c) (m ((c : Thread nD τ).loc main_arg2))) := by
  refine (W3_arr m ρ c 4).trans ((hR.l1 (V2 m ρ) c).trans ?_)
  show layerArr (W2 m ρ c (Proc.devRef .tc main_v0_0)) (W2 m ρ c (Proc.devRef .tc main_v4)) (W2 m ρ c (Proc.devRef .tc main_v1))
    (W2 m ρ c (Proc.devRef .tc main_v5)) = _
  rw [W2_ah m ρ c hR, W2_w1 m ρ c hR, W2_dinv m ρ c hR, W2_b1 m ρ c]
  exact layerArr_eq (adj m c) (X1 m c) (m ((c : Thread nD τ).loc main_arg2)) _ _ _
    (fun v n h => (scaled_apply _ _ _ _ v n h).trans (by rw [rsqrt_deg_apply]))
    (fun v n => rsqrt_deg_apply (adj m c) v n)
    (fun v h => bcast_bias_apply _ _ v h)

theorem W3_ah (hR : RegionValues) : W3 m ρ c (Proc.devRef .tc main_v0_0) = ahatArr (adj m c) :=
  (W3_arr m ρ c 0).trans ((((dat1 (V2 m ρ) c).arrAt_in 0 rfl _).trans (A_eq1 (V2 m ρ) c 0)).trans (W2_ah m ρ c hR))
theorem W3_dinv (hR : RegionValues) : W3 m ρ c (Proc.devRef .tc main_v1) = Host.rsqrt (F := Ideal) (s := S3x8192x1) (φ := .f32) (degArr (adj m c)) :=
  (W3_arr m ρ c 2).trans ((((dat1 (V2 m ρ) c).arrAt_in 2 rfl _).trans (A_eq1 (V2 m ρ) c 2)).trans (W2_dinv m ρ c hR))
theorem W3_arg3 : W3 m ρ c (Proc.devRef .tc main_arg3) = m ((c : Thread nD τ).loc main_arg3) :=
  (W3_of_ne m ρ c main_arg3 (by decide)).trans (W2_arg3 m ρ c)
theorem W3_arg4 : W3 m ρ c (Proc.devRef .tc main_arg4) = m ((c : Thread nD τ).loc main_arg4) :=
  (W3_of_ne m ρ c main_arg4 (by decide)).trans (W2_arg4 m ρ c)
theorem W3_arg5 : W3 m ρ c (Proc.devRef .tc main_arg5) = m ((c : Thread nD τ).loc main_arg5) :=
  (W3_of_ne m ρ c main_arg5 (by decide)).trans (W2_arg5 m ρ c)
theorem W3_arg6 : W3 m ρ c (Proc.devRef .tc main_arg6) = m ((c : Thread nD τ).loc main_arg6) :=
  (W3_of_ne m ρ c main_arg6 (by decide)).trans (W2_arg6 m ρ c)
theorem W3_arg7 : W3 m ρ c (Proc.devRef .tc main_arg7) = m ((c : Thread nD τ).loc main_arg7) :=
  (W3_of_ne m ρ c main_arg7 (by decide)).trans (W2_arg7 m ρ c)
theorem W3_arg8 : W3 m ρ c (Proc.devRef .tc main_arg8) = m ((c : Thread nD τ).loc main_arg8) :=
  (W3_of_ne m ρ c main_arg8 (by decide)).trans (W2_arg8 m ρ c)
theorem W3_arg9 : W3 m ρ c (Proc.devRef .tc main_arg9) = m ((c : Thread nD τ).loc main_arg9) :=
  (W3_of_ne m ρ c main_arg9 (by decide)).trans (W2_arg9 m ρ c)
theorem W3_arg10 : W3 m ρ c (Proc.devRef .tc main_arg10) = m ((c : Thread nD τ).loc main_arg10) :=
  (W3_of_ne m ρ c main_arg10 (by decide)).trans (W2_arg10 m ρ c)
theorem W3_arg11 : W3 m ρ c (Proc.devRef .tc main_arg11) = m ((c : Thread nD τ).loc main_arg11) :=
  (W3_of_ne m ρ c main_arg11 (by decide)).trans (W2_arg11 m ρ c)
theorem W3_arg12 : W3 m ρ c (Proc.devRef .tc main_arg12) = m ((c : Thread nD τ).loc main_arg12) :=
  (W3_of_ne m ρ c main_arg12 (by decide)).trans (W2_arg12 m ρ c)

/-! ## At region 2's entry -/

theorem W4_ah (hR : RegionValues) : W4 m ρ c (Proc.devRef .tc main_v0_0) = ahatArr (adj m c) :=
  (ops2_v0_0 (W3 m ρ c)).trans (W3_ah m ρ c hR)
theorem W4_dinv (hR : RegionValues) : W4 m ρ c (Proc.devRef .tc main_v1) = Host.rsqrt (F := Ideal) (s := S3x8192x1) (φ := .f32) (degArr (adj m c)) :=
  (ops2_v1 (W3 m ρ c)).trans (W3_dinv m ρ c hR)
theorem W4_w2 (hR : RegionValues) : W4 m ρ c (Proc.devRef .tc main_v10)
    = truncf (F := Ideal) .bf16 (mulf (F := Ideal) (φ := .f32) (broadcastInDim S3x8192x128 ![0, 1, 2] bcast_S3x8192x1_S3x8192x128_0_1_2
        (Host.rsqrt (F := Ideal) (s := S3x8192x1) (φ := .f32) (degArr (adj m c))))
        (Host.dotGeneral (F := Ideal) (φ₁ := .f32) (φ₂ := .f32) dot_S3x8192x128_S3x128x128_S3x8192x128_2_1_1_2_0_0 none
          (featArr (layerK (adj m c) (X1 m c) (m ((c : Thread nD τ).loc main_arg2)))) (m ((c : Thread nD τ).loc main_arg3)))) bitsLt_bf16_f32 :=
  (ops2_v10 (W3 m ρ c)).trans (by rw [W3_dinv m ρ c hR, W3_h1 m ρ c hR, W3_arg3 m ρ c])
theorem W4_b2 : W4 m ρ c (Proc.devRef .tc main_v11)
    = broadcastInDim S3x1x128 ![0, 2] bcast_S3x128_S3x1x128_0_2 (m ((c : Thread nD τ).loc main_arg4)) :=
  (ops2_v11 (W3 m ρ c)).trans (by rw [W3_arg4 m ρ c])
theorem W4_arg5 : W4 m ρ c (Proc.devRef .tc main_arg5) = m ((c : Thread nD τ).loc main_arg5) :=
  (ops2_arg5 (W3 m ρ c)).trans (W3_arg5 m ρ c)
theorem W4_arg6 : W4 m ρ c (Proc.devRef .tc main_arg6) = m ((c : Thread nD τ).loc main_arg6) :=
  (ops2_arg6 (W3 m ρ c)).trans (W3_arg6 m ρ c)
theorem W4_arg7 : W4 m ρ c (Proc.devRef .tc main_arg7) = m ((c : Thread nD τ).loc main_arg7) :=
  (ops2_arg7 (W3 m ρ c)).trans (W3_arg7 m ρ c)
theorem W4_arg8 : W4 m ρ c (Proc.devRef .tc main_arg8) = m ((c : Thread nD τ).loc main_arg8) :=
  (ops2_arg8 (W3 m ρ c)).trans (W3_arg8 m ρ c)
theorem W4_arg9 : W4 m ρ c (Proc.devRef .tc main_arg9) = m ((c : Thread nD τ).loc main_arg9) :=
  (ops2_arg9 (W3 m ρ c)).trans (W3_arg9 m ρ c)
theorem W4_arg10 : W4 m ρ c (Proc.devRef .tc main_arg10) = m ((c : Thread nD τ).loc main_arg10) :=
  (ops2_arg10 (W3 m ρ c)).trans (W3_arg10 m ρ c)
theorem W4_arg11 : W4 m ρ c (Proc.devRef .tc main_arg11) = m ((c : Thread nD τ).loc main_arg11) :=
  (ops2_arg11 (W3 m ρ c)).trans (W3_arg11 m ρ c)
theorem W4_arg12 : W4 m ρ c (Proc.devRef .tc main_arg12) = m ((c : Thread nD τ).loc main_arg12) :=
  (ops2_arg12 (W3 m ρ c)).trans (W3_arg12 m ρ c)

/-! ## After region 2: the node embeddings -/

/-- The node embeddings the kernel computes. -/
abbrev embK : SFeat.Idx → EReal :=
  featArr (netK (adj m c) (m ((c : Thread nD τ).loc main_arg1)) (m ((c : Thread nD τ).loc main_arg2))
    (m ((c : Thread nD τ).loc main_arg3)) (m ((c : Thread nD τ).loc main_arg4)))

theorem W5_emb (hR : RegionValues) : W5 m ρ c (Proc.devRef .tc main_v12) = embK m c := by
  refine (W5_arr m ρ c 4).trans ((hR.l2 (V4 m ρ) c).trans ?_)
  show layerArr (W4 m ρ c (Proc.devRef .tc main_v0_0)) (W4 m ρ c (Proc.devRef .tc main_v10)) (W4 m ρ c (Proc.devRef .tc main_v1))
    (W4 m ρ c (Proc.devRef .tc main_v11)) = _
  rw [W4_ah m ρ c hR, W4_w2 m ρ c hR, W4_dinv m ρ c hR, W4_b2 m ρ c]
  exact layerArr_eq (adj m c)
    (mix (layerK (adj m c) (X1 m c) (m ((c : Thread nD τ).loc main_arg2))) (m ((c : Thread nD τ).loc main_arg3)))
    (m ((c : Thread nD τ).loc main_arg4)) _ _ _
    (fun v n h => (scaled_apply _ _ _ _ v n h).trans (by rw [rsqrt_deg_apply, dot_w2_apply]; rfl))
    (fun v n => rsqrt_deg_apply (adj m c) v n)
    (fun v h => bcast_bias_apply _ _ v h)

theorem W5_arg5 : W5 m ρ c (Proc.devRef .tc main_arg5) = m ((c : Thread nD τ).loc main_arg5) :=
  (W5_of_ne m ρ c main_arg5 (by decide)).trans (W4_arg5 m ρ c)
theorem W5_arg6 : W5 m ρ c (Proc.devRef .tc main_arg6) = m ((c : Thread nD τ).loc main_arg6) :=
  (W5_of_ne m ρ c main_arg6 (by decide)).trans (W4_arg6 m ρ c)
theorem W5_arg7 : W5 m ρ c (Proc.devRef .tc main_arg7) = m ((c : Thread nD τ).loc main_arg7) :=
  (W5_of_ne m ρ c main_arg7 (by decide)).trans (W4_arg7 m ρ c)
theorem W5_arg8 : W5 m ρ c (Proc.devRef .tc main_arg8) = m ((c : Thread nD τ).loc main_arg8) :=
  (W5_of_ne m ρ c main_arg8 (by decide)).trans (W4_arg8 m ρ c)
theorem W5_arg9 : W5 m ρ c (Proc.devRef .tc main_arg9) = m ((c : Thread nD τ).loc main_arg9) :=
  (W5_of_ne m ρ c main_arg9 (by decide)).trans (W4_arg9 m ρ c)
theorem W5_arg10 : W5 m ρ c (Proc.devRef .tc main_arg10) = m ((c : Thread nD τ).loc main_arg10) :=
  (W5_of_ne m ρ c main_arg10 (by decide)).trans (W4_arg10 m ρ c)
theorem W5_arg11 : W5 m ρ c (Proc.devRef .tc main_arg11) = m ((c : Thread nD τ).loc main_arg11) :=
  (W5_of_ne m ρ c main_arg11 (by decide)).trans (W4_arg11 m ρ c)
theorem W5_arg12 : W5 m ρ c (Proc.devRef .tc main_arg12) = m ((c : Thread nD τ).loc main_arg12) :=
  (W5_of_ne m ρ c main_arg12 (by decide)).trans (W4_arg12 m ρ c)

/-! ## After the tail: the three results -/

theorem W8_emb (hR : RegionValues) : W8 m ρ c (Proc.devRef .tc main_v12) = embK m c :=
  (tail_v12 (W5 m ρ c)).trans (W5_emb m ρ c hR)

theorem W8_attn (hR : RegionValues) : W8 m ρ c (Proc.devRef .tc main_v35)
    = attn (F := Ideal) (embK m c) (m ((c : Thread nD τ).loc main_arg5)) (m ((c : Thread nD τ).loc main_arg6))
        (m ((c : Thread nD τ).loc main_arg7)) (m ((c : Thread nD τ).loc main_arg8)) :=
  (tail_v35 (W5 m ρ c)).trans (by rw [W5_emb m ρ c hR, W5_arg5 m ρ c, W5_arg6 m ρ c, W5_arg7 m ρ c, W5_arg8 m ρ c])

theorem W8_fused (hR : RegionValues) : W8 m ρ c (Proc.devRef .tc main_v49)
    = fused (F := Ideal) (embK m c) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) :=
  (tail_v49 (W5 m ρ c)).trans (by rw [W5_emb m ρ c hR, W5_arg5 m ρ c, W5_arg6 m ρ c, W5_arg7 m ρ c, W5_arg8 m ρ c,
    W5_arg9 m ρ c, W5_arg10 m ρ c, W5_arg11 m ρ c, W5_arg12 m ρ c])

end Cert.KernelIdeal.Chain

end
-- ==== Proof.RefAdj.lean ====
/-
  The reference's normalised adjacency, read entry by entry.

  The reference builds, from the integer adjacency, the edge indicator (1 where the word is nonzero), the identity
  matrix as a comparison of two coordinate grids, the self-looped matrix  edge·(1 − eye) + eye,  its row sums, their
  inverse square roots, and the matrix scaled by the row's and then by the column's inverse square root.  Each of
  these stages is identified here with the function of coordinates the specification names:
  `ahat`, `deg`/`dinv`, and the product  (ahat · dinv n) · dinv m.
-/
import proofs.«148398_j29910152249795_1_alg».proof.Proof.Gen.ReferenceIdeal.Read
import proofs.«148398_j29910152249795_1_alg».proof.Proof.Spec

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.Gcn

/-! ## Words -/

/-- The word 0x3F800000 is the float 1. -/
theorem word_one : Ideal.ofBits .f32 0x3F800000#32 = 1 := by
  simp [Ideal.ofBits, Ideal.ieee, -EReal.coe_mul]; norm_num

/-- A one-bit word read as an unsigned number: the word 1 is the number 1. -/
theorem bit_one : (((1#1 : BitVec 1).toNat : ℝ) : EReal) = 1 := by
  have h : (1#1 : BitVec 1).toNat = 1 := rfl
  rw [h, Nat.cast_one, EReal.coe_one]

/-- A one-bit word read as an unsigned number: the word 0 is the number 0. -/
theorem bit_zero : (((0#1 : BitVec 1).toNat : ℝ) : EReal) = 0 := by
  have h : (0#1 : BitVec 1).toNat = 0 := rfl
  rw [h, Nat.cast_zero, EReal.coe_zero]

/-- "The word is not zero", as a number: 0 for the zero word, 1 otherwise. -/
theorem edge_word (x : BitVec 32) :
    (((IntOp.cmpi .ne x 0#32).toNat : ℝ) : EReal) = if x = 0#32 then 0 else 1 := by
  by_cases h : x = 0#32
  · rw [if_pos h, eq_zero_of_ne_one (fun e => IntOp.cmpi_ne.mp e h), bit_zero]
  · rw [if_neg h, IntOp.cmpi_ne.mpr h, bit_one]

/-- Two coordinates below 8192 have equal 32-bit words exactly when they are equal. -/
theorem coord_word_inj (n m : Fin 8192) (e : BitVec.ofNat 32 n.val = BitVec.ofNat 32 m.val) : n = m := by
  have h := congrArg BitVec.toNat e
  simp only [BitVec.toNat_ofNat] at h
  have hn := n.isLt
  have hm := m.isLt
  rw [Nat.mod_eq_of_lt (by omega), Nat.mod_eq_of_lt (by omega)] at h
  exact Fin.ext h

/-- "Row coordinate (plus the zero offset) equals column coordinate", as a number: the diagonal indicator. -/
theorem diag_word (n m : Fin 8192) :
    (((IntOp.cmpi .eq (IntOp.addi (BitVec.ofNat 32 n.val) 0#32) (BitVec.ofNat 32 m.val)).toNat : ℝ) : EReal)
      = diag n m := by
  have hadd : IntOp.addi (BitVec.ofNat 32 n.val) 0#32 = BitVec.ofNat 32 n.val := BitVec.add_zero _
  rw [hadd]
  unfold diag
  by_cases h : n = m
  · rw [if_pos h, IntOp.cmpi_eq.mpr (by rw [h]), bit_one]
  · rw [if_neg h, eq_zero_of_ne_one (fun e => h (coord_word_inj n m (IntOp.cmpi_eq.mp e))), bit_zero]

/-! ## The stages -/

/-- The identity matrix the reference builds is the diagonal indicator. -/
theorem ref_eye (n m : Fin 8192) : Read.val_main_v8 (F := Ideal) (ix2 n m) = diag n m := by
  rw [Read.val_main_v8_apply, Read.val_main_v7_apply, Read.val_main_v6_apply, Read.val_main_v3_apply,
    Read.val_main_v4_apply, Read.val_main_v5_apply, Read.val_main_c_0_apply]
  exact diag_word n m

/-- The edge indicator the reference builds. -/
theorem ref_edge (x0 : SAdj.Idx → BitVec 32) (v : Fin 3) (n m : Fin 8192) :
    Read.val_main_v2 (F := Ideal) x0 (ix3 v n m) = edge x0 v n m := by
  rw [Read.val_main_v2_apply, Read.val_main_v1_apply, Read.val_main_v0_apply, Read.val_main_c_apply]
  exact edge_word (x0 (ix3 v n m))

/-- The two broadcasts [8192,8192] → [1,8192,8192] → [3,8192,8192] read the matrix at the last two coordinates. -/
theorem idx_bcast_mat (v : Fin 3) (n m : Fin 8192) :
    Read.idx_main_v11 (Read.idx_main_v12 (ix3 v n m)) = ix2 n m :=
  funext fun a => Fin.ext (by match a with | ⟨0, _⟩ => rfl | ⟨1, _⟩ => rfl)

theorem idx_bcast_mat' (v : Fin 3) (n m : Fin 8192) :
    Read.idx_main_v14 (Read.idx_main_v15 (ix3 v n m)) = ix2 n m :=
  funext fun a => Fin.ext (by match a with | ⟨0, _⟩ => rfl | ⟨1, _⟩ => rfl)

/-- The self-looped adjacency  edge·(1 − eye) + eye. -/
theorem ref_ahat (x0 : SAdj.Idx → BitVec 32) (v : Fin 3) (n m : Fin 8192) :
    Read.val_main_v16 (F := Ideal) x0 (ix3 v n m) = ahat x0 v n m := by
  rw [Read.val_main_v16_apply, Read.val_main_v13_apply, Read.val_main_v12_apply, Read.val_main_v11_apply,
    Read.val_main_v10_apply, Read.val_main_v9_apply, Read.val_main_cst_apply, Read.val_main_v15_apply,
    Read.val_main_v14_apply, idx_bcast_mat, idx_bcast_mat', ref_eye, ref_edge]
  simp only [Ideal.addf_def, Ideal.mulf_def, Ideal.subf_def, Ideal.ofBits_def, word_one]
  rfl

/-- The row sum over the last axis reads the matrix along row (v, n). -/
theorem idx_row (v : Fin 3) (n m : Fin 8192) : Read.idx_main_v17 (ix2 v n) m = ix3 v n m :=
  funext fun a => Fin.ext (by match a with | ⟨0, _⟩ => rfl | ⟨1, _⟩ => rfl | ⟨2, _⟩ => rfl)

/-- The degrees: the row sums of the self-looped adjacency, summed from the zero word. -/
theorem ref_deg (x0 : SAdj.Idx → BitVec 32) (v : Fin 3) (n : Fin 8192) :
    Read.val_main_v17 (F := Ideal) x0 (ix2 v n) = deg x0 v n := by
  rw [Read.val_main_v17_apply, Read.val_main_cst_1_apply]
  simp only [idx_row, ref_ahat, Ideal.ofBits_def, Ideal.ofBits_zero_f32, zero_add]
  rfl

/-- Their inverse square roots. -/
theorem ref_dinv (x0 : SAdj.Idx → BitVec 32) (v : Fin 3) (n : Fin 8192) :
    Read.val_main_v18 (F := Ideal) x0 (ix2 v n) = dinv x0 v n := by
  rw [Read.val_main_v18_apply, ref_deg, Ideal.hostUnary_rsqrt_def]
  rfl

/-- The broadcast of the inverse square roots along a row: entry (v, n, m) reads (v, n). -/
theorem idx_bcast_row (v : Fin 3) (n m : Fin 8192) :
    Read.idx_main_v19 (Read.idx_main_v20 (ix3 v n m)) = ix2 v n :=
  funext fun a => Fin.ext (by match a with | ⟨0, _⟩ => rfl | ⟨1, _⟩ => rfl)

/-- The broadcast of the inverse square roots along a column: entry (v, n, m) reads (v, m). -/
theorem idx_bcast_col (v : Fin 3) (n m : Fin 8192) :
    Read.idx_main_v22 (Read.idx_main_v23 (ix3 v n m)) = ix2 v m :=
  funext fun a => Fin.ext (by match a with | ⟨0, _⟩ => rfl | ⟨1, _⟩ => rfl)

/-- The normalised adjacency, in the reference's grouping: (ahat · dinv of the row) · dinv of the column. -/
theorem ref_norm (x0 : SAdj.Idx → BitVec 32) (v : Fin 3) (n m : Fin 8192) :
    Read.val_main_v24 (F := Ideal) x0 (ix3 v n m) = ahat x0 v n m * dinv x0 v n * dinv x0 v m := by
  rw [Read.val_main_v24_apply, Read.val_main_v21_apply, Read.val_main_v20_apply, Read.val_main_v19_apply,
    Read.val_main_v23_apply, Read.val_main_v22_apply, idx_bcast_row, idx_bcast_col, ref_ahat, ref_dinv, ref_dinv]
  rfl

end Cert.ReferenceIdeal.RefValue

end
-- ==== Proof.RefValue.lean ====
/-
  The reference's node embeddings are the specification's two-layer network, entry by entry.

  With the normalised adjacency  N(v,n,m) = (ahat · dinv n) · dinv m  read off in the previous module, the reference
  computes  relu(Σ_m N(v,n,m)·W1(v,m,h) + b1(v,h)),  multiplies by the second weight over the feature axis, and applies
  the same layer again with the second bias.  Each contraction is read as a sum over its one contracted coordinate,
  each bias broadcast at the two coordinates it keeps, and relu as the maximum with the zero word.  Nothing is
  rearranged: the specification's second arrangement is written in this very order.
-/
import proofs.«148398_j29910152249795_1_alg».proof.Proof.RefAdj

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.Gcn

/-! ## Where each contraction and each bias broadcast reads its operands -/

/-- First layer's contraction: entry (v, n, h) pairs the matrix entry (v, n, m) with the weight entry (v, m, h). -/
theorem idx_l25 (v : Fin 3) (n : Fin 8192) (h : Fin 128) (m : Fin 8192) :
    Read.lidx_main_v25 (ix3 v n h) m = ix3 v n m :=
  funext fun a => Fin.ext (by match a with | ⟨0, _⟩ => rfl | ⟨1, _⟩ => rfl | ⟨2, _⟩ => rfl)

theorem idx_r25 (v : Fin 3) (n : Fin 8192) (h : Fin 128) (m : Fin 8192) :
    Read.ridx_main_v25 (ix3 v n h) m = ix3 v m h :=
  funext fun a => Fin.ext (by match a with | ⟨0, _⟩ => rfl | ⟨1, _⟩ => rfl | ⟨2, _⟩ => rfl)

/-- The product with the second weight: entry (v, n, k) pairs the feature (v, n, h) with the weight entry (v, h, k). -/
theorem idx_l30 (v : Fin 3) (n : Fin 8192) (k h : Fin 128) :
    Read.lidx_main_v30 (ix3 v n k) h = ix3 v n h :=
  funext fun a => Fin.ext (by match a with | ⟨0, _⟩ => rfl | ⟨1, _⟩ => rfl | ⟨2, _⟩ => rfl)

theorem idx_r30 (v : Fin 3) (n : Fin 8192) (k h : Fin 128) :
    Read.ridx_main_v30 (ix3 v n k) h = ix3 v h k :=
  funext fun a => Fin.ext (by match a with | ⟨0, _⟩ => rfl | ⟨1, _⟩ => rfl | ⟨2, _⟩ => rfl)

/-- Second layer's contraction, as the first. -/
theorem idx_l31 (v : Fin 3) (n : Fin 8192) (h : Fin 128) (m : Fin 8192) :
    Read.lidx_main_v31 (ix3 v n h) m = ix3 v n m :=
  funext fun a => Fin.ext (by match a with | ⟨0, _⟩ => rfl | ⟨1, _⟩ => rfl | ⟨2, _⟩ => rfl)

theorem idx_r31 (v : Fin 3) (n : Fin 8192) (h : Fin 128) (m : Fin 8192) :
    Read.ridx_main_v31 (ix3 v n h) m = ix3 v m h :=
  funext fun a => Fin.ext (by match a with | ⟨0, _⟩ => rfl | ⟨1, _⟩ => rfl | ⟨2, _⟩ => rfl)

/-- A bias [3,128] broadcast to [3,1,128] and then to [3,8192,128]: entry (v, n, h) reads (v, h). -/
theorem idx_bias1 (v : Fin 3) (n : Fin 8192) (h : Fin 128) :
    Read.idx_main_v26 (Read.idx_main_v27 (ix3 v n h)) = ix2 v h :=
  funext fun a => Fin.ext (by match a with | ⟨0, _⟩ => rfl | ⟨1, _⟩ => rfl)

theorem idx_bias2 (v : Fin 3) (n : Fin 8192) (h : Fin 128) :
    Read.idx_main_v32 (Read.idx_main_v33 (ix3 v n h)) = ix2 v h :=
  funext fun a => Fin.ext (by match a with | ⟨0, _⟩ => rfl | ⟨1, _⟩ => rfl)

/-! ## The layers -/

/-- The first layer:  max(Σ_m N(v,n,m)·W1(v,m,h) + b1(v,h), 0). -/
theorem ref_layer1 (x0 : SAdj.Idx → BitVec 32) (x1 : SFeat.Idx → EReal) (x2 : SBias.Idx → EReal)
    (v : Fin 3) (n : Fin 8192) (h : Fin 128) :
    Read.val_main_v29 (F := Ideal) x0 x1 x2 (ix3 v n h)
      = layerR x0 (fun v m h => x1 (ix3 v m h)) x2 v n h := by
  rw [Read.val_main_v29_apply, Read.val_main_v28_apply, Read.val_main_v25_apply, Read.val_main_v27_apply,
    Read.val_main_v26_apply, Read.val_main_call0_v0_apply, Read.val_main_call0_cst_apply, idx_bias1]
  simp only [idx_l25, idx_r25, ref_norm, Ideal.ofBits_def, Ideal.ofBits_zero_f32, Ideal.maximumf_def,
    Ideal.addf_def]
  rfl

/-- The product with the second weight:  Σ_h Y(v,n,h)·W2(v,h,k)  over the first layer's output Y. -/
theorem ref_mix (x0 : SAdj.Idx → BitVec 32) (x1 : SFeat.Idx → EReal) (x2 : SBias.Idx → EReal)
    (x3 : SW2.Idx → EReal) (v : Fin 3) (n : Fin 8192) (k : Fin 128) :
    Read.val_main_v30 (F := Ideal) x0 x1 x2 x3 (ix3 v n k)
      = mix (layerR x0 (fun v m h => x1 (ix3 v m h)) x2) x3 v n k := by
  rw [Read.val_main_v30_apply]
  simp only [idx_l30, idx_r30, ref_layer1]
  rfl

/-- The second layer, on the mixed features with the second bias: the whole network at an entry. -/
theorem ref_layer2 (x0 : SAdj.Idx → BitVec 32) (x1 : SFeat.Idx → EReal) (x2 : SBias.Idx → EReal)
    (x3 : SW2.Idx → EReal) (x4 : SBias.Idx → EReal) (v : Fin 3) (n : Fin 8192) (h : Fin 128) :
    Read.val_main_v35 (F := Ideal) x0 x1 x2 x3 x4 (ix3 v n h) = netR x0 x1 x2 x3 x4 v n h := by
  rw [Read.val_main_v35_apply, Read.val_main_v34_apply, Read.val_main_v31_apply, Read.val_main_v33_apply,
    Read.val_main_v32_apply, Read.val_main_call1_v0_apply, Read.val_main_call1_cst_apply, idx_bias2]
  simp only [idx_l31, idx_r31, ref_norm, ref_mix, Ideal.ofBits_def, Ideal.ofBits_zero_f32, Ideal.maximumf_def,
    Ideal.addf_def]
  rfl

/-- The reference's third result is the specification's network in its second arrangement. -/
theorem ref_net (x0 : SAdj.Idx → BitVec 32) (x1 : SFeat.Idx → EReal) (x2 : SBias.Idx → EReal) (x3 : SW2.Idx → EReal)
    (x4 : SBias.Idx → EReal) :
    Read.val_main_v35 (F := Ideal) x0 x1 x2 x3 x4 = featArr (netR x0 x1 x2 x3 x4) := by
  funext i
  obtain ⟨v, n, h, rfl⟩ : ∃ (v : Fin 3) (n : Fin 8192) (h : Fin 128), i = ix3 v n h := ⟨i 0, i 1, i 2, eq_ix3 i⟩
  rw [ref_layer2]
  rfl

end Cert.ReferenceIdeal.RefValue

end
-- ==== Proof.RefTail.lean ====
/-
  The reference's last operations are the kernel's: its attention weights and its fused output are the functions
  `attn` and `fused` (stated over the kernel program's records, which are the same dimension numbers and shapes)
  of its own node embeddings and of the arguments.  Both sides are the same composition of host operations, so each
  equation holds by unfolding the stages.
-/
import proofs.«148398_j29910152249795_1_alg».proof.Proof.Gen.ReferenceIdeal.Read
import proofs.«148398_j29910152249795_1_alg».proof.Proof.HostGlue

noncomputable section

namespace Cert.ReferenceIdeal.RefTail

open Cert.ReferenceIdeal Cert.ReferenceIdeal.Gen
open Idealize.ShloMosaic Idealize.ShloMosaic.TcCoe Idealize.SL.Sem

variable {F : FTy → Type} [FloatOps F] [Cert.KernelIdeal.Facts] [Cert.ReferenceIdeal.Facts]

set_option maxRecDepth 8192 in
/-- The reference's attention weights are `attn` of its node embeddings. -/
theorem attn_eq (x0 : (⟨S3x8192x8192, .i32⟩ : BufTy).Contents (Elt F)) (x1 : (⟨S3x8192x128, .f32⟩ : BufTy).Contents (Elt F))
    (x2 : (⟨S3x128, .f32⟩ : BufTy).Contents (Elt F)) (x3 : (⟨S3x128x128, .f32⟩ : BufTy).Contents (Elt F))
    (x4 : (⟨S3x128, .f32⟩ : BufTy).Contents (Elt F)) (x5 : (⟨S128x64, .f32⟩ : BufTy).Contents (Elt F))
    (x6 : (⟨S64, .f32⟩ : BufTy).Contents (Elt F)) (x7 : (⟨S64x1, .f32⟩ : BufTy).Contents (Elt F))
    (x8 : (⟨S1, .f32⟩ : BufTy).Contents (Elt F)) :
    Read.val_main_v58 (F := F) x0 x1 x2 x3 x4 x5 x6 x7 x8
      = Cert.KernelIdeal.HostGlue.attn (F := F) (Read.val_main_v35 (F := F) x0 x1 x2 x3 x4) x5 x6 x7 x8 := rfl

set_option maxRecDepth 8192 in
/-- The reference's fused output is `fused` of its node embeddings. -/
theorem fused_eq (x0 : (⟨S3x8192x8192, .i32⟩ : BufTy).Contents (Elt F)) (x1 : (⟨S3x8192x128, .f32⟩ : BufTy).Contents (Elt F))
    (x2 : (⟨S3x128, .f32⟩ : BufTy).Contents (Elt F)) (x3 : (⟨S3x128x128, .f32⟩ : BufTy).Contents (Elt F))
    (x4 : (⟨S3x128, .f32⟩ : BufTy).Contents (Elt F)) (x5 : (⟨S128x64, .f32⟩ : BufTy).Contents (Elt F))
    (x6 : (⟨S64, .f32⟩ : BufTy).Contents (Elt F)) (x7 : (⟨S64x1, .f32⟩ : BufTy).Contents (Elt F))
    (x8 : (⟨S1, .f32⟩ : BufTy).Contents (Elt F)) (x9 : (⟨S384x256, .f32⟩ : BufTy).Contents (Elt F))
    (x10 : (⟨S256, .f32⟩ : BufTy).Contents (Elt F)) (x11 : (⟨S256x128, .f32⟩ : BufTy).Contents (Elt F))
    (x12 : (⟨S128, .f32⟩ : BufTy).Contents (Elt F)) :
    Read.val_main_v72 (F := F) x0 x1 x2 x3 x4 x5 x6 x7 x8 x9 x10 x11 x12
      = Cert.KernelIdeal.HostGlue.fused (F := F) (Read.val_main_v35 (F := F) x0 x1 x2 x3 x4) x5 x6 x7 x8 x9 x10 x11 x12 := rfl

end Cert.ReferenceIdeal.RefTail

end
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.Law.lean ====
/-
  The two arrangements of a graph-convolution layer agree on the extended reals.

  The self-looped adjacency `ahat` takes the values 0 and 1 and is 1 on the diagonal, so every degree is a real
  number that is at least 1 and its inverse square root `dinv` is a nonnegative real.  Multiplication by a
  nonnegative extended real other than +∞ goes through a finite sum whatever the summands are, and the product of
  extended reals is commutative and associative; hence

      (Σ_m â(n,m)·(dinv m · X m)) · dinv n  =  Σ_m ((â(n,m)·dinv n)·dinv m) · X m

  for EVERY family X (infinite entries allowed), and the two networks are one function.
-/
import proofs.«148398_j29910152249795_1_alg».proof.Proof.Spec
import proofs.«148398_j29910152249795_1_alg».proof.Proof.LibSumMulNonneg

noncomputable section

open scoped BigOperators

namespace Cert.Gcn

open Idealize.ShloMosaic Idealize.ShloMosaic.ValueIdx

/-- `ahat` as a real number: 1 on the diagonal, elsewhere the edge indicator. -/
def ahatR (adj : SAdj.Idx → BitVec 32) (v : Fin 3) (n m : Fin 8192) : ℝ :=
  if n = m then 1 else if adj (ix3 v n m) = 0#32 then 0 else 1

theorem one_sub_one : (1 : EReal) - 1 = 0 := by
  rw [← EReal.coe_one, ← EReal.coe_sub, sub_self, EReal.coe_zero]

theorem one_sub_zero : (1 : EReal) - 0 = 1 := by
  rw [← EReal.coe_one, ← EReal.coe_zero, ← EReal.coe_sub, sub_zero]

/-- `edge·(1 − diag) + diag` is that real number. -/
theorem ahat_eq (adj : SAdj.Idx → BitVec 32) (v : Fin 3) (n m : Fin 8192) :
    ahat adj v n m = ((ahatR adj v n m : ℝ) : EReal) := by
  unfold ahat edge diag ahatR
  by_cases h : n = m
  · rw [if_pos h, if_pos h, one_sub_one, mul_zero, zero_add, EReal.coe_one]
  · rw [if_neg h, if_neg h, one_sub_zero, mul_one, add_zero]
    by_cases h0 : adj (ix3 v n m) = 0#32
    · rw [if_pos h0, if_pos h0, EReal.coe_zero]
    · rw [if_neg h0, if_neg h0, EReal.coe_one]

theorem ahatR_nonneg (adj : SAdj.Idx → BitVec 32) (v : Fin 3) (n m : Fin 8192) : 0 ≤ ahatR adj v n m := by
  unfold ahatR
  split
  · exact zero_le_one
  · split
    · exact le_refl _
    · exact zero_le_one

theorem ahatR_diag (adj : SAdj.Idx → BitVec 32) (v : Fin 3) (n : Fin 8192) : ahatR adj v n n = 1 := by
  unfold ahatR; rw [if_pos rfl]

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The degree is a real number … -/
theorem deg_eq (adj : SAdj.Idx → BitVec 32) (v : Fin 3) (n : Fin 8192) :
    deg adj v n = ((∑ m : Fin 8192, ahatR adj v n m : ℝ) : EReal) := by
  unfold deg
  rw [coe_sum]
  exact Finset.sum_congr rfl fun m _ => ahat_eq adj v n m

/-- … that is at least 1: the diagonal term is 1 and no term is negative. -/
theorem one_le_degR (adj : SAdj.Idx → BitVec 32) (v : Fin 3) (n : Fin 8192) : 1 ≤ ∑ m : Fin 8192, ahatR adj v n m := by
  have h := Finset.single_le_sum (f := fun m => ahatR adj v n m) (fun m _ => ahatR_nonneg adj v n m) (Finset.mem_univ n)
  rw [ahatR_diag] at h
  exact h

/-- So `dinv` is the real number `(√deg)⁻¹`. -/
theorem dinv_eq (adj : SAdj.Idx → BitVec 32) (v : Fin 3) (n : Fin 8192) :
    dinv adj v n = (((Real.sqrt (∑ m : Fin 8192, ahatR adj v n m))⁻¹ : ℝ) : EReal) := by
  unfold dinv
  rw [deg_eq, Ideal.rsqrt_coe]
  have h1 := one_le_degR adj v n
  rw [if_neg (by linarith), if_neg (by linarith)]

theorem dinv_nonneg (adj : SAdj.Idx → BitVec 32) (v : Fin 3) (n : Fin 8192) : 0 ≤ dinv adj v n := by
  rw [dinv_eq]
  exact EReal.coe_nonneg.mpr (inv_nonneg.mpr (Real.sqrt_nonneg _))

theorem dinv_ne_top (adj : SAdj.Idx → BitVec 32) (v : Fin 3) (n : Fin 8192) : dinv adj v n ≠ ⊤ := by
  rw [dinv_eq]
  exact EReal.coe_ne_top _

/-- One layer: scaling the operand's rows by `dinv` before the sum and the result's row after it is the sum over the
    normalised adjacency, for every operand. -/
theorem layerK_eq_layerR (adj : SAdj.Idx → BitVec 32) (X : Fin 3 → Fin 8192 → Fin 128 → EReal) (b : SBias.Idx → EReal) :
    layerK adj X b = layerR adj X b := by
  funext v n h
  unfold layerK layerR
  have e : (∑ m : Fin 8192, ahat adj v n m * (dinv adj v m * X v m h)) * dinv adj v n
      = ∑ m : Fin 8192, (ahat adj v n m * dinv adj v n * dinv adj v m) * X v m h := by
    rw [← Cert.LibSumMulNonneg.univ_sum_mul_of_nonneg_of_ne_top (dinv_nonneg adj v n) (dinv_ne_top adj v n)]
    refine Finset.sum_congr rfl fun m _ => ?_
    ac_rfl
  rw [e]

/-- The two networks are one function. -/
theorem netK_eq_netR (adj : SAdj.Idx → BitVec 32) (W1 : SFeat.Idx → EReal) (b1 : SBias.Idx → EReal) (W2 : SW2.Idx → EReal)
    (b2 : SBias.Idx → EReal) : netK adj W1 b1 W2 b2 = netR adj W1 b1 W2 b2 := by
  unfold netK netR
  rw [layerK_eq_layerR, layerK_eq_layerR]

end Cert.Gcn

end
-- ==== Proof.Algebraic.lean ====
/-
  The two idealized programs, run from memories that agree on the arguments, end with equal results.

  The kernel's three results are `fused`, `attn` and the node embeddings `netK` of the arguments (its run with the
  buffers named, and the fold of buffer contents read boundary by boundary); the reference's are `fused`, `attn`
  and `netR` of the same arguments (its generated run, its stages read entry by entry); and `netK = netR` on the
  extended reals.  The tail is never opened: both sides apply the same two functions to equal embeddings.
-/
import proofs.«148398_j29910152249795_1_alg».proof.Defs
import proofs.«148398_j29910152249795_1_alg».proof.Proof.KernelRun
import proofs.«148398_j29910152249795_1_alg».proof.Proof.KernelChain
import proofs.«148398_j29910152249795_1_alg».proof.Proof.RefValue
import proofs.«148398_j29910152249795_1_alg».proof.Proof.RefTail
import proofs.«148398_j29910152249795_1_alg».proof.Proof.Law
import proofs.«148398_j29910152249795_1_alg».proof.Proof.Gen.Pre_finite_inputs

noncomputable section

namespace Cert.Proof.Alg

open Idealize.ShloMosaic Idealize.SL.Sem
open Cert.KernelIdeal.Chain Cert.KernelIdeal.HostGlue Cert.Gcn

/-- The reference's node embeddings are the kernel's. -/
theorem ref_emb (m : (ℓ : Loc Cert.KernelIdeal.nD Cert.KernelIdeal.τ Cert.KernelIdeal.sig) → Buf (Elt Ideal) ℓ)
    (c : Dev Cert.KernelIdeal.nD) :
    Cert.ReferenceIdeal.Read.val_main_v35 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = embK m c := by
  rw [Cert.ReferenceIdeal.RefValue.ref_net]
  show featArr (netR _ _ _ _ _) = featArr (netK _ _ _ _ _)
  rw [netK_eq_netR]

/-- `Cert.algebraic_KernelIdeal_ReferenceIdeal`, given what the three regions leave. -/
theorem algebraic_of (hR : RegionValues) : Cert.algebraic_KernelIdeal_ReferenceIdeal := by
  intro m ρ m' ρ' _ hagree
  refine ⟨fun c => fused (F := Ideal) (embK m c)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    fun c => attn (F := Ideal) (embK m c)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    fun c => embK m c, ?_, ?_⟩
  · exact (θ_run Cert.KernelIdeal.defs _ _).mono (fun r h c =>
      ⟨(h c).1.trans (W8_fused m ρ c hR), (h c).2.1.trans (W8_attn m ρ c hR), (h c).2.2.1.trans (W8_emb m ρ c hR), (h c).2.2.2⟩)
      (Cert.KernelIdeal.RunValue.run_named (F := Ideal) m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v72_eq, Cert.ReferenceIdeal.RefTail.fused_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, (hagree c).2.2.2.2.2.2.2.2.2.1,
        (hagree c).2.2.2.2.2.2.2.2.2.2.1, (hagree c).2.2.2.2.2.2.2.2.2.2.2.1, (hagree c).2.2.2.2.2.2.2.2.2.2.2.2, ref_emb m c]
    · rw [(h c).2.1, Cert.ReferenceIdeal.Read.val_main_v58_eq, Cert.ReferenceIdeal.RefTail.attn_eq,
        (hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1, ref_emb m c]
    · rw [(h c).2.2.1, Cert.ReferenceIdeal.Read.val_main_v35_eq,
        (hagree c).1, (hagree c).2.1, (hagree c).2.2.1, (hagree c).2.2.2.1, (hagree c).2.2.2.2.1, ref_emb m c]

end Cert.Proof.Alg

end
-- ==== Proof.lean ====
/-
  A three-view graph convolution on 8192 nodes: the kernel program against its plain reference, over the extended
  reals.

  Both programs build the self-looped binary adjacency Â (1 on the diagonal, elsewhere 1 where the integer entry is
  nonzero), its degrees and `dinv = deg^(-1/2)`, apply two layers  max(D^(-1/2)·Â·D^(-1/2)·X + bias, 0)  with a
  product by a second weight between them, and finish with the same attention and fusion operations.  The kernel
  folds the normalisation into a scaling of the operand's rows before the sum and of the result's row after it,
  (Σ_m â(n,m)·(dinv m·X m))·dinv n, where the reference sums over the normalised matrix, Σ_m ((â(n,m)·dinv n)·dinv m)·X m.
  Every degree is at least 1 (the diagonal entry), so `dinv` is a nonnegative real, and multiplication by such a
  factor goes through a finite sum of arbitrary extended reals: the two arrangements are one function, with no
  finiteness asked of the float arguments.

  The frames of the two kernel programs are the generated ones; the reference's frame is its generated run with
  the results dropped; the idealization rewrote nothing.  The kernel's values are read off its run region by region:
  region 0 leaves Â and the degrees (an accumulation over the eight column blocks of a row block), regions 1 and 2
  each leave one layer of their input arrays, and the host operations between them are read entry by entry.
-/
import proofs.«148398_j29910152249795_1_alg».proof.Defs
import proofs.«148398_j29910152249795_1_alg».proof.Proof.Gen.Kernel
import proofs.«148398_j29910152249795_1_alg».proof.Proof.Gen.Kernel.Skeleton
import proofs.«148398_j29910152249795_1_alg».proof.Proof.Gen.Kernel.Launch
import proofs.«148398_j29910152249795_1_alg».proof.Proof.Gen.Kernel.Points
import proofs.«148398_j29910152249795_1_alg».proof.Proof.Gen.Kernel.Frame
import proofs.«148398_j29910152249795_1_alg».proof.Proof.Gen.KernelIdeal
import proofs.«148398_j29910152249795_1_alg».proof.Proof.Gen.KernelIdeal.Skeleton
import proofs.«148398_j29910152249795_1_alg».proof.Proof.Gen.KernelIdeal.Launch
import proofs.«148398_j29910152249795_1_alg».proof.Proof.Gen.KernelIdeal.Points
import proofs.«148398_j29910152249795_1_alg».proof.Proof.Gen.KernelIdeal.Frame
import proofs.«148398_j29910152249795_1_alg».proof.Proof.Gen.ReferenceIdeal
import proofs.«148398_j29910152249795_1_alg».proof.Proof.Gen.Pre_finite_inputs
import proofs.«148398_j29910152249795_1_alg».proof.Proof.Gen.ReferenceIdeal.Run
import proofs.«148398_j29910152249795_1_alg».proof.Proof.Gen.ReferenceIdeal.Read
import proofs.«148398_j29910152249795_1_alg».proof.Proof.PrepValue
import proofs.«148398_j29910152249795_1_alg».proof.Proof.LayerValue
import proofs.«148398_j29910152249795_1_alg».proof.Proof.Algebraic
import Idealize.ShloMosaic.Adequacy
import Idealize.ShloMosaic.Init

noncomputable section

namespace Cert.Proof

open Idealize.ShloMosaic Idealize.SL.Sem

/-- What the kernel's three regions leave in their output arrays, whatever the buffers hold when each is entered. -/
theorem region_values : Cert.KernelIdeal.Chain.RegionValues :=
  ⟨Cert.KernelIdeal.PrepValue.ah_final, Cert.KernelIdeal.PrepValue.deg_final,
    Cert.KernelIdeal.LayerValue.layer1_final, Cert.KernelIdeal.LayerValue.layer2_final⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.Value.run (F := Ideal) m ρ),
  trivial,
  Cert.Proof.Alg.algebraic_of region_values⟩

end Cert.Proof

end
